-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x256 : Shape := ⟨2, ![200000, 256]⟩
abbrev S256x16 : Shape := ⟨2, ![256, 16]⟩
abbrev S16 : Shape := ⟨1, ![16]⟩
abbrev S16x3 : Shape := ⟨2, ![16, 3]⟩
abbrev S3 : Shape := ⟨1, ![3]⟩
abbrev S2x6400000 : Shape := ⟨2, ![2, 6400000]⟩
abbrev S_ : Shape := ⟨0, ![]⟩

class Facts : Prop where
  bcast_S_S200000x256 : S_.BroadcastsInDim S200000x256 (![] : Fin 0 → Fin S200000x256.rank)
  reducesTo_S200000x256_S_d0_1 : S200000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x3 : S_.BroadcastsInDim S16x3 (![] : Fin 0 → Fin S16x3.rank)
  reducesTo_S16x3_S_d0_1 : S16x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S16 .f32) (main_arg5 : FVec F S16x3 .f32) (main_arg6 : FVec F S3 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x3 .f32 := Host.absf main_arg5
  let main_cst_8 : FVec F S_ .f32 := constant S_ .f32 0x7F800000#32
  let main_v25 : FVec F S16x3 .f32 := broadcastInDim S16x3 ![] bcast_S_S16x3 main_cst_8
  let main_v26 : IVec S16x3 1 := cmpf .olt main_v24 main_v25
  let main_c_9 : IVec S_ 1 := constantI S_ 1 1#1
  let main_v27 : IVec S_ 1 := (fun x v => Host.reduce IntOp.andi x v reducesTo_S16x3_S_d0_1 h_S_) main_v26 main_c_9
  let main_v28 : IVec S_ 1 := andi main_v23 main_v27
  let main_v29 : FVec F S3 .f32 := Host.absf main_arg6
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S200000x256 .f32) (main_arg1 : FVec F S256x16 .f32) (main_arg2 : FVec F S16 .f32) (main_arg3 : FVec F S16 .f32) (main_arg4 : FVec F S16 .f32) (main_arg5 : FVec F S16x3 .f32) (main_arg6 : FVec F S3 .f32) (main_arg7 : IVec S2x6400000 32) : IVec S_ 1 :=
  let main_v0 : FVec F S200000x256 .f32 := Host.absf main_arg0
  let main_cst : FVec F S_ .f32 := constant S_ .f32 0x7F800000#32
  let main_v1 : FVec F S200000x256 .f32 := broadcastInDim S200000x256 ![] bcast_S_S200000x256 main_cst
  let main_v2 : IVec S200000x256 1 := cmpf .olt main_v0 main_v1
  let main_c : IVec S_ 1 := constantI S_ 1 1#1
  let main_v3 : IVec S_ 1 := (fun x v => Host.reduce IntOp.andi x v reducesTo_S200000x256_S_d0_1 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_v13 main_v16
-- ==== Kernel.lean ====
abbrev S200000x256 : Shape := ⟨2, ![200000, 256]⟩
abbrev S256x16 : Shape := ⟨2, ![256, 16]⟩
abbrev S16 : Shape := ⟨1, ![16]⟩
abbrev S16x3 : Shape := ⟨2, ![16, 3]⟩
abbrev S3 : Shape := ⟨1, ![3]⟩
abbrev S2x6400000 : Shape := ⟨2, ![2, 6400000]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S1x16 : Shape := ⟨2, ![1, 16]⟩
abbrev S1x3 : Shape := ⟨2, ![1, 3]⟩
abbrev S200000x16 : Shape := ⟨2, ![200000, 16]⟩
abbrev S10000x256 : Shape := ⟨2, ![10000, 256]⟩
abbrev S10000x16 : Shape := ⟨2, ![10000, 16]⟩
abbrev S6600000x16 : Shape := ⟨2, ![6600000, 16]⟩
abbrev S200000x3 : Shape := ⟨2, ![200000, 3]⟩
abbrev S10000x3 : Shape := ⟨2, ![10000, 3]⟩
abbrev S6600000x3 : Shape := ⟨2, ![6600000, 3]⟩
abbrev S10000 : Shape := ⟨1, ![10000]⟩
abbrev S10000x1 : Shape := ⟨2, ![10000, 1]⟩

abbrev nBuf : Space → Nat
  | .hbm => 92
  | .vmem => 25
  | .smem => 0
  | _ => 0

abbrev bufTy : (tb : Table) → Fin (tcTables nBuf tb) → BufTy
  | .hbm, ⟨0, _⟩ => ⟨S200000x256, .f32⟩
  | .hbm, ⟨1, _⟩ => ⟨S256x16, .f32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S16x3, .f32⟩
  | .hbm, ⟨6, _⟩ => ⟨S3, .f32⟩
  | .hbm, ⟨7, _⟩ => ⟨S2x6400000, .i32⟩
  | .hbm, ⟨8, _⟩ => ⟨S200000, .i32⟩
  | .hbm, ⟨9, _⟩ => ⟨S1x6400000, .i32⟩
  | .hbm, ⟨10, _⟩ => ⟨S6400000, .i32⟩
  | .hbm, ⟨11, _⟩ => ⟨S1x6400000, .i32⟩
  | .hbm, ⟨12, _⟩ => ⟨S6400000, .i32⟩
  | .hbm, ⟨13, _⟩ => ⟨S6600000, .i32⟩
  | .hbm, ⟨14, _⟩ => ⟨S6600000, .i32⟩
  | .hbm, ⟨15, _⟩ => ⟨S_, .f32⟩
  | .hbm, ⟨16, _⟩ => ⟨S6600000, .f32⟩
  | .hbm, ⟨17, _⟩ => ⟨S_, .f32⟩
  | .hbm, ⟨18, _⟩ => ⟨S200000, .f32⟩
  | .hbm, ⟨19, _⟩ => ⟨S6600000x1, .i32⟩
  | .hbm, ⟨20, _⟩ => ⟨S200000, .f32⟩
  | .hbm, ⟨21, _⟩ => ⟨S200000, .f32⟩
  | .hbm, ⟨22, _⟩ => ⟨S_, .i32⟩
  | .hbm, ⟨23, _⟩ => ⟨S6600000, .i32⟩
  | .hbm, ⟨24, _⟩ => ⟨S6600000, .i1⟩
  | .hbm, ⟨25, _⟩ => ⟨S_, .i32⟩
  | .hbm, ⟨26, _⟩ => ⟨S6600000, .i32⟩
  | .hbm, ⟨27, _⟩ => ⟨S6600000, .i32⟩
  | .hbm, ⟨28, _⟩ => ⟨S6600000, .i32⟩
  | .hbm, ⟨29, _⟩ => ⟨S6600000x1, .i32⟩
  | .hbm, ⟨30, _⟩ => ⟨S6600000, .f32⟩
  | .hbm, ⟨31, _⟩ => ⟨S_, .i32⟩
  | .hbm, ⟨32, _⟩ => ⟨S6600000, .i32⟩
  | .hbm, ⟨33, _⟩ => ⟨S6600000, .i1⟩
  | .hbm, ⟨34, _⟩ => ⟨S_, .i32⟩
  | .hbm, ⟨35, _⟩ => ⟨S6600000, .i32⟩
  | .hbm, ⟨36, _⟩ => ⟨S6600000, .i32⟩
  | .hbm, ⟨37, _⟩ => ⟨S6600000, .i32⟩
  | .hbm, ⟨38, _⟩ => ⟨S6600000x1, .i32⟩
  | .hbm, ⟨39, _⟩ => ⟨S6600000, .f32⟩
  | .hbm, ⟨40, _⟩ => ⟨S6600000, .f32⟩
  | .hbm, ⟨41, _⟩ => ⟨S6600000x1, .f32⟩
  | .hbm, ⟨42, _⟩ => ⟨S1x16, .f32⟩
  | .hbm, ⟨43, _⟩ => ⟨S1x16, .f32⟩
  | .hbm, ⟨44, _⟩ => ⟨S1x16, .f32⟩
  | .hbm, ⟨45, _⟩ => ⟨S1x3, .f32⟩
  | .hbm, ⟨46, _⟩ => ⟨S200000x16, .f32⟩
  | .hbm, ⟨47, _⟩ => ⟨S_, .i32⟩
  | .hbm, ⟨48, _⟩ => ⟨S6600000, .i32⟩
  | .hbm, ⟨49, _⟩ => ⟨S6600000, .i1⟩
  | .hbm, ⟨50, _⟩ => ⟨S_, .i32⟩
  | .hbm, ⟨51, _⟩ => ⟨S6600000, .i32⟩
  | .hbm, ⟨52, _⟩ => ⟨S6600000, .i32⟩
  | .hbm, ⟨53, _⟩ => ⟨S6600000, .i32⟩
  | .hbm, ⟨54, _⟩ => ⟨S6600000x1, .i32⟩
  | .hbm, ⟨55, _⟩ => ⟨S6600000x16, .f32⟩
  | .hbm, ⟨56, _⟩ => ⟨S6600000x16, .f32⟩
  | .hbm, ⟨57, _⟩ => ⟨S6600000x16, .f32⟩
  | .hbm, ⟨58, _⟩ => ⟨S_, .f32⟩
  | .hbm, ⟨59, _⟩ => ⟨S200000x16, .f32⟩
  | .hbm, ⟨60, _⟩ => ⟨S6600000x1, .i32⟩
  | .hbm, ⟨61, _⟩ => ⟨S200000x16, .f32⟩
  | .hbm, ⟨62, _⟩ => ⟨S1x16, .f32⟩
  | .hbm, ⟨63, _⟩ => ⟨S1x16, .f32⟩
  | .hbm, ⟨64, _⟩ => ⟨S_, .f32⟩
  | .hbm, ⟨65, _⟩ => ⟨S1x16, .f32⟩
  | .hbm, ⟨66, _⟩ => ⟨S1x16, .f32⟩
  | .hbm, ⟨67, _⟩ => ⟨S_, .f32⟩
  | .hbm, ⟨68, _⟩ => ⟨S1x16, .f32⟩
  | .hbm, ⟨69, _⟩ => ⟨S1x16, .f32⟩
  | .hbm, ⟨70, _⟩ => ⟨S1x16, .f32⟩
  | .hbm, ⟨71, _⟩ => ⟨S1x16, .f32⟩
  | .hbm, ⟨72, _⟩ => ⟨S_, .f32⟩
  | .hbm, ⟨73, _⟩ => ⟨S1x16, .f32⟩
  | .hbm, ⟨74, _⟩ => ⟨S1x16, .f32⟩
  | .hbm, ⟨75, _⟩ => ⟨S200000x3, .f32⟩
  | .hbm, ⟨76, _⟩ => ⟨S_, .i32⟩
  | .hbm, ⟨77, _⟩ => ⟨S6600000, .i32⟩
  | .hbm, ⟨78, _⟩ => ⟨S6600000, .i1⟩
  | .hbm, ⟨79, _⟩ => ⟨S_, .i32⟩
  | .hbm, ⟨80, _⟩ => ⟨S6600000, .i32⟩
  | .hbm, ⟨81, _⟩ => ⟨S6600000, .i32⟩
  | .hbm, ⟨82, _⟩ => ⟨S6600000, .i32⟩
  | .hbm, ⟨83, _⟩ => ⟨S6600000x1, .i32⟩
  | .hbm, ⟨84, _⟩ => ⟨S6600000x3, .f32⟩
  | .hbm, ⟨85, _⟩ => ⟨S6600000x3, .f32⟩
  | .hbm, ⟨86, _⟩ => ⟨S6600000x3, .f32⟩
  | .hbm, ⟨87, _⟩ => ⟨S_, .f32⟩
  | .hbm, ⟨88, _⟩ => ⟨S200000x3, .f32⟩
  | .hbm, ⟨89, _⟩ => ⟨S6600000x1, .i32⟩
  | .hbm, ⟨90, _⟩ => ⟨S200000x3, .f32⟩
  | .hbm, ⟨91, _⟩ => ⟨S200000x3, .f32⟩
  | .local _ .vmem, ⟨0, _⟩ => ⟨S10000x256, .f32⟩
  | .local _ .vmem, ⟨1, _⟩ => ⟨S10000x256, .f32⟩
  | .local _ .vmem, ⟨2, _⟩ => ⟨S256x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S1x16, .f32⟩
  | .local _ .vmem, ⟨9, _⟩ => ⟨S1x16, .f32⟩
  | .local _ .vmem, ⟨10, _⟩ => ⟨S10000x16, .f32⟩
  | .local _ .vmem, ⟨11, _⟩ => ⟨S10000x16, .f32⟩
  | .local _ .vmem, ⟨12, _⟩ => ⟨S1x16, .f32⟩
  | .local _ .vmem, ⟨13, _⟩ => ⟨S1x16, .f32⟩
  | .local _ .vmem, ⟨14, _⟩ => ⟨S1x16, .f32⟩
  | .local _ .vmem, ⟨15, _⟩ => ⟨S1x16, .f32⟩
  | .local _ .vmem, ⟨16, _⟩ => ⟨S1x16, .f32⟩
  | .local _ .vmem, ⟨17, _⟩ => ⟨S16x3, .f32⟩
  | .local _ .vmem, ⟨18, _⟩ => ⟨S10000x3, .f32⟩
  | .local _ .vmem, ⟨19, _⟩ => ⟨S10000x3, .f32⟩
  | .local _ .vmem, ⟨20, _⟩ => ⟨S10000x3, .f32⟩
  | .local _ .vmem, ⟨21, _⟩ => ⟨S10000x3, .f32⟩
  | .local _ .vmem, ⟨22, _⟩ => ⟨S1x3, .f32⟩
  | .local _ .vmem, ⟨23, _⟩ => ⟨S10000x3, .f32⟩
  | .local _ .vmem, ⟨24, _⟩ => ⟨S10000x3, .f32⟩
  | _, _ => ⟨S200000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45_0 : Ref sig .tc := ⟨.hbm, 62, rfl⟩
abbrev main_v45_1 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg7_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem7_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x16 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S16x3 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x3 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x3 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x3 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x3 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  concatenates_S6400000_S200000_S6600000_d0 : Shape.Concatenates [S6400000, S200000] S6600000 0
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  shapeCasts_S16_S1x16 : S16.ShapeCasts S1x16
  shapeCasts_S3_S1x3 : S3.ShapeCasts S1x3
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S10000x16_S10000x16_0_0 : ∀ a, (![0, 0] : Fin 2 → Nat) a + S10000x16.size a ≤ S10000x16.size a
  h_S10000x16 : 0 < S10000x16.numel
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  inb_S1x16_S1x16_0_0 : ∀ a, (![0, 0] : Fin 2 → Nat) a + S1x16.size a ≤ S1x16.size a
  h_S1x16 : 0 < S1x16.numel
  shapeCasts_S10000x16_S10000x16 : S10000x16.ShapeCasts S10000x16
  shapeCasts_S1x16_S1x16 : S1x16.ShapeCasts S1x16
  broadcasts_S1x16_S10000x16 : S1x16.Broadcasts S10000x16
  reduces_S10000x16_S16 : S10000x16.Reduces [0] S16
  bcast_S_S1x16 : S_.BroadcastsInDim S1x16 (![] : Fin 0 → Fin S1x16.rank)
  inb_S16x3_S16x3_0_0 : ∀ a, (![0, 0] : Fin 2 → Nat) a + S16x3.size a ≤ S16x3.size a
  h_S16x3 : 0 < S16x3.numel
  inb_S10000x3_S10000x3_0_0 : ∀ a, (![0, 0] : Fin 2 → Nat) a + S10000x3.size a ≤ S10000x3.size a
  h_S10000x3 : 0 < S10000x3.numel
  bcast_S6600000x1_S6600000x3_0_1 : S6600000x1.BroadcastsInDim S6600000x3 (![0, 1] : Fin 2 → Fin S6600000x3.rank)
  bcast_S_S200000x3 : S_.BroadcastsInDim S200000x3 (![] : Fin 0 → Fin S200000x3.rank)
  shapeCasts_S10000x3_S10000x3 : S10000x3.ShapeCasts S10000x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S10000x3 : S1x3.Broadcasts S10000x3
  reduces_S10000x3_S10000 : S10000x3.Reduces [1] S10000
  shapeCasts_S10000_S10000x1 : S10000.ShapeCasts S10000x1
  broadcasts_S10000x1_S10000x3 : S10000x1.Broadcasts S10000x3
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S10000x256_S256x16_S10000x16_1_0_0_1_n_n_wf : DotDims.WF S10000x256 S256x16 S10000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S10000x16_S16x3_S10000x3_1_0_0_1_n_n_wf : DotDims.WF S10000x16 S16x3 S10000x3 [1] [0] [0] [1] [] []
  gather_S200000x3_S6600000x1_S6600000x3_1_0_n_n_0_1_13_wf : GatherDims.WF S200000x3 S6600000x1 S6600000x3 [1] [0] [] [0] [] 1 ![1, 3]
  scatter_S200000x3_S6600000x1_S6600000x3_1_0_0_1_wf : ScatterDims.WF S200000x3 S6600000x1 S6600000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S200000x256.size a
  hwx0_0 : ∀ i : grid0.Coords, EltTy.bits .f32 = 32 ∨ (Rect.block (s := S200000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S200000x16.size a
  hwx0_2 : ∀ i : grid0.Coords, EltTy.bits .f32 = 32 ∨ (Rect.block (s := S200000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S200000x16.size a
  hwx1_0 : ∀ i : grid1.Coords, EltTy.bits .f32 = 32 ∨ (Rect.block (s := S200000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S200000x16.size a
  hwx2_0 : ∀ i : grid2.Coords, EltTy.bits .f32 = 32 ∨ (Rect.block (s := S200000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x16.size a ≤ S1x16.size a
  hwx2_4 : ∀ i : grid2.Coords, EltTy.bits .f32 = 32 ∨ (Rect.block (s := S1x16) S1x16.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x16.size a ≤ S1x16.size a
  hwx2_5 : ∀ i : grid2.Coords, EltTy.bits .f32 = 32 ∨ (Rect.block (s := S1x16) S1x16.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S16x3.size a ≤ S16x3.size a
  hwx2_6 : ∀ i : grid2.Coords, EltTy.bits .f32 = 32 ∨ (Rect.block (s := S16x3) S16x3.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x3.size a ≤ S200000x3.size a
  hwx2_7 : ∀ i : grid2.Coords, EltTy.bits .f32 = 32 ∨ (Rect.block (s := S200000x3) S10000x3.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x3.size a ≤ S200000x3.size a
  hwx3_0 : ∀ i : grid3.Coords, EltTy.bits .f32 = 32 ∨ (Rect.block (s := S200000x3) S10000x3.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x3.size a ≤ S1x3.size a
  hwx3_1 : ∀ i : grid3.Coords, EltTy.bits .f32 = 32 ∨ (Rect.block (s := S1x3) S1x3.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x3.size a ≤ S200000x3.size a
  hwx3_2 : ∀ i : grid3.Coords, EltTy.bits .f32 = 32 ∨ (Rect.block (s := S200000x3) S10000x3.size (cc3_transform_2 i) (hinb3_2 i)).WholeWords (EltTy.packing .f32)

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S10000x256_S256x16_S10000x16_1_0_0_1_n_n : DotDims S10000x256 S256x16 S10000x16 where
  lhsContracting := [1]
  rhsContracting := [0]
  lhsNonContracting := [0]
  rhsNonContracting := [1]
  lhsBatch := []
  rhsBatch := []
  wf := dot_S10000x256_S256x16_S10000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S10000x16_S16x3_S10000x3_1_0_0_1_n_n : DotDims S10000x16 S16x3 S10000x3 where
  lhsContracting := [1]
  rhsContracting := [0]
  lhsNonContracting := [0]
  rhsNonContracting := [1]
  lhsBatch := []
  rhsBatch := []
  wf := dot_S10000x16_S16x3_S10000x3_1_0_0_1_n_n_wf
def gather_S200000x3_S6600000x1_S6600000x3_1_0_n_n_0_1_13 : GatherDims S200000x3 S6600000x1 S6600000x3 where
  offsetDims := [1]
  collapsedSliceDims := [0]
  operandBatchingDims := []
  startIndicesBatchingDims := []
  startIndexMap := [0]
  indexVectorDim := 1
  sliceSizes := ![1, 3]
  wf := gather_S200000x3_S6600000x1_S6600000x3_1_0_n_n_0_1_13_wf
def scatter_S200000x3_S6600000x1_S6600000x3_1_0_0_1 : ScatterDims S200000x3 S6600000x1 S6600000x3 where
  updateWindowDims := [1]
  insertedWindowDims := [0]
  scatterDimsToOperandDims := [0]
  indexVectorDim := 1
  wf := scatter_S200000x3_S6600000x1_S6600000x3_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45_0) S1x16.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45_1) S1x16.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v44) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S1x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S1x16.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg5) S16x3.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v54) S10000x3.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v66) S10000x3.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S1x3.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v67) S10000x3.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S200000x256 : Shape := ⟨2, ![200000, 256]⟩
abbrev S256x16 : Shape := ⟨2, ![256, 16]⟩
abbrev S16 : Shape := ⟨1, ![16]⟩
abbrev S16x3 : Shape := ⟨2, ![16, 3]⟩
abbrev S3 : Shape := ⟨1, ![3]⟩
abbrev S2x6400000 : Shape := ⟨2, ![2, 6400000]⟩
abbrev S200000 : Shape := ⟨1, ![200000]⟩
abbrev S1x6400000 : Shape := ⟨2, ![1, 6400000]⟩
abbrev S6400000 : Shape := ⟨1, ![6400000]⟩
abbrev S6600000 : Shape := ⟨1, ![6600000]⟩
abbrev S_ : Shape := ⟨0, ![]⟩
abbrev S6600000x1 : Shape := ⟨2, ![6600000, 1]⟩
abbrev S200000x16 : Shape := ⟨2, ![200000, 16]⟩
abbrev S6600000x16 : Shape := ⟨2, ![6600000, 16]⟩
abbrev S1x16 : Shape := ⟨2, ![1, 16]⟩
abbrev S200000x3 : Shape := ⟨2, ![200000, 3]⟩
abbrev S6600000x3 : Shape := ⟨2, ![6600000, 3]⟩
abbrev S1x3 : Shape := ⟨2, ![1, 3]⟩
abbrev S200000x1 : Shape := ⟨2, ![200000, 1]⟩

abbrev nBuf : Space → Nat
  | .hbm => 142
  | .vmem => 0
  | .smem => 0
  | _ => 0

abbrev hbmTy0_0 (i : Nat) : BufTy := match i % 128 with
  | 0 => ⟨S200000x256, .f32⟩
  | 1 => ⟨S256x16, .f32⟩
  | 2 => ⟨S16, .f32⟩
  | 3 => ⟨S16, .f32⟩
  | 4 => ⟨S16, .f32⟩
  | 5 => ⟨S16x3, .f32⟩
  | 6 => ⟨S3, .f32⟩
  | 7 => ⟨S2x6400000, .i32⟩
  | 8 => ⟨S200000, .i32⟩
  | 9 => ⟨S1x6400000, .i32⟩
  | 10 => ⟨S6400000, .i32⟩
  | 11 => ⟨S6600000, .i32⟩
  | 12 => ⟨S1x6400000, .i32⟩
  | 13 => ⟨S6400000, .i32⟩
  | 14 => ⟨S6600000, .i32⟩
  | 15 => ⟨S_, .f32⟩
  | 16 => ⟨S6600000, .f32⟩
  | 17 => ⟨S_, .f32⟩
  | 18 => ⟨S200000, .f32⟩
  | 19 => ⟨S6600000x1, .i32⟩
  | 20 => ⟨S200000, .f32⟩
  | 21 => ⟨S200000, .f32⟩
  | 22 => ⟨S_, .i32⟩
  | 23 => ⟨S6600000, .i32⟩
  | 24 => ⟨S6600000, .i1⟩
  | 25 => ⟨S_, .i32⟩
  | 26 => ⟨S6600000, .i32⟩
  | 27 => ⟨S6600000, .i32⟩
  | 28 => ⟨S6600000, .i32⟩
  | 29 => ⟨S6600000x1, .i32⟩
  | 30 => ⟨S6600000, .f32⟩
  | 31 => ⟨S_, .i32⟩
  | 32 => ⟨S6600000, .i32⟩
  | 33 => ⟨S6600000, .i1⟩
  | 34 => ⟨S_, .i32⟩
  | 35 => ⟨S6600000, .i32⟩
  | 36 => ⟨S6600000, .i32⟩
  | 37 => ⟨S6600000, .i32⟩
  | 38 => ⟨S6600000x1, .i32⟩
  | 39 => ⟨S6600000, .f32⟩
  | 40 => ⟨S6600000, .f32⟩
  | 41 => ⟨S6600000x1, .f32⟩
  | 42 => ⟨S200000x16, .f32⟩
  | 43 => ⟨S_, .i32⟩
  | 44 => ⟨S6600000, .i32⟩
  | 45 => ⟨S6600000, .i1⟩
  | 46 => ⟨S_, .i32⟩
  | 47 => ⟨S6600000, .i32⟩
  | 48 => ⟨S6600000, .i32⟩
  | 49 => ⟨S6600000, .i32⟩
  | 50 => ⟨S6600000x1, .i32⟩
  | 51 => ⟨S6600000x16, .f32⟩
  | 52 => ⟨S6600000x16, .f32⟩
  | 53 => ⟨S6600000x16, .f32⟩
  | 54 => ⟨S_, .f32⟩
  | 55 => ⟨S200000x16, .f32⟩
  | 56 => ⟨S6600000x1, .i32⟩
  | 57 => ⟨S200000x16, .f32⟩
  | 58 => ⟨S1x16, .f32⟩
  | 59 => ⟨S200000x16, .f32⟩
  | 60 => ⟨S200000x16, .f32⟩
  | 61 => ⟨S_, .f32⟩
  | 62 => ⟨S16, .f32⟩
  | 63 => ⟨S_, .f32⟩
  | 64 => ⟨S16, .f32⟩
  | 65 => ⟨S16, .f32⟩
  | 66 => ⟨S_, .i32⟩
  | 67 => ⟨S_, .f32⟩
  | 68 => ⟨S16, .f32⟩
  | 69 => ⟨S1x16, .f32⟩
  | 70 => ⟨S_, .f32⟩
  | 71 => ⟨S1x16, .f32⟩
  | 72 => ⟨S1x16, .f32⟩
  | 73 => ⟨S200000x16, .f32⟩
  | 74 => ⟨S200000x16, .f32⟩
  | 75 => ⟨S200000x16, .f32⟩
  | 76 => ⟨S_, .f32⟩
  | 77 => ⟨S_, .f32⟩
  | 78 => ⟨S_, .f32⟩
  | 79 => ⟨S_, .f32⟩
  | 80 => ⟨S16, .f32⟩
  | 81 => ⟨S16, .f32⟩
  | 82 => ⟨S16, .f32⟩
  | 83 => ⟨S_, .f32⟩
  | 84 => ⟨S_, .i1⟩
  | 85 => ⟨S_, .f32⟩
  | 86 => ⟨S_, .f32⟩
  | 87 => ⟨S16, .f32⟩
  | 88 => ⟨S16, .f32⟩
  | 89 => ⟨S1x16, .f32⟩
  | 90 => ⟨S200000x16, .f32⟩
  | 91 => ⟨S200000x16, .f32⟩
  | 92 => ⟨S_, .f32⟩
  | 93 => ⟨S16, .f32⟩
  | 94 => ⟨S16, .f32⟩
  | 95 => ⟨S16, .f32⟩
  | 96 => ⟨S1x16, .f32⟩
  | 97 => ⟨S200000x16, .f32⟩
  | 98 => ⟨S200000x16, .f32⟩
  | 99 => ⟨S1x16, .f32⟩
  | 100 => ⟨S200000x16, .f32⟩
  | 101 => ⟨S200000x16, .f32⟩
  | 102 => ⟨S1x16, .f32⟩
  | 103 => ⟨S200000x16, .f32⟩
  | 104 => ⟨S200000x16, .f32⟩
  | 105 => ⟨S_, .f32⟩
  | 106 => ⟨S200000x16, .f32⟩
  | 107 => ⟨S200000x16, .f32⟩
  | 108 => ⟨S200000x3, .f32⟩
  | 109 => ⟨S_, .i32⟩
  | 110 => ⟨S6600000, .i32⟩
  | 111 => ⟨S6600000, .i1⟩
  | 112 => ⟨S_, .i32⟩
  | 113 => ⟨S6600000, .i32⟩
  | 114 => ⟨S6600000, .i32⟩
  | 115 => ⟨S6600000, .i32⟩
  | 116 => ⟨S6600000x1, .i32⟩
  | 117 => ⟨S6600000x3, .f32⟩
  | 118 => ⟨S6600000x3, .f32⟩
  | 119 => ⟨S6600000x3, .f32⟩
  | 120 => ⟨S_, .f32⟩
  | 121 => ⟨S200000x3, .f32⟩
  | 122 => ⟨S6600000x1, .i32⟩
  | 123 => ⟨S200000x3, .f32⟩
  | 124 => ⟨S1x3, .f32⟩
  | 125 => ⟨S200000x3, .f32⟩
  | 126 => ⟨S200000x3, .f32⟩
  | 127 => ⟨S_, .f32⟩
  | _ => ⟨S200000x256, .f32⟩

abbrev hbmTy0_1 (i : Nat) : BufTy := match i % 128 with
  | 0 => ⟨S200000, .f32⟩
  | 1 => ⟨S_, .f32⟩
  | 2 => ⟨S200000, .f32⟩
  | 3 => ⟨S200000, .f32⟩
  | 4 => ⟨S200000x1, .f32⟩
  | 5 => ⟨S200000x3, .f32⟩
  | 6 => ⟨S200000x3, .f32⟩
  | 7 => ⟨S200000x3, .f32⟩
  | 8 => ⟨S_, .f32⟩
  | 9 => ⟨S200000, .f32⟩
  | 10 => ⟨S200000x1, .f32⟩
  | 11 => ⟨S200000x1, .f32⟩
  | 12 => ⟨S200000x3, .f32⟩
  | 13 => ⟨S200000x3, .f32⟩
  | _ => ⟨S200000x256, .f32⟩

abbrev hbmTy (i : Nat) : BufTy := match i / 128 with
  | 0 => hbmTy0_0 i
  | 1 => hbmTy0_1 i
  | _ => ⟨S200000x256, .f32⟩

abbrev bufTy : (tb : Table) → Fin (tcTables nBuf tb) → BufTy
  | .hbm, ⟨i, _⟩ => hbmTy i
  | _, _ => ⟨S200000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_call0_cst : Ref sig .tc := ⟨.hbm, 67, rfl⟩
abbrev main_call0_v0 : Ref sig .tc := ⟨.hbm, 68, rfl⟩
abbrev main_call0_v1 : Ref sig .tc := ⟨.hbm, 69, rfl⟩
abbrev main_call0_cst_0 : Ref sig .tc := ⟨.hbm, 70, rfl⟩
abbrev main_call0_v2 : Ref sig .tc := ⟨.hbm, 71, rfl⟩
abbrev main_call0_v3 : Ref sig .tc := ⟨.hbm, 72, rfl⟩
abbrev main_call0_v4 : Ref sig .tc := ⟨.hbm, 73, rfl⟩
abbrev main_call0_v5 : Ref sig .tc := ⟨.hbm, 74, rfl⟩
abbrev main_call0_v6 : Ref sig .tc := ⟨.hbm, 75, rfl⟩
abbrev main_call0_v7 : Ref sig .tc := ⟨.hbm, 76, rfl⟩
abbrev main_call0_cst_1 : Ref sig .tc := ⟨.hbm, 77, rfl⟩
abbrev main_call0_v8 : Ref sig .tc := ⟨.hbm, 78, rfl⟩
abbrev main_call0_cst_2 : Ref sig .tc := ⟨.hbm, 79, rfl⟩
abbrev main_call0_v9 : Ref sig .tc := ⟨.hbm, 80, rfl⟩
abbrev main_call0_v10 : Ref sig .tc := ⟨.hbm, 81, rfl⟩
abbrev main_call0_v11 : Ref sig .tc := ⟨.hbm, 82, rfl⟩
abbrev main_call0_cst_3 : Ref sig .tc := ⟨.hbm, 83, rfl⟩
abbrev main_call0_v12 : Ref sig .tc := ⟨.hbm, 84, rfl⟩
abbrev main_call0_cst_4 : Ref sig .tc := ⟨.hbm, 85, rfl⟩
abbrev main_call0_call0_v0 : Ref sig .tc := ⟨.hbm, 86, rfl⟩
abbrev main_call0_call0_v1 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_10 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_call1_cst : Ref sig .tc := ⟨.hbm, 105, rfl⟩
abbrev main_call1_v0 : Ref sig .tc := ⟨.hbm, 106, rfl⟩
abbrev main_v63 : Ref sig .tc := ⟨.hbm, 107, rfl⟩
abbrev main_v64 : Ref sig .tc := ⟨.hbm, 108, rfl⟩
abbrev main_c_11 : Ref sig .tc := ⟨.hbm, 109, rfl⟩
abbrev main_v65 : Ref sig .tc := ⟨.hbm, 110, rfl⟩
abbrev main_v66 : Ref sig .tc := ⟨.hbm, 111, rfl⟩
abbrev main_c_12 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_cst_13 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_call2_cst : Ref sig .tc := ⟨.hbm, 127, rfl⟩
abbrev main_call2_v0 : Ref sig .tc := ⟨.hbm, 128, rfl⟩
abbrev main_call2_cst_0 : Ref sig .tc := ⟨.hbm, 129, rfl⟩
abbrev main_call2_v1 : Ref sig .tc := ⟨.hbm, 130, rfl⟩
abbrev main_call2_v2 : Ref sig .tc := ⟨.hbm, 131, rfl⟩
abbrev main_call2_v3 : Ref sig .tc := ⟨.hbm, 132, rfl⟩
abbrev main_call2_v4 : Ref sig .tc := ⟨.hbm, 133, rfl⟩
abbrev main_call2_v5 : Ref sig .tc := ⟨.hbm, 134, rfl⟩
abbrev main_call2_v6 : Ref sig .tc := ⟨.hbm, 135, rfl⟩
abbrev main_call2_cst_1 : Ref sig .tc := ⟨.hbm, 136, rfl⟩
abbrev main_call2_v7 : Ref sig .tc := ⟨.hbm, 137, rfl⟩
abbrev main_call2_v8 : Ref sig .tc := ⟨.hbm, 138, rfl⟩
abbrev main_call2_v9 : Ref sig .tc := ⟨.hbm, 139, rfl⟩
abbrev main_call2_v10 : Ref sig .tc := ⟨.hbm, 140, rfl⟩
abbrev main_v80 : Ref sig .tc := ⟨.hbm, 141, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S200000_S6600000_d0 : Shape.Concatenates [S6400000, S200000] S6600000 0
  slices_S2x6400000_S1x6400000_1_0 : S2x6400000.Slices ![1, 0] S1x6400000
  bcast_S_S6600000 : S_.BroadcastsInDim S6600000 (![] : Fin 0 → Fin S6600000.rank)
  bcast_S_S200000 : S_.BroadcastsInDim S200000 (![] : Fin 0 → Fin S200000.rank)
  bcast_S6600000_S6600000x1_0 : S6600000.BroadcastsInDim S6600000x1 (![0] : Fin 1 → Fin S6600000x1.rank)
  bcast_S6600000x1_S6600000x16_0_1 : S6600000x1.BroadcastsInDim S6600000x16 (![0, 1] : Fin 2 → Fin S6600000x16.rank)
  bcast_S_S200000x16 : S_.BroadcastsInDim S200000x16 (![] : Fin 0 → Fin S200000x16.rank)
  bcast_S16_S1x16_1 : S16.BroadcastsInDim S1x16 (![1] : Fin 1 → Fin S1x16.rank)
  bcast_S1x16_S200000x16_0_1 : S1x16.BroadcastsInDim S200000x16 (![0, 1] : Fin 2 → Fin S200000x16.rank)
  reducesTo_S200000x16_S16_d0 : S200000x16.ReducesTo [0] S16
  h_S_ : 0 < S_.numel
  bcast_S_S16 : S_.BroadcastsInDim S16 (![] : Fin 0 → Fin S16.rank)
  bcast_S_S1x16 : S_.BroadcastsInDim S1x16 (![] : Fin 0 → Fin S1x16.rank)
  bcast_S6600000x1_S6600000x3_0_1 : S6600000x1.BroadcastsInDim S6600000x3 (![0, 1] : Fin 2 → Fin S6600000x3.rank)
  bcast_S_S200000x3 : S_.BroadcastsInDim S200000x3 (![] : Fin 0 → Fin S200000x3.rank)
  bcast_S3_S1x3_1 : S3.BroadcastsInDim S1x3 (![1] : Fin 1 → Fin S1x3.rank)
  bcast_S1x3_S200000x3_0_1 : S1x3.BroadcastsInDim S200000x3 (![0, 1] : Fin 2 → Fin S200000x3.rank)
  reducesTo_S200000x3_S200000_d1 : S200000x3.ReducesTo [1] S200000
  bcast_S200000_S200000x1_0 : S200000.BroadcastsInDim S200000x1 (![0] : Fin 1 → Fin S200000x1.rank)
  bcast_S200000x1_S200000x3_0_1 : S200000x1.BroadcastsInDim S200000x3 (![0, 1] : Fin 2 → Fin S200000x3.rank)
  scatter_S200000_S6600000x1_S6600000_n_0_0_1_wf : ScatterDims.WF S200000 S6600000x1 S6600000 [] [0] [0] 1
  gather_S200000_S6600000x1_S6600000_n_0_n_n_0_1_1_wf : GatherDims.WF S200000 S6600000x1 S6600000 [] [0] [] [0] [] 1 ![1]
  dot_S200000x256_S256x16_S200000x16_1_0_0_1_n_n_wf : DotDims.WF S200000x256 S256x16 S200000x16 [1] [0] [0] [1] [] []
  gather_S200000x16_S6600000x1_S6600000x16_1_0_n_n_0_1_116_wf : GatherDims.WF S200000x16 S6600000x1 S6600000x16 [1] [0] [] [0] [] 1 ![1, 16]
  scatter_S200000x16_S6600000x1_S6600000x16_1_0_0_1_wf : ScatterDims.WF S200000x16 S6600000x1 S6600000x16 [1] [0] [0] 1
  dot_S200000x16_S16x3_S200000x3_1_0_0_1_n_n_wf : DotDims.WF S200000x16 S16x3 S200000x3 [1] [0] [0] [1] [] []
  gather_S200000x3_S6600000x1_S6600000x3_1_0_n_n_0_1_13_wf : GatherDims.WF S200000x3 S6600000x1 S6600000x3 [1] [0] [] [0] [] 1 ![1, 3]
  scatter_S200000x3_S6600000x1_S6600000x3_1_0_0_1_wf : ScatterDims.WF S200000x3 S6600000x1 S6600000x3 [1] [0] [0] 1

variable [Facts₀]

def scatter_S200000_S6600000x1_S6600000_n_0_0_1 : ScatterDims S200000 S6600000x1 S6600000 where
  updateWindowDims := []
  insertedWindowDims := [0]
  scatterDimsToOperandDims := [0]
  indexVectorDim := 1
  wf := scatter_S200000_S6600000x1_S6600000_n_0_0_1_wf
def gather_S200000_S6600000x1_S6600000_n_0_n_n_0_1_1 : GatherDims S200000 S6600000x1 S6600000 where
  offsetDims := []
  collapsedSliceDims := [0]
  operandBatchingDims := []
  startIndicesBatchingDims := []
  startIndexMap := [0]
  indexVectorDim := 1
  sliceSizes := ![1]
  wf := gather_S200000_S6600000x1_S6600000_n_0_n_n_0_1_1_wf
def dot_S200000x256_S256x16_S200000x16_1_0_0_1_n_n : DotDims S200000x256 S256x16 S200000x16 where
  lhsContracting := [1]
  rhsContracting := [0]
  lhsNonContracting := [0]
  rhsNonContracting := [1]
  lhsBatch := []
  rhsBatch := []
  wf := dot_S200000x256_S256x16_S200000x16_1_0_0_1_n_n_wf
def gather_S200000x16_S6600000x1_S6600000x16_1_0_n_n_0_1_116 : GatherDims S200000x16 S6600000x1 S6600000x16 where
  offsetDims := [1]
  collapsedSliceDims := [0]
  operandBatchingDims := []
  startIndicesBatchingDims := []
  startIndexMap := [0]
  indexVectorDim := 1
  sliceSizes := ![1, 16]
  wf := gather_S200000x16_S6600000x1_S6600000x16_1_0_n_n_0_1_116_wf
def scatter_S200000x16_S6600000x1_S6600000x16_1_0_0_1 : ScatterDims S200000x16 S6600000x1 S6600000x16 where
  updateWindowDims := [1]
  insertedWindowDims := [0]
  scatterDimsToOperandDims := [0]
  indexVectorDim := 1
  wf := scatter_S200000x16_S6600000x1_S6600000x16_1_0_0_1_wf
def dot_S200000x16_S16x3_S200000x3_1_0_0_1_n_n : DotDims S200000x16 S16x3 S200000x3 where
  lhsContracting := [1]
  rhsContracting := [0]
  lhsNonContracting := [0]
  rhsNonContracting := [1]
  lhsBatch := []
  rhsBatch := []
  wf := dot_S200000x16_S16x3_S200000x3_1_0_0_1_n_n_wf
def gather_S200000x3_S6600000x1_S6600000x3_1_0_n_n_0_1_13 : GatherDims S200000x3 S6600000x1 S6600000x3 where
  offsetDims := [1]
  collapsedSliceDims := [0]
  operandBatchingDims := []
  startIndicesBatchingDims := []
  startIndexMap := [0]
  indexVectorDim := 1
  sliceSizes := ![1, 3]
  wf := gather_S200000x3_S6600000x1_S6600000x3_1_0_n_n_0_1_13_wf
def scatter_S200000x3_S6600000x1_S6600000x3_1_0_0_1 : ScatterDims S200000x3 S6600000x1 S6600000x3 where
  updateWindowDims := [1]
  insertedWindowDims := [0]
  scatterDimsToOperandDims := [0]
  indexVectorDim := 1
  wf := scatter_S200000x3_S6600000x1_S6600000x3_1_0_0_1_wf

class Facts : Prop extends Facts₀ where

variable [Facts]
-- ==== Proof.KRun.lean ====
/-
  The idealized kernel program's run with its result named.

  Every weakly fair execution of the program from a memory `m` terminates without a fault; the eight argument arrays
  end as launched, and the result array ends at the contents the last of the program's eight segments (four stretches
  of host operations, four kernel launches) leaves in its buffer: the fold `W8` of those segments over the launch
  memory, read at the result's buffer. The argument is the one that gives the frame — the launch over the segments,
  the last thread state read against the final state — with the result's buffer read off the same final thread state
  as the arguments' are.
-/
import proofs.«167311_j59150289600863_2_alg».proof.Proof.Gen.KernelIdeal.Frame

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the result at `W8`'s contents of its buffer, the arguments unchanged. -/
theorem run_value : θ_run defs (onTc (τ := τ) (main (F := F))) ⟨m, fun _ => 0, ρ⟩ (fun r => ∀ c : Dev nD,
      r.2.mem ((c.tc : Thread nD τ).loc main_v67) = W8 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v67 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Val

end
-- ==== Proof.RefRunOps.lean ====
/- The reference program's @main as a list of its 134 host operations, in ten consecutive stretches (a called
   function's operations in its call's place, over the call's buffers), and that @main is the straight line of
   that list; every operation touches TensorCore references only. -/
import proofs.«167311_j59150289600863_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! @main's 134 operations in ten consecutive stretches, cut where few values are live; a called function's
    operations stand in its call's place, over the call's buffers. -/

/-- The iota and the two index vectors: each row of the edge table, flattened, followed by the iota (a self edge per node). -/
abbrev opsA : List (HloOp τ sig (Elt F)) :=
  [ nullary main_v0 (iotaInDim S200000 32 0),
    unary main_arg7 main_v1 ((extractStridedSlice S1x6400000 ![0, 0] · slices_S2x6400000_S1x6400000_0_0) : (⟨S2x6400000, .i32⟩ : BufTy).Contents (Elt F) → (⟨S1x6400000, .i32⟩ : BufTy).Contents (Elt F)),
    reshape main_v1 main_v2 rfl shapeCasts_S1x6400000_S6400000,
    binary main_v2 main_v0 main_v3 ((fun a b => concatenate S6600000 0 [⟨S6400000, a⟩, ⟨S200000, b⟩] concatenates_S6400000_S200000_S6600000_d0) : (⟨S6400000, .i32⟩ : BufTy).Contents (Elt F) → (⟨S200000, .i32⟩ : BufTy).Contents (Elt F) → (⟨S6600000, .i32⟩ : BufTy).Contents (Elt F)),
    unary main_arg7 main_v4 ((extractStridedSlice S1x6400000 ![1, 0] · slices_S2x6400000_S1x6400000_1_0) : (⟨S2x6400000, .i32⟩ : BufTy).Contents (Elt F) → (⟨S1x6400000, .i32⟩ : BufTy).Contents (Elt F)),
    reshape main_v4 main_v5 rfl shapeCasts_S1x6400000_S6400000,
    binary main_v5 main_v0 main_v6 ((fun a b => concatenate S6600000 0 [⟨S6400000, a⟩, ⟨S200000, b⟩] concatenates_S6400000_S200000_S6600000_d0) : (⟨S6400000, .i32⟩ : BufTy).Contents (Elt F) → (⟨S200000, .i32⟩ : BufTy).Contents (Elt F) → (⟨S6600000, .i32⟩ : BufTy).Contents (Elt F)) ]

theorem opsA_sub : (opsA : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub ..⟩

/-- The degree (a scatter-add of ones at the destinations), its inverse square root, the negative-index wrap of both index vectors, the two gathers and their product: the edge weights, as a column. -/
abbrev opsB : List (HloOp τ sig (Elt F)) :=
  [ nullary main_cst (constant S_ .f32 0x3F800000#32),
    unary main_cst main_v7 (broadcastInDim S6600000 ![] bcast_S_S6600000 : (⟨S_, .f32⟩ : BufTy).Contents (Elt F) → (⟨S6600000, .f32⟩ : BufTy).Contents (Elt F)),
    nullary main_cst_0 (constant S_ .f32 0x00000000#32),
    unary main_cst_0 main_v8 (broadcastInDim S200000 ![] bcast_S_S200000 : (⟨S_, .f32⟩ : BufTy).Contents (Elt F) → (⟨S200000, .f32⟩ : BufTy).Contents (Elt F)),
    unary main_v6 main_v9 (broadcastInDim S6600000x1 ![0] bcast_S6600000_S6600000x1_0 : (⟨S6600000, .i32⟩ : BufTy).Contents (Elt F) → (⟨S6600000x1, .i32⟩ : BufTy).Contents (Elt F)),
    ternary main_v8 main_v9 main_v7 main_v10 ((fun x i u => Host.scatterAdd scatter_S200000_S6600000x1_S6600000_n_0_0_1 x i u) : (⟨S200000, .f32⟩ : BufTy).Contents (Elt F) → (⟨S6600000x1, .i32⟩ : BufTy).Contents (Elt F) → (⟨S6600000, .f32⟩ : BufTy).Contents (Elt F) → (⟨S200000, .f32⟩ : BufTy).Contents (Elt F)),
    unary main_v10 main_v11 (Host.rsqrt : (⟨S200000, .f32⟩ : BufTy).Contents (Elt F) → (⟨S200000, .f32⟩ : BufTy).Contents (Elt F)),
    nullary main_c (constantI S_ 32 0#32),
    unary main_c main_v12 (broadcastInDim S6600000 ![] bcast_S_S6600000 : (⟨S_, .i32⟩ : BufTy).Contents (Elt F) → (⟨S6600000, .i32⟩ : BufTy).Contents (Elt F)),
    binary main_v3 main_v12 main_v13 (cmpi .slt : (⟨S6600000, .i32⟩ : BufTy).Contents (Elt F) → (⟨S6600000, .i32⟩ : BufTy).Contents (Elt F) → (⟨S6600000, .i1⟩ : BufTy).Contents (Elt F)),
    nullary main_c_1 (constantI S_ 32 200000#32),
    unary main_c_1 main_v14 (broadcastInDim S6600000 ![] bcast_S_S6600000 : (⟨S_, .i32⟩ : BufTy).Contents (Elt F) → (⟨S6600000, .i32⟩ : BufTy).Contents (Elt F)),
    binary main_v3 main_v14 main_v15 (addi : (⟨S6600000, .i32⟩ : BufTy).Contents (Elt F) → (⟨S6600000, .i32⟩ : BufTy).Contents (Elt F) → (⟨S6600000, .i32⟩ : BufTy).Contents (Elt F)),
    ternary main_v13 main_v15 main_v3 main_v16 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v16 main_v17 (broadcastInDim S6600000x1 ![0] bcast_S6600000_S6600000x1_0 : (⟨S6600000, .i32⟩ : BufTy).Contents (Elt F) → (⟨S6600000x1, .i32⟩ : BufTy).Contents (Elt F)),
    binary main_v11 main_v17 main_v18 ((fun x i => Host.gather gather_S200000_S6600000x1_S6600000_n_0_n_n_0_1_1 x i) : (⟨S200000, .f32⟩ : BufTy).Contents (Elt F) → (⟨S6600000x1, .i32⟩ : BufTy).Contents (Elt F) → (⟨S6600000, .f32⟩ : BufTy).Contents (Elt F)),
    nullary main_c_2 (constantI S_ 32 0#32),
    unary main_c_2 main_v19 (broadcastInDim S6600000 ![] bcast_S_S6600000 : (⟨S_, .i32⟩ : BufTy).Contents (Elt F) → (⟨S6600000, .i32⟩ : BufTy).Contents (Elt F)),
    binary main_v6 main_v19 main_v20 (cmpi .slt : (⟨S6600000, .i32⟩ : BufTy).Contents (Elt F) → (⟨S6600000, .i32⟩ : BufTy).Contents (Elt F) → (⟨S6600000, .i1⟩ : BufTy).Contents (Elt F)),
    nullary main_c_3 (constantI S_ 32 200000#32),
    unary main_c_3 main_v21 (broadcastInDim S6600000 ![] bcast_S_S6600000 : (⟨S_, .i32⟩ : BufTy).Contents (Elt F) → (⟨S6600000, .i32⟩ : BufTy).Contents (Elt F)),
    binary main_v6 main_v21 main_v22 (addi : (⟨S6600000, .i32⟩ : BufTy).Contents (Elt F) → (⟨S6600000, .i32⟩ : BufTy).Contents (Elt F) → (⟨S6600000, .i32⟩ : BufTy).Contents (Elt F)),
    ternary main_v20 main_v22 main_v6 main_v23 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v23 main_v24 (broadcastInDim S6600000x1 ![0] bcast_S6600000_S6600000x1_0 : (⟨S6600000, .i32⟩ : BufTy).Contents (Elt F) → (⟨S6600000x1, .i32⟩ : BufTy).Contents (Elt F)),
    binary main_v11 main_v24 main_v25 ((fun x i => Host.gather gather_S200000_S6600000x1_S6600000_n_0_n_n_0_1_1 x i) : (⟨S200000, .f32⟩ : BufTy).Contents (Elt F) → (⟨S6600000x1, .i32⟩ : BufTy).Contents (Elt F) → (⟨S6600000, .f32⟩ : BufTy).Contents (Elt F)),
    binary main_v18 main_v25 main_v26 (mulf : (⟨S6600000, .f32⟩ : BufTy).Contents (Elt F) → (⟨S6600000, .f32⟩ : BufTy).Contents (Elt F) → (⟨S6600000, .f32⟩ : BufTy).Contents (Elt F)),
    unary main_v26 main_v27 (broadcastInDim S6600000x1 ![0] bcast_S6600000_S6600000x1_0 : (⟨S6600000, .f32⟩ : BufTy).Contents (Elt F) → (⟨S6600000x1, .f32⟩ : BufTy).Contents (Elt F)) ]

theorem opsB_sub : (opsB : List (HloOp τ sig (Elt F))).Forall fun op => op.bufs ⊆ tcRefs τ sig :=
  ⟨nullary_bufs_sub .., unary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub ..⟩

/-- The first layer's product, its rows gathered at the sources, scaled by the edge weights and scatter-added at the destinations. -/
abbrev opsC : List (HloOp τ sig (Elt F)) :=
  [ binary main_arg0 main_arg1 main_v28 ((fun l r => Host.dotGeneral dot_S200000x256_S256x16_S200000x16_1_0_0_1_n_n none l r) : (⟨S200000x256, .f32⟩ : BufTy).Contents (Elt F) → (⟨S256x16, .f32⟩ : BufTy).Contents (Elt F) → (⟨S200000x16, .f32⟩ : BufTy).Contents (Elt F)),
    nullary main_c_4 (constantI S_ 32 0#32),
    unary main_c_4 main_v29 (broadcastInDim S6600000 ![] bcast_S_S6600000 : (⟨S_, .i32⟩ : BufTy).Contents (Elt F) → (⟨S6600000, .i32⟩ : BufTy).Contents (Elt F)),
    binary main_v3 main_v29 main_v30 (cmpi .slt : (⟨S6600000, .i32⟩ : BufTy).Contents (Elt F) → (⟨S6600000, .i32⟩ : BufTy).Contents (Elt F) → (⟨S6600000, .i1⟩ : BufTy).Contents (Elt F)),
    nullary main_c_5 (constantI S_ 32 200000#32),
    unary main_c_5 main_v31 (broadcastInDim S6600000 ![] bcast_S_S6600000 : (⟨S_, .i32⟩ : BufTy).Contents (Elt F) → (⟨S6600000, .i32⟩ : BufTy).Contents (Elt F)),
    binary main_v3 main_v31 main_v32 (addi : (⟨S6600000, .i32⟩ : BufTy).Contents (Elt F) → (⟨S6600000, .i32⟩ : BufTy).Contents (Elt F) → (⟨S6600000, .i32⟩ : BufTy).Contents (Elt F)),
    ternary main_v30 main_v32 main_v3 main_v33 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v33 main_v34 (broadcastInDim S6600000x1 ![0] bcast_S6600000_S6600000x1_0 : (⟨S6600000, .i32⟩ : BufTy).Contents (Elt F) → (⟨S6600000x1, .i32⟩ : BufTy).Contents (Elt F)),
    binary main_v28 main_v34 main_v35 ((fun x i => Host.gather gather_S200000x16_S6600000x1_S6600000x16_1_0_n_n_0_1_116 x i) : (⟨S200000x16, .f32⟩ : BufTy).Contents (Elt F) → (⟨S6600000x1, .i32⟩ : BufTy).Contents (Elt F) → (⟨S6600000x16, .f32⟩ : BufTy).Contents (Elt F)),
    unary main_v27 main_v36 (broadcastInDim S6600000x16 ![0, 1] bcast_S6600000x1_S6600000x16_0_1 : (⟨S6600000x1, .f32⟩ : BufTy).Contents (Elt F) → (⟨S6600000x16, .f32⟩ : BufTy).Contents (Elt F)),
    binary main_v35 main_v36 main_v37 (mulf : (⟨S6600000x16, .f32⟩ : BufTy).Contents (Elt F) → (⟨S6600000x16, .f32⟩ : BufTy).Contents (Elt F) → (⟨S6600000x16, .f32⟩ : BufTy).Contents (Elt F)),
    nullary main_cst_6 (constant S_ .f32 0x00000000#32),
    unary main_cst_6 main_v38 (broadcastInDim S200000x16 ![] bcast_S_S200000x16 : (⟨S_, .f32⟩ : BufTy).Contents (Elt F) → (⟨S200000x16, .f32⟩ : BufTy).Contents (Elt F)),
    unary main_v6 main_v39 (broadcastInDim S6600000x1 ![0] bcast_S6600000_S6600000x1_0 : (⟨S6600000, .i32⟩ : BufTy).Contents (Elt F) → (⟨S6600000x1, .i32⟩ : BufTy).Contents (Elt F)),
    ternary main_v38 main_v39 main_v37 main_v40 ((fun x i u => Host.scatterAdd scatter_S200000x16_S6600000x1_S6600000x16_1_0_0_1 x i u) : (⟨S200000x16, .f32⟩ : BufTy).Contents (Elt F) → (⟨S6600000x1, .i32⟩ : BufTy).Contents (Elt F) → (⟨S6600000x16, .f32⟩ : BufTy).Contents (Elt F) → (⟨S200000x16, .f32⟩ : BufTy).Contents (Elt F)) ]

theorem opsC_sub : (opsC : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

/-- The first bias, broadcast and added. -/
abbrev opsD : List (HloOp τ sig (Elt F)) :=
  [ unary main_arg2 main_v41 (broadcastInDim S1x16 ![1] bcast_S16_S1x16_1 : (⟨S16, .f32⟩ : BufTy).Contents (Elt F) → (⟨S1x16, .f32⟩ : BufTy).Contents (Elt F)),
    unary main_v41 main_v42 (broadcastInDim S200000x16 ![0, 1] bcast_S1x16_S200000x16_0_1 : (⟨S1x16, .f32⟩ : BufTy).Contents (Elt F) → (⟨S200000x16, .f32⟩ : BufTy).Contents (Elt F)),
    binary main_v40 main_v42 main_v43 (addf : (⟨S200000x16, .f32⟩ : BufTy).Contents (Elt F) → (⟨S200000x16, .f32⟩ : BufTy).Contents (Elt F) → (⟨S200000x16, .f32⟩ : BufTy).Contents (Elt F)) ]

theorem opsD_sub : (opsD : List (HloOp τ sig (Elt F))).Forall fun op => op.bufs ⊆ tcRefs τ sig :=
  ⟨unary_bufs_sub .., unary_bufs_sub .., binary_bufs_sub ..⟩

/-- The column means: the column sums over the node count. -/
abbrev opsE : List (HloOp τ sig (Elt F)) :=
  [ nullary main_cst_7 (constant S_ .f32 0x00000000#32),
    binary main_v43 main_cst_7 main_v44 ((fun x v => Host.reduceAdd x v reducesTo_S200000x16_S16_d0 h_S_) : (⟨S200000x16, .f32⟩ : BufTy).Contents (Elt F) → (⟨S_, .f32⟩ : BufTy).Contents (Elt F) → (⟨S16, .f32⟩ : BufTy).Contents (Elt F)),
    nullary main_cst_8 (constant S_ .f32 0x48435000#32),
    unary main_cst_8 main_v45 (broadcastInDim S16 ![] bcast_S_S16 : (⟨S_, .f32⟩ : BufTy).Contents (Elt F) → (⟨S16, .f32⟩ : BufTy).Contents (Elt F)),
    binary main_v44 main_v45 main_v46 (Host.divf : (⟨S16, .f32⟩ : BufTy).Contents (Elt F) → (⟨S16, .f32⟩ : BufTy).Contents (Elt F) → (⟨S16, .f32⟩ : BufTy).Contents (Elt F)) ]

theorem opsE_sub : (opsE : List (HloOp τ sig (Elt F))).Forall fun op => op.bufs ⊆ tcRefs τ sig :=
  ⟨nullary_bufs_sub .., binary_bufs_sub .., nullary_bufs_sub .., unary_bufs_sub .., binary_bufs_sub ..⟩

/-- The column variances: the variance function's nineteen operations over its call's buffers, the selection function's three in the place of its call, after the zero correction it is called with. -/
abbrev opsF : List (HloOp τ sig (Elt F)) :=
  [ nullary main_c_9 (constantI S_ 32 0#32),
    TRef.nullary main_call0.cst (constant S_ .f32 0x00000000#32),
    TRef.binary (TRef.of (T := ⟨S200000x16, .f32⟩) main_v43) main_call0.cst main_call0.v0 (fun x v => Host.reduceAdd x v reducesTo_S200000x16_S16_d0 h_S_),
    TRef.unary main_call0.v0 main_call0.v1 (broadcastInDim S1x16 ![1] bcast_S16_S1x16_1),
    TRef.nullary main_call0.cst_0 (constant S_ .f32 0x48435000#32),
    TRef.unary main_call0.cst_0 main_call0.v2 (broadcastInDim S1x16 ![] bcast_S_S1x16),
    TRef.binary main_call0.v1 main_call0.v2 main_call0.v3 Host.divf,
    TRef.unary main_call0.v3 main_call0.v4 (broadcastInDim S200000x16 ![0, 1] bcast_S1x16_S200000x16_0_1),
    TRef.binary (TRef.of (T := ⟨S200000x16, .f32⟩) main_v43) main_call0.v4 main_call0.v5 subf,
    TRef.binary main_call0.v5 main_call0.v5 main_call0.v6 mulf,
    TRef.unary (TRef.of (T := ⟨S_, .i32⟩) main_c_9) main_call0.v7 (sitofp .f32),
    TRef.nullary main_call0.cst_1 (constant S_ .f32 0x48435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S200000x16_S16_d0 h_S_),
    TRef.unary main_call0.v8 main_call0.v10 (broadcastInDim S16 ![] bcast_S_S16),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S16 ![] bcast_S_S16),
    TRef.ternary main_call0.v12 main_call0.v11 main_call0.call0.v1 main_call0.call0.v2 (fun p a b => select (broadcastInDim S16 ![] bcast_S_S16 p) a b) ]

theorem opsF_sub : (opsF : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- The normalisation, scale and shift, and the rectifier's three operations. -/
abbrev opsG : List (HloOp τ sig (Elt F)) :=
  [ unary main_v46 main_v48 (broadcastInDim S1x16 ![1] bcast_S16_S1x16_1 : (⟨S16, .f32⟩ : BufTy).Contents (Elt F) → (⟨S1x16, .f32⟩ : BufTy).Contents (Elt F)),
    unary main_v48 main_v49 (broadcastInDim S200000x16 ![0, 1] bcast_S1x16_S200000x16_0_1 : (⟨S1x16, .f32⟩ : BufTy).Contents (Elt F) → (⟨S200000x16, .f32⟩ : BufTy).Contents (Elt F)),
    binary main_v43 main_v49 main_v50 (subf : (⟨S200000x16, .f32⟩ : BufTy).Contents (Elt F) → (⟨S200000x16, .f32⟩ : BufTy).Contents (Elt F) → (⟨S200000x16, .f32⟩ : BufTy).Contents (Elt F)),
    nullary main_cst_10 (constant S_ .f32 0x3727C5AC#32),
    unary main_cst_10 main_v51 (broadcastInDim S16 ![] bcast_S_S16 : (⟨S_, .f32⟩ : BufTy).Contents (Elt F) → (⟨S16, .f32⟩ : BufTy).Contents (Elt F)),
    binary main_v47 main_v51 main_v52 (addf : (⟨S16, .f32⟩ : BufTy).Contents (Elt F) → (⟨S16, .f32⟩ : BufTy).Contents (Elt F) → (⟨S16, .f32⟩ : BufTy).Contents (Elt F)),
    unary main_v52 main_v53 (Host.rsqrt : (⟨S16, .f32⟩ : BufTy).Contents (Elt F) → (⟨S16, .f32⟩ : BufTy).Contents (Elt F)),
    unary main_v53 main_v54 (broadcastInDim S1x16 ![1] bcast_S16_S1x16_1 : (⟨S16, .f32⟩ : BufTy).Contents (Elt F) → (⟨S1x16, .f32⟩ : BufTy).Contents (Elt F)),
    unary main_v54 main_v55 (broadcastInDim S200000x16 ![0, 1] bcast_S1x16_S200000x16_0_1 : (⟨S1x16, .f32⟩ : BufTy).Contents (Elt F) → (⟨S200000x16, .f32⟩ : BufTy).Contents (Elt F)),
    binary main_v50 main_v55 main_v56 (mulf : (⟨S200000x16, .f32⟩ : BufTy).Contents (Elt F) → (⟨S200000x16, .f32⟩ : BufTy).Contents (Elt F) → (⟨S200000x16, .f32⟩ : BufTy).Contents (Elt F)),
    unary main_arg3 main_v57 (broadcastInDim S1x16 ![1] bcast_S16_S1x16_1 : (⟨S16, .f32⟩ : BufTy).Contents (Elt F) → (⟨S1x16, .f32⟩ : BufTy).Contents (Elt F)),
    unary main_v57 main_v58 (broadcastInDim S200000x16 ![0, 1] bcast_S1x16_S200000x16_0_1 : (⟨S1x16, .f32⟩ : BufTy).Contents (Elt F) → (⟨S200000x16, .f32⟩ : BufTy).Contents (Elt F)),
    binary main_v56 main_v58 main_v59 (mulf : (⟨S200000x16, .f32⟩ : BufTy).Contents (Elt F) → (⟨S200000x16, .f32⟩ : BufTy).Contents (Elt F) → (⟨S200000x16, .f32⟩ : BufTy).Contents (Elt F)),
    unary main_arg4 main_v60 (broadcastInDim S1x16 ![1] bcast_S16_S1x16_1 : (⟨S16, .f32⟩ : BufTy).Contents (Elt F) → (⟨S1x16, .f32⟩ : BufTy).Contents (Elt F)),
    unary main_v60 main_v61 (broadcastInDim S200000x16 ![0, 1] bcast_S1x16_S200000x16_0_1 : (⟨S1x16, .f32⟩ : BufTy).Contents (Elt F) → (⟨S200000x16, .f32⟩ : BufTy).Contents (Elt F)),
    binary main_v59 main_v61 main_v62 (addf : (⟨S200000x16, .f32⟩ : BufTy).Contents (Elt F) → (⟨S200000x16, .f32⟩ : BufTy).Contents (Elt F) → (⟨S200000x16, .f32⟩ : BufTy).Contents (Elt F)),
    TRef.nullary main_call1.cst (constant S_ .f32 0x00000000#32),
    TRef.unary main_call1.cst main_call1.v0 (broadcastInDim S200000x16 ![] bcast_S_S200000x16),
    TRef.binary (TRef.of (T := ⟨S200000x16, .f32⟩) main_v62) main_call1.v0 main_call1.v1 maximumf ]

theorem opsG_sub : (opsG : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The second layer's product, its rows gathered at the sources, scaled by the edge weights and scatter-added at the destinations. -/
abbrev opsH : List (HloOp τ sig (Elt F)) :=
  [ binary main_v63 main_arg5 main_v64 ((fun l r => Host.dotGeneral dot_S200000x16_S16x3_S200000x3_1_0_0_1_n_n none l r) : (⟨S200000x16, .f32⟩ : BufTy).Contents (Elt F) → (⟨S16x3, .f32⟩ : BufTy).Contents (Elt F) → (⟨S200000x3, .f32⟩ : BufTy).Contents (Elt F)),
    nullary main_c_11 (constantI S_ 32 0#32),
    unary main_c_11 main_v65 (broadcastInDim S6600000 ![] bcast_S_S6600000 : (⟨S_, .i32⟩ : BufTy).Contents (Elt F) → (⟨S6600000, .i32⟩ : BufTy).Contents (Elt F)),
    binary main_v3 main_v65 main_v66 (cmpi .slt : (⟨S6600000, .i32⟩ : BufTy).Contents (Elt F) → (⟨S6600000, .i32⟩ : BufTy).Contents (Elt F) → (⟨S6600000, .i1⟩ : BufTy).Contents (Elt F)),
    nullary main_c_12 (constantI S_ 32 200000#32),
    unary main_c_12 main_v67 (broadcastInDim S6600000 ![] bcast_S_S6600000 : (⟨S_, .i32⟩ : BufTy).Contents (Elt F) → (⟨S6600000, .i32⟩ : BufTy).Contents (Elt F)),
    binary main_v3 main_v67 main_v68 (addi : (⟨S6600000, .i32⟩ : BufTy).Contents (Elt F) → (⟨S6600000, .i32⟩ : BufTy).Contents (Elt F) → (⟨S6600000, .i32⟩ : BufTy).Contents (Elt F)),
    ternary main_v66 main_v68 main_v3 main_v69 (select : (⟨S6600000, .i1⟩ : BufTy).Contents (Elt F) → (⟨S6600000, .i32⟩ : BufTy).Contents (Elt F) → (⟨S6600000, .i32⟩ : BufTy).Contents (Elt F) → (⟨S6600000, .i32⟩ : BufTy).Contents (Elt F)),
    unary main_v69 main_v70 (broadcastInDim S6600000x1 ![0] bcast_S6600000_S6600000x1_0 : (⟨S6600000, .i32⟩ : BufTy).Contents (Elt F) → (⟨S6600000x1, .i32⟩ : BufTy).Contents (Elt F)),
    binary main_v64 main_v70 main_v71 ((fun x i => Host.gather gather_S200000x3_S6600000x1_S6600000x3_1_0_n_n_0_1_13 x i) : (⟨S200000x3, .f32⟩ : BufTy).Contents (Elt F) → (⟨S6600000x1, .i32⟩ : BufTy).Contents (Elt F) → (⟨S6600000x3, .f32⟩ : BufTy).Contents (Elt F)),
    unary main_v27 main_v72 (broadcastInDim S6600000x3 ![0, 1] bcast_S6600000x1_S6600000x3_0_1 : (⟨S6600000x1, .f32⟩ : BufTy).Contents (Elt F) → (⟨S6600000x3, .f32⟩ : BufTy).Contents (Elt F)),
    binary main_v71 main_v72 main_v73 (mulf : (⟨S6600000x3, .f32⟩ : BufTy).Contents (Elt F) → (⟨S6600000x3, .f32⟩ : BufTy).Contents (Elt F) → (⟨S6600000x3, .f32⟩ : BufTy).Contents (Elt F)),
    nullary main_cst_13 (constant S_ .f32 0x00000000#32),
    unary main_cst_13 main_v74 (broadcastInDim S200000x3 ![] bcast_S_S200000x3 : (⟨S_, .f32⟩ : BufTy).Contents (Elt F) → (⟨S200000x3, .f32⟩ : BufTy).Contents (Elt F)),
    unary main_v6 main_v75 (broadcastInDim S6600000x1 ![0] bcast_S6600000_S6600000x1_0 : (⟨S6600000, .i32⟩ : BufTy).Contents (Elt F) → (⟨S6600000x1, .i32⟩ : BufTy).Contents (Elt F)),
    ternary main_v74 main_v75 main_v73 main_v76 ((fun x i u => Host.scatterAdd scatter_S200000x3_S6600000x1_S6600000x3_1_0_0_1 x i u) : (⟨S200000x3, .f32⟩ : BufTy).Contents (Elt F) → (⟨S6600000x1, .i32⟩ : BufTy).Contents (Elt F) → (⟨S6600000x3, .f32⟩ : BufTy).Contents (Elt F) → (⟨S200000x3, .f32⟩ : BufTy).Contents (Elt F)) ]

theorem opsH_sub : (opsH : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub ..⟩

/-- The second bias, broadcast and added. -/
abbrev opsJ : List (HloOp τ sig (Elt F)) :=
  [ unary main_arg6 main_v77 (broadcastInDim S1x3 ![1] bcast_S3_S1x3_1 : (⟨S3, .f32⟩ : BufTy).Contents (Elt F) → (⟨S1x3, .f32⟩ : BufTy).Contents (Elt F)),
    unary main_v77 main_v78 (broadcastInDim S200000x3 ![0, 1] bcast_S1x3_S200000x3_0_1 : (⟨S1x3, .f32⟩ : BufTy).Contents (Elt F) → (⟨S200000x3, .f32⟩ : BufTy).Contents (Elt F)),
    binary main_v76 main_v78 main_v79 (addf : (⟨S200000x3, .f32⟩ : BufTy).Contents (Elt F) → (⟨S200000x3, .f32⟩ : BufTy).Contents (Elt F) → (⟨S200000x3, .f32⟩ : BufTy).Contents (Elt F)) ]

theorem opsJ_sub : (opsJ : List (HloOp τ sig (Elt F))).Forall fun op => op.bufs ⊆ tcRefs τ sig :=
  ⟨unary_bufs_sub .., unary_bufs_sub .., binary_bufs_sub ..⟩

/-- The log-softmax's fifteen operations over its call's buffers. -/
abbrev opsK : List (HloOp τ sig (Elt F)) :=
  [ TRef.nullary main_call2.cst (constant S_ .f32 0xFF800000#32),
    TRef.binary (TRef.of (T := ⟨S200000x3, .f32⟩) main_v79) main_call2.cst main_call2.v0 (fun x v => Host.reduce FloatOps.maximumf x v reducesTo_S200000x3_S200000_d1 h_S_),
    TRef.nullary main_call2.cst_0 (constant S_ .f32 0xFF800000#32),
    TRef.unary main_call2.cst_0 main_call2.v1 (broadcastInDim S200000 ![] bcast_S_S200000),
    TRef.binary main_call2.v1 main_call2.v0 main_call2.v2 maximumf,
    TRef.unary main_call2.v2 main_call2.v3 (broadcastInDim S200000x1 ![0] bcast_S200000_S200000x1_0),
    TRef.unary main_call2.v3 main_call2.v4 (broadcastInDim S200000x3 ![0, 1] bcast_S200000x1_S200000x3_0_1),
    TRef.binary (TRef.of (T := ⟨S200000x3, .f32⟩) main_v79) main_call2.v4 main_call2.v5 subf,
    TRef.unary main_call2.v5 main_call2.v6 Host.exp,
    TRef.nullary main_call2.cst_1 (constant S_ .f32 0x00000000#32),
    TRef.binary main_call2.v6 main_call2.cst_1 main_call2.v7 (fun x v => Host.reduceAdd x v reducesTo_S200000x3_S200000_d1 h_S_),
    TRef.unary main_call2.v7 main_call2.v8 (broadcastInDim S200000x1 ![0] bcast_S200000_S200000x1_0),
    TRef.unary main_call2.v8 main_call2.v9 Host.log,
    TRef.unary main_call2.v9 main_call2.v10 (broadcastInDim S200000x3 ![0, 1] bcast_S200000x1_S200000x3_0_1),
    TRef.binary main_call2.v5 main_call2.v10 main_call2.v11 subf ]

theorem opsK_sub : (opsK : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The first 81 operations of @main (its statements 1 … 60). -/
abbrev ops0 : List (HloOp τ sig (Elt F)) := opsA ++ (opsB ++ (opsC ++ (opsD ++ (opsE ++ opsF))))

/-- The last 53 operations of @main (its statements 61 … 98). -/
abbrev ops1 : List (HloOp τ sig (Elt F)) := opsG ++ (opsH ++ (opsJ ++ opsK))

/-- @main's 134 operations, in order. -/
abbrev ops : List (HloOp τ sig (Elt F)) := ops0 ++ ops1

set_option maxRecDepth 8192 in
set_option maxHeartbeats 4000000 in
theorem main_part0_eq (c : Dev nD) : main_part0 (F := F) c = seq ops0 := rfl

set_option maxRecDepth 8192 in
set_option maxHeartbeats 4000000 in
theorem main_part1_eq (c : Dev nD) : main_part1 (F := F) c = seq ops1 := rfl

/-- @main is the straight line of its operations. -/
theorem main_eq (c : Dev nD) : main (F := F) c = seq ops := by
  simp only [ops, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, ops0, ops1, List.mem_append] at h
    rcases h with (h | h | h | h | h | h) | h | h | h | h
    exacts [List.forall_iff_forall_mem.mp opsA_sub op h, List.forall_iff_forall_mem.mp opsB_sub op h,
      List.forall_iff_forall_mem.mp opsC_sub op h, List.forall_iff_forall_mem.mp opsD_sub op h,
      List.forall_iff_forall_mem.mp opsE_sub op h, List.forall_iff_forall_mem.mp opsF_sub op h,
      List.forall_iff_forall_mem.mp opsG_sub op h, List.forall_iff_forall_mem.mp opsH_sub op h,
      List.forall_iff_forall_mem.mp opsJ_sub op h, List.forall_iff_forall_mem.mp opsK_sub op h]

end Cert.ReferenceIdeal.RefRun

end
-- ==== Proof.RefRunKeep.lean ====
/- For each stretch of the reference's operations: the buffers it writes, and that every other buffer keeps its
   contents through it; the fold of the whole list as the folds of the stretches in turn; no operation writes an
   argument's buffer. -/
import proofs.«167311_j59150289600863_2_alg».proof.Proof.RefRunOps
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! What each stretch of @main's operations writes, and that it keeps every other buffer. -/

/-- The buffers the stretch's operations write. -/
abbrev opsA_W : List (Ref sig .tc) := [main_v0, main_v1, main_v2, main_v3, main_v4, main_v5, main_v6]
theorem opsA_writes : (opsA : List (HloOp τ sig (Elt F))).Forall fun op => op.writes ⊆ (opsA_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsA_keep (V : Valuation τ sig (Elt F)) (r : Ref sig .tc) (h : r ∉ opsA_W) :
    after opsA V (Proc.devRef .tc r) = V (Proc.devRef .tc r) :=
  after_of_writes_sub opsA V opsA_writes h

/-- The buffers the stretch's operations write. -/
abbrev opsB_W : List (Ref sig .tc) := [main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26, main_v27]
theorem opsB_writes : (opsB : List (HloOp τ sig (Elt F))).Forall fun op => op.writes ⊆ (opsB_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsB_keep (V : Valuation τ sig (Elt F)) (r : Ref sig .tc) (h : r ∉ opsB_W) :
    after opsB V (Proc.devRef .tc r) = V (Proc.devRef .tc r) :=
  after_of_writes_sub opsB V opsB_writes h

/-- The buffers the stretch's operations write. -/
abbrev opsC_W : List (Ref sig .tc) := [main_v28, main_c_4, main_v29, main_v30, main_c_5, main_v31, main_v32, main_v33, main_v34, main_v35, main_v36, main_v37, main_cst_6, main_v38, main_v39, main_v40]
theorem opsC_writes : (opsC : List (HloOp τ sig (Elt F))).Forall fun op => op.writes ⊆ (opsC_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsC_keep (V : Valuation τ sig (Elt F)) (r : Ref sig .tc) (h : r ∉ opsC_W) :
    after opsC V (Proc.devRef .tc r) = V (Proc.devRef .tc r) :=
  after_of_writes_sub opsC V opsC_writes h

/-- The buffers the stretch's operations write. -/
abbrev opsD_W : List (Ref sig .tc) := [main_v41, main_v42, main_v43]
theorem opsD_writes : (opsD : List (HloOp τ sig (Elt F))).Forall fun op => op.writes ⊆ (opsD_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsD_keep (V : Valuation τ sig (Elt F)) (r : Ref sig .tc) (h : r ∉ opsD_W) :
    after opsD V (Proc.devRef .tc r) = V (Proc.devRef .tc r) :=
  after_of_writes_sub opsD V opsD_writes h

/-- The buffers the stretch's operations write. -/
abbrev opsE_W : List (Ref sig .tc) := [main_cst_7, main_v44, main_cst_8, main_v45, main_v46]
theorem opsE_writes : (opsE : List (HloOp τ sig (Elt F))).Forall fun op => op.writes ⊆ (opsE_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsE_keep (V : Valuation τ sig (Elt F)) (r : Ref sig .tc) (h : r ∉ opsE_W) :
    after opsE V (Proc.devRef .tc r) = V (Proc.devRef .tc r) :=
  after_of_writes_sub opsE V opsE_writes h

/-- The buffers the stretch's operations write. -/
abbrev opsF_W : List (Ref sig .tc) := [main_c_9, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v47]
theorem opsF_writes : (opsF : List (HloOp τ sig (Elt F))).Forall fun op => op.writes ⊆ (opsF_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsF_keep (V : Valuation τ sig (Elt F)) (r : Ref sig .tc) (h : r ∉ opsF_W) :
    after opsF V (Proc.devRef .tc r) = V (Proc.devRef .tc r) :=
  after_of_writes_sub opsF V opsF_writes h

/-- The buffers the stretch's operations write. -/
abbrev opsG_W : List (Ref sig .tc) := [main_v48, main_v49, main_v50, main_cst_10, main_v51, main_v52, main_v53, main_v54, main_v55, main_v56, main_v57, main_v58, main_v59, main_v60, main_v61, main_v62, main_call1_cst, main_call1_v0, main_v63]
theorem opsG_writes : (opsG : List (HloOp τ sig (Elt F))).Forall fun op => op.writes ⊆ (opsG_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsG_keep (V : Valuation τ sig (Elt F)) (r : Ref sig .tc) (h : r ∉ opsG_W) :
    after opsG V (Proc.devRef .tc r) = V (Proc.devRef .tc r) :=
  after_of_writes_sub opsG V opsG_writes h

/-- The buffers the stretch's operations write. -/
abbrev opsH_W : List (Ref sig .tc) := [main_v64, main_c_11, main_v65, main_v66, main_c_12, main_v67, main_v68, main_v69, main_v70, main_v71, main_v72, main_v73, main_cst_13, main_v74, main_v75, main_v76]
theorem opsH_writes : (opsH : List (HloOp τ sig (Elt F))).Forall fun op => op.writes ⊆ (opsH_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsH_keep (V : Valuation τ sig (Elt F)) (r : Ref sig .tc) (h : r ∉ opsH_W) :
    after opsH V (Proc.devRef .tc r) = V (Proc.devRef .tc r) :=
  after_of_writes_sub opsH V opsH_writes h

/-- The buffers the stretch's operations write. -/
abbrev opsJ_W : List (Ref sig .tc) := [main_v77, main_v78, main_v79]
theorem opsJ_writes : (opsJ : List (HloOp τ sig (Elt F))).Forall fun op => op.writes ⊆ (opsJ_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsJ_keep (V : Valuation τ sig (Elt F)) (r : Ref sig .tc) (h : r ∉ opsJ_W) :
    after opsJ V (Proc.devRef .tc r) = V (Proc.devRef .tc r) :=
  after_of_writes_sub opsJ V opsJ_writes h

/-- The buffers the stretch's operations write. -/
abbrev opsK_W : List (Ref sig .tc) := [main_call2_cst, main_call2_v0, main_call2_cst_0, main_call2_v1, main_call2_v2, main_call2_v3, main_call2_v4, main_call2_v5, main_call2_v6, main_call2_cst_1, main_call2_v7, main_call2_v8, main_call2_v9, main_call2_v10, main_v80]
theorem opsK_writes : (opsK : List (HloOp τ sig (Elt F))).Forall fun op => op.writes ⊆ (opsK_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩
/-- A buffer the stretch does not write keeps its contents through it. -/
theorem opsK_keep (V : Valuation τ sig (Elt F)) (r : Ref sig .tc) (h : r ∉ opsK_W) :
    after opsK V (Proc.devRef .tc r) = V (Proc.devRef .tc r) :=
  after_of_writes_sub opsK V opsK_writes h

/-- The operations' fold, stretch by stretch. -/
theorem after_ops (V : Valuation τ sig (Elt F)) :
    after ops V = after opsK (after opsJ (after opsH (after opsG (after opsF (after opsE (after opsD (after opsC (after opsB (after opsA V))))))))) := by
  simp only [ops, ops0, ops1, after_append]

/-- Every buffer @main's operations write: each tensor value but the eight arguments. -/
abbrev ops_W : List (Ref sig .tc) :=
  opsA_W ++ (opsB_W ++ (opsC_W ++ (opsD_W ++ (opsE_W ++ (opsF_W ++ (opsG_W ++ (opsH_W ++ (opsJ_W ++ opsK_W))))))))

/-- A buffer no operation writes keeps its contents through the whole line. -/
theorem ops_keep (V : Valuation τ sig (Elt F)) (r : Ref sig .tc) (h : r ∉ ops_W) :
    after ops V (Proc.devRef .tc r) = V (Proc.devRef .tc r) := by
  simp only [ops_W, List.mem_append, not_or] at h
  obtain ⟨hA, hB, hC, hD, hE, hF, hG, hH, hJ, hK⟩ := h
  rw [after_ops, opsK_keep _ r hK, opsJ_keep _ r hJ, opsH_keep _ r hH, opsG_keep _ r hG, opsF_keep _ r hF,
    opsE_keep _ r hE, opsD_keep _ r hD, opsC_keep _ r hC, opsB_keep _ r hB, opsA_keep _ r hA]

end Cert.ReferenceIdeal.RefRun

end
-- ==== Proof.RefRun.lean ====
/- The reference program's run: every weakly fair execution of @main terminates with the result buffer at the fold
   of its operations over the launch contents, and the eight argument buffers unchanged. -/
import proofs.«167311_j59150289600863_2_alg».proof.Proof.RefRunKeep
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- On the device, from any memory with zero counters: every weakly fair execution of @main terminates with the
    result buffer at the operations' fold over the launch contents and the eight arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v80) = after ops (fun b => m (c, b)) (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨h c main_v80,
      (h c main_arg0).trans (ops_keep _ main_arg0 (by decide)),
      (h c main_arg1).trans (ops_keep _ main_arg1 (by decide)),
      (h c main_arg2).trans (ops_keep _ main_arg2 (by decide)),
      (h c main_arg3).trans (ops_keep _ main_arg3 (by decide)),
      (h c main_arg4).trans (ops_keep _ main_arg4 (by decide)),
      (h c main_arg5).trans (ops_keep _ main_arg5 (by decide)),
      (h c main_arg6).trans (ops_keep _ main_arg6 (by decide)),
      (h c main_arg7).trans (ops_keep _ main_arg7 (by decide))⟩)
    (run_seq scopedRefs_eq scopedSems_eq defs main (fun _ => ops) main_eq (fun _ => ops_sub) m ρ)

end Cert.ReferenceIdeal.RefRun

end
-- ==== Proof.Claims.lean ====
/-
  The certificate's five claims from the three runs.

  The two kernel programs' frames are their generated frame runs. The reference has no kernel: its frame is its run with
  the result dropped. The idealization rewrote nothing, so `preserves` is `True`. The algebraic claim takes as its
  common result, on every device, what the idealized kernel program's last segment leaves in the result buffer; the
  kernel's run ends there, and the reference's run ends at the fold of its operations over its own launch memory, which
  is the same array as soon as the two memories agree on the eight arguments and the inputs are finite: that equality
  of two arrays (`Bridge`) is the one hypothesis of `algebraic_of_bridge`.
-/
import proofs.«167311_j59150289600863_2_alg».proof.Defs
import proofs.«167311_j59150289600863_2_alg».proof.Proof.Gen.Kernel.Frame
import proofs.«167311_j59150289600863_2_alg».proof.Proof.Gen.KernelIdeal.Frame
import proofs.«167311_j59150289600863_2_alg».proof.Proof.Gen.ReferenceIdeal
import proofs.«167311_j59150289600863_2_alg».proof.Proof.Gen.Pre_finite_inputs
import proofs.«167311_j59150289600863_2_alg».proof.Proof.KRun
import proofs.«167311_j59150289600863_2_alg».proof.Proof.RefRun

noncomputable section

open Idealize.ShloMosaic Idealize.ShloMosaic.TcCoe Idealize.SL.Sem

namespace Cert.Proof.Claims

/-- The two launch memories agree on the eight arguments, on every device. -/
abbrev Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)

/-- From finite inputs and agreeing arguments, the reference's operations folded over its launch memory leave in its
    result buffer the array the idealized kernel program's last segment leaves in its own. -/
abbrev Bridge : Prop :=
  ∀ (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ),
    Cert.Pre_KernelIdeal m → Agree m m' → ∀ c : Dev Cert.KernelIdeal.nD,
      StableHlo.after (Cert.ReferenceIdeal.RefRun.ops (F := Ideal)) (fun b => m' (c, b))
          (Proc.devRef .tc Cert.ReferenceIdeal.main_v80)
        = Cert.KernelIdeal.Gen.W8 m ρ c (Proc.devRef .tc Cert.KernelIdeal.main_v67)

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both programs run; the kernel program's result is the common result by its run, the reference's by `Bridge`. -/
theorem algebraic_of_bridge (hbridge : Bridge) : Cert.algebraic_KernelIdeal_ReferenceIdeal := by
  intro m ρ m' ρ' hpre hagree
  refine ⟨fun c => Cert.KernelIdeal.Gen.W8 m ρ c (Proc.devRef .tc Cert.KernelIdeal.main_v67),
    Cert.KernelIdeal.Val.run_value (F := Ideal) m ρ, ?_⟩
  refine (θ_run Cert.ReferenceIdeal.defs _ _).mono (fun r h c => ?_) (Cert.ReferenceIdeal.RefRun.run m' ρ')
  exact ⟨(h c).1.trans (hbridge m ρ m' hpre hagree c), (h c).2⟩

end Cert.Proof.Claims

end
-- ==== Proof.GcnHost.lean ====
/-
  The graph part of the two-layer graph convolution, as functions of the edge array.

  Both programs treat the graph in the same way. The edge array `ei : [2, E]` (E = 6400000 edges over N = 200000
  nodes) gives a source row and a destination row; each is extended by the N self-loops `0, 1, …, N − 1`, which gives
  the source vector and the destination vector of length E + N. The degree of node `i` is the number of entries of
  the destination vector equal to `i` — an accumulating scatter of ones into zeros —, `dinv` its inverse square
  root, and the weight of edge `e` is `dinv (src e) · dinv (dst e)`, a node index being read through the usual
  wrap-around of a negative index and the gather's clamp into `[0, N − 1]`. One aggregation step sends a table
  `M : [N, C]` to the table whose row `i` is the sum over the edges `e` with `dst e = i` of
  `M (src e, ·) · weight e`: a row gather, a product with the weight column spread over the `C` columns, and an
  accumulating row scatter into zeros. The definitions below are these stages in the printed operations' own spelling,
  stated once so that both programs' values can be named by them.
-/
import proofs.«167311_j59150289600863_2_alg».proof.Proof.Gen.KernelIdeal
import Idealize.ShloMosaic.PureOps.Ideal

noncomputable section

namespace Cert.Gcn

open Idealize.ShloMosaic Cert.KernelIdeal Cert.KernelIdeal.Facts₀

/-- Integer arrays (32-bit words) and float arrays (extended reals) of a shape. -/
abbrev I32 (S : Shape) : Type := IVec S 32
abbrev F32 (S : Shape) : Type := FVec Ideal S .f32

/-- Row `r` of the edge array followed by the self-loops `0 … N − 1`. -/
def srcVec (ei : I32 S2x6400000) : I32 S6600000 :=
  concatenate S6600000 0
    [⟨S6400000, shapeCast S6400000 (extractStridedSlice S1x6400000 ![0, 0] ei slices_S2x6400000_S1x6400000_0_0)
        shapeCasts_S1x6400000_S6400000⟩,
     ⟨S200000, iotaInDim S200000 32 0⟩] concatenates_S6400000_S200000_S6600000_d0

def dstVec (ei : I32 S2x6400000) : I32 S6600000 :=
  concatenate S6600000 0
    [⟨S6400000, shapeCast S6400000 (extractStridedSlice S1x6400000 ![1, 0] ei slices_S2x6400000_S1x6400000_1_0)
        shapeCasts_S1x6400000_S6400000⟩,
     ⟨S200000, iotaInDim S200000 32 0⟩] concatenates_S6400000_S200000_S6600000_d0

/-- An index vector as the `[E + N, 1]` column a scatter or gather takes. -/
def idxCol (v : I32 S6600000) : I32 S6600000x1 := broadcastInDim S6600000x1 ![0] bcast_S6600000_S6600000x1_0 v

/-- A negative node index counts from the end: `v < 0 ↦ v + N`. -/
def wrapIdx (v : I32 S6600000) : I32 S6600000 :=
  select (cmpi .slt v (broadcastInDim S6600000 ![] bcast_S_S6600000 (constantI S_ 32 0#32)))
    (addi v (broadcastInDim S6600000 ![] bcast_S_S6600000 (constantI S_ 32 200000#32))) v

/-- The degree of every node: ones scattered, accumulating, into zeros along the destination vector. -/
def degVec (d : I32 S6600000) : F32 S200000 :=
  Host.scatterAdd (F := Ideal) scatter_S200000_S6600000x1_S6600000_n_0_0_1
    (broadcastInDim S200000 ![] bcast_S_S200000 (constant (F := Ideal) S_ .f32 0x00000000#32)) (idxCol d)
    (broadcastInDim S6600000 ![] bcast_S_S6600000 (constant (F := Ideal) S_ .f32 0x3F800000#32))

def dinvVec (d : I32 S6600000) : F32 S200000 := Host.rsqrt (F := Ideal) (degVec d)

/-- The edge weights `dinv (src e) · dinv (dst e)`, as a column. -/
def ewCol (s d : I32 S6600000) : F32 S6600000x1 :=
  broadcastInDim S6600000x1 ![0] bcast_S6600000_S6600000x1_0
    (mulf (Host.gather gather_S200000_S6600000x1_S6600000_n_0_n_n_0_1_1 (dinvVec d) (idxCol (wrapIdx s)))
      (Host.gather gather_S200000_S6600000x1_S6600000_n_0_n_n_0_1_1 (dinvVec d) (idxCol (wrapIdx d))))

/-- One aggregation step on a table of 16 columns. -/
def agg16 (M : F32 S200000x16) (s d : I32 S6600000) (w : F32 S6600000x1) : F32 S200000x16 :=
  Host.scatterAdd (F := Ideal) scatter_S200000x16_S6600000x1_S6600000x16_1_0_0_1
    (broadcastInDim S200000x16 ![] bcast_S_S200000x16 (constant (F := Ideal) S_ .f32 0x00000000#32)) (idxCol d)
    (mulf (Host.gather gather_S200000x16_S6600000x1_S6600000x16_1_0_n_n_0_1_116 M (idxCol (wrapIdx s)))
      (broadcastInDim S6600000x16 ![0, 1] bcast_S6600000x1_S6600000x16_0_1 w))

/-- One aggregation step on a table of 3 columns. -/
def agg3 (M : F32 S200000x3) (s d : I32 S6600000) (w : F32 S6600000x1) : F32 S200000x3 :=
  Host.scatterAdd (F := Ideal) scatter_S200000x3_S6600000x1_S6600000x3_1_0_0_1
    (broadcastInDim S200000x3 ![] bcast_S_S200000x3 (constant (F := Ideal) S_ .f32 0x00000000#32)) (idxCol d)
    (mulf (Host.gather gather_S200000x3_S6600000x1_S6600000x3_1_0_n_n_0_1_13 M (idxCol (wrapIdx s)))
      (broadcastInDim S6600000x3 ![0, 1] bcast_S6600000x1_S6600000x3_0_1 w))

end Cert.Gcn

end
-- ==== Proof.KHost.lean ====
/-
  The idealized kernel program's four stretches of host operations, each read as a function of the buffer contents it
  starts from.

  The first stretch computes the graph part from the edge array (the source and destination vectors, the edge-weight
  column) and lays the four one-dimensional parameters out as rows; the second and the fourth are one aggregation step
  each, on the first and on the second dense product; the third turns the column sums and the column sums of squares
  into the batch mean and the clamped batch variance. A stretch writes only its own results: every other buffer keeps
  what it held.
-/
import proofs.«167311_j59150289600863_2_alg».proof.Proof.Gen.KernelIdeal.Launch
import proofs.«167311_j59150289600863_2_alg».proof.Proof.GcnHost
import Idealize.ShloMosaic.Lib.StableHlo.Run

set_option maxRecDepth 16384

noncomputable section

namespace Cert.KernelIdeal.Val

open Cert.KernelIdeal Cert.KernelIdeal.Gen Cert.Gcn
open Idealize.ShloMosaic Idealize.ShloMosaic.StableHlo

/-- Operations run one after the other: a line cut in two. -/
theorem after_append {τ : Topo} {sig : RefSig} {Val : EltTy → Type} (l₁ l₂ : List (HloOp τ sig Val))
    (V : Valuation τ sig Val) : StableHlo.after (l₁ ++ l₂) V = StableHlo.after l₂ (StableHlo.after l₁ V) := by
  induction l₁ generalizing V with
  | nil => rfl
  | cons op l ih => simp only [List.cons_append, StableHlo.after_cons, ih]

theorem after_split {τ : Topo} {sig : RefSig} {Val : EltTy → Type} (n : ℕ) (l : List (HloOp τ sig Val))
    (V : Valuation τ sig Val) :
    StableHlo.after l V = StableHlo.after (l.drop n) (StableHlo.after (l.take n) V) := by
  rw [← after_append, List.take_append_drop]

variable (W : Valuation τ sig (Elt Ideal))

/-! ## The first stretch -/

theorem host0_src :
    StableHlo.after (hostOps0 (F := Ideal)) W (Proc.devRef .tc main_v5) = srcVec (W (Proc.devRef .tc main_arg7)) := by
  after_results; rfl

theorem host0_dst :
    StableHlo.after (hostOps0 (F := Ideal)) W (Proc.devRef .tc main_v6) = dstVec (W (Proc.devRef .tc main_arg7)) := by
  after_results; rfl

theorem host0_ew :
    StableHlo.after (hostOps0 (F := Ideal)) W (Proc.devRef .tc main_v27)
      = ewCol (srcVec (W (Proc.devRef .tc main_arg7))) (dstVec (W (Proc.devRef .tc main_arg7))) := by
  rw [after_split 7]
  have h5 : StableHlo.after ((hostOps0 (F := Ideal)).take 7) W (Proc.devRef .tc main_v5)
      = srcVec (W (Proc.devRef .tc main_arg7)) := by
    simp only [hostOps0, List.take_succ_cons, List.take_zero]; after_results; rfl
  have h6 : StableHlo.after ((hostOps0 (F := Ideal)).take 7) W (Proc.devRef .tc main_v6)
      = dstVec (W (Proc.devRef .tc main_arg7)) := by
    simp only [hostOps0, List.take_succ_cons, List.take_zero]; after_results; rfl
  generalize StableHlo.after ((hostOps0 (F := Ideal)).take 7) W = WA at h5 h6 ⊢
  simp only [hostOps0, List.drop_succ_cons, List.drop_zero]
  after_results_simp
  rw [h5, h6]
  rfl

theorem host0_b1 : StableHlo.after (hostOps0 (F := Ideal)) W (Proc.devRef .tc main_v28)
    = shapeCast S1x16 (W (Proc.devRef .tc main_arg2)) shapeCasts_S16_S1x16 := by after_results; rfl
theorem host0_gamma : StableHlo.after (hostOps0 (F := Ideal)) W (Proc.devRef .tc main_v29)
    = shapeCast S1x16 (W (Proc.devRef .tc main_arg3)) shapeCasts_S16_S1x16 := by after_results; rfl
theorem host0_beta : StableHlo.after (hostOps0 (F := Ideal)) W (Proc.devRef .tc main_v30)
    = shapeCast S1x16 (W (Proc.devRef .tc main_arg4)) shapeCasts_S16_S1x16 := by after_results; rfl
theorem host0_b2 : StableHlo.after (hostOps0 (F := Ideal)) W (Proc.devRef .tc main_v31)
    = shapeCast S1x3 (W (Proc.devRef .tc main_arg6)) shapeCasts_S3_S1x3 := by after_results; rfl
theorem host0_x : StableHlo.after (hostOps0 (F := Ideal)) W (Proc.devRef .tc main_arg0) = W (Proc.devRef .tc main_arg0) := by
  after_results
theorem host0_w1 : StableHlo.after (hostOps0 (F := Ideal)) W (Proc.devRef .tc main_arg1) = W (Proc.devRef .tc main_arg1) := by
  after_results
theorem host0_w2 : StableHlo.after (hostOps0 (F := Ideal)) W (Proc.devRef .tc main_arg5) = W (Proc.devRef .tc main_arg5) := by
  after_results

/-! ## The second stretch: the first aggregation -/

theorem host1_agg : StableHlo.after (hostOps1 (F := Ideal)) W (Proc.devRef .tc main_v44)
    = agg16 (W (Proc.devRef .tc main_v32)) (W (Proc.devRef .tc main_v5)) (W (Proc.devRef .tc main_v6))
        (W (Proc.devRef .tc main_v27)) := by
  after_results_simp; rfl

theorem host1_keep {b : Ref sig .tc}
    (hb : b ∈ [main_v5, main_v6, main_v27, main_v28, main_v29, main_v30, main_v31, main_arg5]) :
    StableHlo.after (hostOps1 (F := Ideal)) W (Proc.devRef .tc b) = W (Proc.devRef .tc b) := by
  simp only [List.mem_cons, List.mem_nil_iff, or_false] at hb
  rcases hb with rfl | rfl | rfl | rfl | rfl | rfl | rfl | rfl <;> after_results

/-! ## The third stretch: mean and clamped variance -/

/-- The batch mean of each column: its sum over the 200000 rows divided by 200000. -/
def meanRow (s : FVec Ideal S1x16 .f32) : FVec Ideal S1x16 .f32 :=
  Host.divf (F := Ideal) s (broadcastInDim S1x16 ![] bcast_S_S1x16 (constant (F := Ideal) S_ .f32 0x48435000#32))

/-- The batch variance of each column as mean of squares minus squared mean, clamped below at zero. -/
def varRow (s q : FVec Ideal S1x16 .f32) : FVec Ideal S1x16 .f32 :=
  maximumf
    (subf (Host.divf (F := Ideal) q (broadcastInDim S1x16 ![] bcast_S_S1x16 (constant (F := Ideal) S_ .f32 0x48435000#32)))
      (mulf (meanRow s) (meanRow s)))
    (broadcastInDim S1x16 ![] bcast_S_S1x16 (constant (F := Ideal) S_ .f32 0x00000000#32))

theorem host2_mean : StableHlo.after (hostOps2 (F := Ideal)) W (Proc.devRef .tc main_v47)
    = meanRow (W (Proc.devRef .tc main_v45_0)) := by
  after_results_simp; rfl

theorem host2_var : StableHlo.after (hostOps2 (F := Ideal)) W (Proc.devRef .tc main_v53)
    = varRow (W (Proc.devRef .tc main_v45_0)) (W (Proc.devRef .tc main_v45_1)) := by
  after_results_simp; rfl

theorem host2_keep {b : Ref sig .tc}
    (hb : b ∈ [main_v44, main_v28, main_v29, main_v30, main_arg5, main_v5, main_v6, main_v27, main_v31]) :
    StableHlo.after (hostOps2 (F := Ideal)) W (Proc.devRef .tc b) = W (Proc.devRef .tc b) := by
  simp only [List.mem_cons, List.mem_nil_iff, or_false] at hb
  rcases hb with rfl | rfl | rfl | rfl | rfl | rfl | rfl | rfl | rfl <;> after_results

/-! ## The fourth stretch: the second aggregation -/

theorem host3_agg : StableHlo.after (hostOps3 (F := Ideal)) W (Proc.devRef .tc main_v66)
    = agg3 (W (Proc.devRef .tc main_v54)) (W (Proc.devRef .tc main_v5)) (W (Proc.devRef .tc main_v6))
        (W (Proc.devRef .tc main_v27)) := by
  after_results_simp; rfl

theorem host3_b2 : StableHlo.after (hostOps3 (F := Ideal)) W (Proc.devRef .tc main_v31) = W (Proc.devRef .tc main_v31) := by
  after_results

end Cert.KernelIdeal.Val

end
-- ==== Proof.KCarry.lean ====
/-
  What each stretch of host operations and each kernel launch of the idealized kernel program leaves untouched.

  The program's eight segments are read as a fold `W0, W1, …, W8` of buffer contents from the launch memory. A buffer
  is written once: the graph part (source and destination vectors, edge weights) and the parameter rows are written by
  the first stretch and only read afterwards, so at every later boundary they still hold what the first stretch gave
  them. A kernel launch changes only its output arrays (an input array is handed back as it was entered), and a host
  stretch only its own results. The one-step facts are stated for any buffer the step does not write; the rest composes
  them.
-/
import proofs.«167311_j59150289600863_2_alg».proof.Proof.Gen.KernelIdeal.Frame
import proofs.«167311_j59150289600863_2_alg».proof.Proof.KHost

set_option maxRecDepth 16384

noncomputable section

namespace Cert.KernelIdeal.Val

open Cert.KernelIdeal Cert.KernelIdeal.Gen Cert.Gcn
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (ρ : Dev nD → PrngReg) (c : Dev nD)

/-! ## One step at a time, for any buffer the step does not write -/

section Steps
variable (b : Ref sig .tc)

theorem step2 (h : ∀ w, Pipeline.arrRef spec0 w ≠ b) :
    W2 m ρ c (Proc.devRef .tc b) = W1 m ρ c (Proc.devRef .tc b) := W2_of_ne m ρ c b h

theorem step3 (h : b ∈ [main_v5, main_v6, main_v27, main_v28, main_v29, main_v30, main_v31, main_arg5]) :
    W3 m ρ c (Proc.devRef .tc b) = W2 m ρ c (Proc.devRef .tc b) := host1_keep (W2 m ρ c) h

theorem step4 (h : ∀ w, Pipeline.arrRef spec1 w ≠ b) :
    W4 m ρ c (Proc.devRef .tc b) = W3 m ρ c (Proc.devRef .tc b) := W4_of_ne m ρ c b h

theorem step5 (h : b ∈ [main_v44, main_v28, main_v29, main_v30, main_arg5, main_v5, main_v6, main_v27, main_v31]) :
    W5 m ρ c (Proc.devRef .tc b) = W4 m ρ c (Proc.devRef .tc b) := host2_keep (W4 m ρ c) h

theorem step6 (h : ∀ w, Pipeline.arrRef spec2 w ≠ b) :
    W6 m ρ c (Proc.devRef .tc b) = W5 m ρ c (Proc.devRef .tc b) := W6_of_ne m ρ c b h

/-- From the first boundary to the third launch's entry, for a buffer no step in between writes and that is no
    array of the first two launches. -/
theorem reach5 (h2 : ∀ w, Pipeline.arrRef spec0 w ≠ b)
    (h3 : b ∈ [main_v5, main_v6, main_v27, main_v28, main_v29, main_v30, main_v31, main_arg5])
    (h4 : ∀ w, Pipeline.arrRef spec1 w ≠ b)
    (h5 : b ∈ [main_v44, main_v28, main_v29, main_v30, main_arg5, main_v5, main_v6, main_v27, main_v31]) :
    W5 m ρ c (Proc.devRef .tc b) = W1 m ρ c (Proc.devRef .tc b) :=
  (step5 m ρ c b h5).trans ((step4 m ρ c b h4).trans ((step3 m ρ c b h3).trans (step2 m ρ c b h2)))

/-- The same one launch further. -/
theorem reach6 (h2 : ∀ w, Pipeline.arrRef spec0 w ≠ b)
    (h3 : b ∈ [main_v5, main_v6, main_v27, main_v28, main_v29, main_v30, main_v31, main_arg5])
    (h4 : ∀ w, Pipeline.arrRef spec1 w ≠ b)
    (h5 : b ∈ [main_v44, main_v28, main_v29, main_v30, main_arg5, main_v5, main_v6, main_v27, main_v31])
    (h6 : ∀ w, Pipeline.arrRef spec2 w ≠ b) :
    W6 m ρ c (Proc.devRef .tc b) = W1 m ρ c (Proc.devRef .tc b) :=
  (step6 m ρ c b h6).trans (reach5 m ρ c b h2 h3 h4 h5)

end Steps

/-! ## The dense operands of the first launch -/

theorem W1_x : W1 m ρ c (Proc.devRef .tc main_arg0) = m ((c.tc : Thread nD τ).loc main_arg0) := host0_x (W0 m ρ c)
theorem W1_w1 : W1 m ρ c (Proc.devRef .tc main_arg1) = m ((c.tc : Thread nD τ).loc main_arg1) := host0_w1 (W0 m ρ c)

/-! ## The graph part, where the two aggregations read it -/

theorem W2_src : W2 m ρ c (Proc.devRef .tc main_v5) = srcVec (m ((c.tc : Thread nD τ).loc main_arg7)) :=
  (step2 m ρ c main_v5 (by decide)).trans (host0_src (W0 m ρ c))
theorem W2_dst : W2 m ρ c (Proc.devRef .tc main_v6) = dstVec (m ((c.tc : Thread nD τ).loc main_arg7)) :=
  (step2 m ρ c main_v6 (by decide)).trans (host0_dst (W0 m ρ c))
theorem W2_ew : W2 m ρ c (Proc.devRef .tc main_v27)
    = ewCol (srcVec (m ((c.tc : Thread nD τ).loc main_arg7))) (dstVec (m ((c.tc : Thread nD τ).loc main_arg7))) :=
  (step2 m ρ c main_v27 (by decide)).trans (host0_ew (W0 m ρ c))

theorem W6_src : W6 m ρ c (Proc.devRef .tc main_v5) = srcVec (m ((c.tc : Thread nD τ).loc main_arg7)) :=
  (reach6 m ρ c main_v5 (by decide) (by simp) (by decide) (by simp) (by decide)).trans (host0_src (W0 m ρ c))
theorem W6_dst : W6 m ρ c (Proc.devRef .tc main_v6) = dstVec (m ((c.tc : Thread nD τ).loc main_arg7)) :=
  (reach6 m ρ c main_v6 (by decide) (by simp) (by decide) (by simp) (by decide)).trans (host0_dst (W0 m ρ c))
theorem W6_ew : W6 m ρ c (Proc.devRef .tc main_v27)
    = ewCol (srcVec (m ((c.tc : Thread nD τ).loc main_arg7))) (dstVec (m ((c.tc : Thread nD τ).loc main_arg7))) :=
  (reach6 m ρ c main_v27 (by decide) (by simp) (by decide) (by simp) (by decide)).trans (host0_ew (W0 m ρ c))

/-! ## The parameter rows, where the launches read them -/

/-- The first bias as a row, at the second launch's entry. -/
theorem W3_b1 : W3 m ρ c (Proc.devRef .tc main_v28)
    = shapeCast S1x16 (m ((c.tc : Thread nD τ).loc main_arg2)) shapeCasts_S16_S1x16 :=
  (step3 m ρ c main_v28 (by simp)).trans ((step2 m ρ c main_v28 (by decide)).trans (host0_b1 (W0 m ρ c)))

/-- The second launch reads the bias row through an input window and hands it back as entered. -/
theorem W4_b1 : W4 m ρ c (Proc.devRef .tc main_v28) = W3 m ρ c (Proc.devRef .tc main_v28) :=
  (W4_arr m ρ c 1).trans (((dat1 (V3 m ρ) c).arrAt_in 1 rfl cfg1.N).trans (A_eq1 (V3 m ρ) c 1))

theorem W5_b1 : W5 m ρ c (Proc.devRef .tc main_v28)
    = shapeCast S1x16 (m ((c.tc : Thread nD τ).loc main_arg2)) shapeCasts_S16_S1x16 :=
  (step5 m ρ c main_v28 (by simp)).trans ((W4_b1 m ρ c).trans (W3_b1 m ρ c))

theorem W5_gamma : W5 m ρ c (Proc.devRef .tc main_v29)
    = shapeCast S1x16 (m ((c.tc : Thread nD τ).loc main_arg3)) shapeCasts_S16_S1x16 :=
  (reach5 m ρ c main_v29 (by decide) (by simp) (by decide) (by simp)).trans (host0_gamma (W0 m ρ c))

theorem W5_beta : W5 m ρ c (Proc.devRef .tc main_v30)
    = shapeCast S1x16 (m ((c.tc : Thread nD τ).loc main_arg4)) shapeCasts_S16_S1x16 :=
  (reach5 m ρ c main_v30 (by decide) (by simp) (by decide) (by simp)).trans (host0_beta (W0 m ρ c))

theorem W5_w2 : W5 m ρ c (Proc.devRef .tc main_arg5) = m ((c.tc : Thread nD τ).loc main_arg5) :=
  (reach5 m ρ c main_arg5 (by decide) (by simp) (by decide) (by simp)).trans (host0_w2 (W0 m ρ c))

/-- The second bias as a row, at the last launch's entry. -/
theorem W7_b2 : W7 m ρ c (Proc.devRef .tc main_v31)
    = shapeCast S1x3 (m ((c.tc : Thread nD τ).loc main_arg6)) shapeCasts_S3_S1x3 :=
  (host3_b2 (W6 m ρ c)).trans
    ((reach6 m ρ c main_v31 (by decide) (by simp) (by decide) (by simp) (by decide)).trans (host0_b2 (W0 m ρ c)))

/-! ## The first aggregate, from the second stretch to the third launch -/

/-- The second launch reads the aggregate through an input window and hands it back as entered. -/
theorem W4_agg : W4 m ρ c (Proc.devRef .tc main_v44) = W3 m ρ c (Proc.devRef .tc main_v44) :=
  (W4_arr m ρ c 0).trans (((dat1 (V3 m ρ) c).arrAt_in 0 rfl cfg1.N).trans (A_eq1 (V3 m ρ) c 0))

theorem W5_agg : W5 m ρ c (Proc.devRef .tc main_v44) = W3 m ρ c (Proc.devRef .tc main_v44) :=
  (step5 m ρ c main_v44 (by simp)).trans (W4_agg m ρ c)

end Cert.KernelIdeal.Val

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.KMatmul1Pay.lean ====
/-
  The first matmul body at an entry. The body rounds both loaded blocks to bf16 (the identity on the extended reals),
  and multiplies them into a zero accumulator: entry `(p, q)` of what it stores is `∑ k, x (p, k) · w (k, q)` over
  the 256 columns of the left block.
-/
import proofs.«167311_j59150289600863_2_alg».proof.Proof.Gen.KernelIdeal.Skeleton
import proofs.«167311_j59150289600863_2_alg».proof.Proof.LibPlainMatmul

noncomputable section

open scoped BigOperators

namespace Cert.KernelIdeal.Val

open Cert.KernelIdeal Idealize.ShloMosaic Idealize.ShloMosaic.ValueIdx

/-- The stored block at `(p, q)`: the row `p` of the left block against the column `q` of the right one. -/
theorem pay0_apply (x : Vec Ideal S10000x256 .f32) (w : Vec Ideal S256x16 .f32) (p : Fin 10000) (q : Fin 16) :
    Gen.k0_pay1 x w (ix2 p q) = ∑ k : Fin 256, x (ix2 p k) * w (ix2 k q) := by
  unfold Gen.k0_pay1
  exact Cert.LibPlainMatmul.matmul_plain_zero_apply (M := 10000) (K := 256) (N := 16)
    dot_S10000x256_S256x16_S10000x16_1_0_0_1_n_n rfl none _ _ p q

/-- The same at any index of the block. -/
theorem pay0_at (x : Vec Ideal S10000x256 .f32) (w : Vec Ideal S256x16 .f32) (y : S10000x16.Idx) :
    Gen.k0_pay1 x w y = ∑ k : Fin 256, x (ix2 (y 0) k) * w (ix2 k (y 1)) := by
  rw [eq_ix2 y]
  exact pay0_apply x w (y 0) (y 1)

end Cert.KernelIdeal.Val

end
-- ==== Proof.KMatmul1.lean ====
/-
  The array the first matmul region leaves: every row block of 10000 rows of the output is the same rows of the left
  operand times the whole right operand, and the 20 row blocks tile the 200000 rows, so entry `(i, j)` of the output is
  `∑ k, a (i, k) · b (k, j)`.
-/
import proofs.«167311_j59150289600863_2_alg».proof.Proof.Gen.KernelIdeal.Frame
import proofs.«167311_j59150289600863_2_alg».proof.Proof.KMatmul1Pay
import Idealize.ShloMosaic.Lib.Pipeline.Value

noncomputable section

open scoped BigOperators

namespace Cert.KernelIdeal.Val

open Cert.KernelIdeal Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem off_zero2 : (![0, 0] : Fin 2 → Nat) = fun _ => 0 := funext fun a => by fin_cases a <;> rfl

/-- The product of the two operand arrays, entry by entry. -/
def prod0 (a : S200000x256.Idx → EReal) (b : S256x16.Idx → EReal) : S200000x16.Idx → EReal :=
  fun i => ∑ k : Fin 256, a (ix2 (i 0) k) * b (ix2 k (i 1))

/-- Entry `(i, j)` of the product: row `i` of the left array against column `j` of the right one. -/
theorem prod0_apply (a : S200000x256.Idx → EReal) (b : S256x16.Idx → EReal) (i : Fin 200000) (j : Fin 16) :
    prod0 a b (ix2 i j) = ∑ k : Fin 256, a (ix2 i k) * b (ix2 k j) := rfl

/-- Where the windows' blocks sit at grid point `t`: the left operand's and the output's at row block `t`, the right
    operand's at the origin. -/
theorem where0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point `t` is its rows `10000 t … 10000 t + 9999`. -/
theorem blk0_left (c : Dev nD) (t : Fin cfg0.N) (p : Fin 10000) (k : Fin 256) (r : Fin 200000)
    (hr : r.val = t.val * 10000 + p.val) :
    Gen.iblk0 (F := Ideal) V c 0 t (ix2 p k) = V c main_arg0 (ix2 r k) := by
  obtain ⟨e0, e1, -⟩ := where0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 10000 + 1 * p.val = r.val; omega
  | ⟨1, _⟩ => show win0_0.index t (1 : Fin 2) * 256 + 1 * k.val = k.val; omega

/-- The right operand's block at every point is the whole operand. -/
theorem blk0_right (c : Dev nD) (t : Fin cfg0.N) (k : Fin 256) (q : Fin 16) :
    Gen.iblk0 (F := Ideal) V c 1 t (ix2 k q) = V c main_arg1 (ix2 k q) := by
  obtain ⟨-, -, e0, e1, -⟩ := where0 t
  show V c main_arg1 (((cfg0.win 1).blk t).view.emb (ix2 k q)) = V c main_arg1 (ix2 k q)
  refine congrArg (V c main_arg1) (funext fun a => Fin.ext ?_)
  match a with
  | ⟨0, _⟩ => show win0_1.index t (0 : Fin 2) * 256 + 1 * k.val = k.val; omega
  | ⟨1, _⟩ => show win0_1.index t (1 : Fin 2) * 16 + 1 * q.val = q.val; omega

/-- What grid point `t` writes back is row block `t` of the product. -/
theorem flushed0 (c : Dev nD) (t : Fin cfg0.N) :
    (Gen.dat0 (F := Ideal) V c).flushed 2 t
      = ((cfg0.win 2).blk t).view.read (Elt Ideal) (prod0 (V c main_arg0) (V c main_arg1)) := by
  show (cfg0.win 2).cut (grid0.coords t) ((Gen.dat0 V c).after 2 t) = _
  rw [Gen.after0_2]
  unfold Gen.out0_2
  rw [View.canon_unit_zero off_zero2]
  simp only [View.ld_unit_zero (S := S10000x256) off_zero2, View.ld_unit_zero (S := S256x16) off_zero2]
  funext y
  obtain ⟨-, -, -, -, e0, e1⟩ := where0 t
  show Gen.k0_pay1 (Gen.iblk0 V c 0 t) (Gen.iblk0 V c 1 t) y
    = prod0 (V c main_arg0) (V c main_arg1) (((cfg0.win 2).blk t).view.emb y)
  have h0 : ((((cfg0.win 2).blk t).view.emb y) 0).val = t.val * 10000 + (y 0).val := by
    show win0_2.index t (0 : Fin 2) * 10000 + 1 * (y 0).val = _; omega
  have h1 : (((cfg0.win 2).blk t).view.emb y) 1 = y 1 :=
    Fin.ext (by show win0_2.index t (1 : Fin 2) * 16 + 1 * (y 1).val = (y 1).val; omega)
  refine (pay0_at _ _ y).trans ?_
  refine Finset.sum_congr rfl fun k _ => ?_
  exact congrArg₂ (· * ·) (blk0_left V c t (y 0) k _ h0)
    ((blk0_right V c t k (y 1)).trans (congrArg (fun z => V c main_arg1 (ix2 k z)) h1.symm))

/-- An index of the output is in point `t`'s block iff each coordinate is in the block's range on its axis. -/
theorem mem_blk0 (t : Fin cfg0.N) (i : S200000x16.Idx) :
    i ∈ ((cfg0.win 2).blk t).view.set
      ↔ ∀ a : Fin 2, win0_2.index t a * S10000x16.size a ≤ (i a).val
          ∧ (i a).val < win0_2.index t a * S10000x16.size a + S10000x16.size a := by
  show i ∈ ((View.whole main_v32).slice (win0_2.rect t)).set ↔ _
  rw [View.set_slice_whole, Rect.mem_set_unit]
  exact Iff.rfl

/-- Row `r` of the output is in the block of point `r / 10000`, which writes back. -/
theorem cover0 (i : S200000x16.Idx) :
    ∃ t : Fin cfg0.N, (cfg0.win 2).flush t = true ∧ i ∈ ((cfg0.win 2).blk t).view.set := by
  have hN : cfg0.N = 20 := Gen.N_0
  have hi0 : (i 0).val < 200000 := (i 0).isLt
  have hi1 : (i 1).val < 16 := (i 1).isLt
  refine ⟨⟨(i 0).val / 10000, by omega⟩, Gen.flush0_2 _, ?_⟩
  rw [mem_blk0]
  obtain ⟨-, -, -, -, e0, e1⟩ := where0 ⟨(i 0).val / 10000, by omega⟩
  intro a
  match a with
  | ⟨0, _⟩ =>
    show win0_2.index _ (0 : Fin 2) * 10000 ≤ (i 0).val ∧ (i 0).val < win0_2.index _ (0 : Fin 2) * 10000 + 10000
    rw [e0]; show (i 0).val / 10000 * 10000 ≤ (i 0).val ∧ (i 0).val < (i 0).val / 10000 * 10000 + 10000; omega
  | ⟨1, _⟩ =>
    show win0_2.index _ (1 : Fin 2) * 16 ≤ (i 1).val ∧ (i 1).val < win0_2.index _ (1 : Fin 2) * 16 + 16
    rw [e1]; omega

/-- The output array after the region is the product of the operand arrays as the region finds them. -/
theorem arr0_eq (c : Dev nD) :
    (Gen.dat0 (F := Ideal) V c).arrAt 2 cfg0.N = prod0 (V c main_arg0) (V c main_arg1) :=
  (Gen.dat0 (F := Ideal) V c).arrAt_eq_of_cover 2 (prod0 (V c main_arg0) (V c main_arg1))
    (fun t _ => flushed0 V c t) cover0

/-- Entry `(i, j)` of the output after the region. -/
theorem arr0 (c : Dev nD) (i : Fin 200000) (j : Fin 16) :
    (Gen.dat0 (F := Ideal) V c).arrAt 2 cfg0.N (ix2 i j) = prod0 (V c main_arg0) (V c main_arg1) (ix2 i j) :=
  congrFun (arr0_eq V c) (ix2 i j)

end Cert.KernelIdeal.Val

end
-- ==== Proof.KStatsPieces.lean ====
/-
  The batch-norm statistics kernel (region 1), case by case: what the body leaves in each of its two outputs,
  read back as the payload of its last covering store. At the first grid point both rows are first set to zero
  and then accumulated; at every other point they are accumulated onto what the point before left.
-/
import proofs.«167311_j59150289600863_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen

variable {F : FTy → Type} [FloatOps F]

theorem hz1 : (![0, 0] : Fin 2 → Nat) = fun _ => 0 := funext fun a => by fin_cases a <;> rfl

/-- Every point but the first: the sums row ends at the fourth payload over the row it held. -/
theorem out1_B_2_eq (c : Dev nD) (i : grid1.Coords) (a1 : Memref sig .tc .vmem S10000x16 .f32) (h1 : a1.IsWhole)
    (a2 : Memref sig .tc .vmem S1x16 .f32) (h2 : a2.IsWhole) (a3 : Memref sig .tc .vmem S1x16 .f32) (h3 : a3.IsWhole)
    (a4 : Memref sig .tc .vmem S1x16 .f32) (h4 : a4.IsWhole) (hc : ¬cond1_0 i)
    (x0 : Vec F S10000x16 .f32) (x1 xo2 xo3 : Vec F S1x16 .f32) :
    out1_B_2 c i a1 h1 a2 h2 a3 h3 a4 h4 hc x0 x1 xo2 xo3 = k1_pay4 x0 x1 xo2 := by
  unfold out1_B_2
  rw [View.read_writes_eq_canon _ _ _ (cover1_B_2 c i a1 h1 a2 h2 a3 h3 a4 h4 hc x0 x1 xo2 xo3)]
  unfold kernelRun1_B
  dsimp only
  rw [View.canon_unit_zero hz1]
  simp only [View.readAt_eq_ld, h1.read_unread, h2.read_unread, h3.read_unread, View.ld_unit_zero (S := S10000x16) hz1, View.ld_unit_zero (S := S1x16) hz1]

/-- Every point but the first: the squares row ends at the fifth payload over the row it held. -/
theorem out1_B_3_eq (c : Dev nD) (i : grid1.Coords) (a1 : Memref sig .tc .vmem S10000x16 .f32) (h1 : a1.IsWhole)
    (a2 : Memref sig .tc .vmem S1x16 .f32) (h2 : a2.IsWhole) (a3 : Memref sig .tc .vmem S1x16 .f32) (h3 : a3.IsWhole)
    (a4 : Memref sig .tc .vmem S1x16 .f32) (h4 : a4.IsWhole) (hc : ¬cond1_0 i)
    (x0 : Vec F S10000x16 .f32) (x1 xo2 xo3 : Vec F S1x16 .f32) :
    out1_B_3 c i a1 h1 a2 h2 a3 h3 a4 h4 hc x0 x1 xo2 xo3 = k1_pay5 x0 x1 xo3 := by
  unfold out1_B_3
  rw [View.read_writes_eq_canon _ _ _ (cover1_B_3 c i a1 h1 a2 h2 a3 h3 a4 h4 hc x0 x1 xo2 xo3)]
  unfold kernelRun1_B
  dsimp only
  rw [View.canon_unit_zero hz1]
  simp only [View.readAt_eq_ld, h1.read_unread, h2.read_unread, h4.read_unread, View.ld_unit_zero (S := S10000x16) hz1, View.ld_unit_zero (S := S1x16) hz1]

/-- The first point: the sums row is set to zero and ends at the fourth payload over the zero row. -/
theorem out1_A_2_eq (c : Dev nD) (i : grid1.Coords) (a1 : Memref sig .tc .vmem S10000x16 .f32) (h1 : a1.IsWhole)
    (a2 : Memref sig .tc .vmem S1x16 .f32) (h2 : a2.IsWhole) (a3 : Memref sig .tc .vmem S1x16 .f32) (h3 : a3.IsWhole)
    (a4 : Memref sig .tc .vmem S1x16 .f32) (h4 : a4.IsWhole) (hc : cond1_0 i)
    (x0 : Vec F S10000x16 .f32) (x1 : Vec F S1x16 .f32) :
    out1_A_2 c i a1 h1 a2 h2 a3 h3 a4 h4 hc x0 x1 = k1_pay4 x0 x1 k1_pay1 := by
  unfold out1_A_2
  rw [View.read_writes_eq_canon _ _ _ (cover1_A_2 c i a1 h1 a2 h2 a3 h3 a4 h4 hc x0 x1)]
  unfold kernelRun1_A
  dsimp only
  sl_unfold_words
  rw [View.canon_cons_unit_zero (S := S1x16) hz1, View.readCov_unit_zero (S := S1x16) _ hz1]
  simp only [View.readAt_eq_ld, h1.read_unread, h2.read_unread, View.ld_unit_zero (S := S10000x16) hz1, View.ld_unit_zero (S := S1x16) hz1]

/-- The first point: the squares row is set to zero and ends at the fifth payload over the zero row. -/
theorem out1_A_3_eq (c : Dev nD) (i : grid1.Coords) (a1 : Memref sig .tc .vmem S10000x16 .f32) (h1 : a1.IsWhole)
    (a2 : Memref sig .tc .vmem S1x16 .f32) (h2 : a2.IsWhole) (a3 : Memref sig .tc .vmem S1x16 .f32) (h3 : a3.IsWhole)
    (a4 : Memref sig .tc .vmem S1x16 .f32) (h4 : a4.IsWhole) (hc : cond1_0 i)
    (x0 : Vec F S10000x16 .f32) (x1 : Vec F S1x16 .f32) :
    out1_A_3 c i a1 h1 a2 h2 a3 h3 a4 h4 hc x0 x1 = k1_pay5 x0 x1 k1_pay2 := by
  unfold out1_A_3
  rw [View.read_writes_eq_canon _ _ _ (cover1_A_3 c i a1 h1 a2 h2 a3 h3 a4 h4 hc x0 x1)]
  unfold kernelRun1_A
  dsimp only
  sl_unfold_words
  rw [View.canon_cons_unit_zero (S := S1x16) hz1, View.readCov_unit_zero (S := S1x16) _ hz1]
  simp only [View.readAt_eq_ld, h1.read_unread, h2.read_unread, View.ld_unit_zero (S := S10000x16) hz1, View.ld_unit_zero (S := S1x16) hz1]

end Cert.KernelIdeal.Val

end
-- ==== Proof.KStatsPay.lean ====
/-
  The statistics kernel's payloads read at an index over the extended reals: the block plus the bias row;
  the running row plus the column sums of that; the running row plus the column sums of its squares;
  and the zero row.
-/
import proofs.«167311_j59150289600863_2_alg».proof.Proof.Gen.KernelIdeal.Skeleton
import Idealize.ShloMosaic.PureOps.Ideal.Laws
import Idealize.ShloMosaic.Lib.ValueLayout
import Idealize.ShloMosaic.Lib.ValueIdx

set_option maxRecDepth 16384

noncomputable section

namespace Cert.KernelIdeal.Val

open Cert.KernelIdeal Cert.KernelIdeal.Gen Idealize.ShloMosaic Idealize.ShloMosaic.ValueIdx

/-- The centred-to-be block: the input block plus the bias row, at row `r`, column `j`. -/
theorem stats_pay3_apply (x0 : Vec Ideal S10000x16 .f32) (x1 : Vec Ideal S1x16 .f32) (r : Fin 10000) (j : Fin 16) :
    k1_pay3 x0 x1 (ix2 r j) = x0 (ix2 r j) + x1 (ix2 (0 : Fin 1) j) := by
  unfold k1_pay3
  show shapeCast S10000x16 x0 shapeCasts_S10000x16_S10000x16 (ix2 r j)
      + broadcastTo S10000x16 (shapeCast S1x16 x1 shapeCasts_S1x16_S1x16) broadcasts_S1x16_S10000x16 (ix2 r j) = _
  exact congrArg₂ (· + ·) (congrFun (shapeCast_self x0 _) (ix2 r j))
    ((broadcastTo_1b_ab_apply _ _ r j).trans (congrFun (shapeCast_self x1 _) (ix2 (0 : Fin 1) j)))

/-- Putting row `r` back into the column index `j` of the reduced block gives `(r, j)`. -/
theorem stats_lift (j : Fin 16) (r : Fin (S10000x16.size 0)) :
    reduces_S10000x16_S16.lift (ix1 j) r = ix2 (⟨r.val, r.isLt⟩ : Fin 10000) j := by
  funext a; apply Fin.ext
  fin_cases a <;> rfl

/-- The sums row after a point: what it held plus the column sums of the block plus bias. -/
theorem stats_pay4_apply (x0 : Vec Ideal S10000x16 .f32) (x1 v9 : Vec Ideal S1x16 .f32) (j : Fin 16) :
    k1_pay4 x0 x1 v9 (ix2 (0 : Fin 1) j)
      = v9 (ix2 (0 : Fin 1) j) + ∑ r : Fin 10000, (x0 (ix2 r j) + x1 (ix2 (0 : Fin 1) j)) := by
  unfold k1_pay4
  show shapeCast S1x16 v9 shapeCasts_S1x16_S1x16 (ix2 (0 : Fin 1) j)
      + shapeCast S1x16 (multiReduction .add [0] S16 (k1_pay3 x0 x1) 0x00000000#32 reduces_S10000x16_S16 (.inl rfl) rfl)
          shapeCasts_S16_S1x16 (ix2 (0 : Fin 1) j) = _
  refine congrArg₂ (· + ·) (congrFun (shapeCast_self v9 _) (ix2 (0 : Fin 1) j)) ?_
  refine (shapeCast_a_1a_apply _ _ (0 : Fin 1) j).trans ?_
  refine (Ideal.multiReduction_add_single (k1_pay3 x0 x1) 0x00000000#32 reduces_S10000x16_S16 (.inl rfl) rfl (ix1 j)).trans ?_
  refine Finset.sum_congr rfl fun r _ => ?_
  rw [stats_lift j r]
  exact stats_pay3_apply x0 x1 ⟨r.val, r.isLt⟩ j

/-- The squares row after a point: what it held plus the column sums of the squares of the block plus bias. -/
theorem stats_pay5_apply (x0 : Vec Ideal S10000x16 .f32) (x1 v15 : Vec Ideal S1x16 .f32) (j : Fin 16) :
    k1_pay5 x0 x1 v15 (ix2 (0 : Fin 1) j)
      = v15 (ix2 (0 : Fin 1) j) + ∑ r : Fin 10000, (x0 (ix2 r j) + x1 (ix2 (0 : Fin 1) j)) * (x0 (ix2 r j) + x1 (ix2 (0 : Fin 1) j)) := by
  unfold k1_pay5
  show shapeCast S1x16 v15 shapeCasts_S1x16_S1x16 (ix2 (0 : Fin 1) j)
      + shapeCast S1x16 (multiReduction .add [0] S16 (mulf (k1_pay3 x0 x1) (k1_pay3 x0 x1)) 0x00000000#32 reduces_S10000x16_S16 (.inl rfl) rfl)
          shapeCasts_S16_S1x16 (ix2 (0 : Fin 1) j) = _
  refine congrArg₂ (· + ·) (congrFun (shapeCast_self v15 _) (ix2 (0 : Fin 1) j)) ?_
  refine (shapeCast_a_1a_apply _ _ (0 : Fin 1) j).trans ?_
  refine (Ideal.multiReduction_add_single (mulf (k1_pay3 x0 x1) (k1_pay3 x0 x1)) 0x00000000#32 reduces_S10000x16_S16 (.inl rfl) rfl (ix1 j)).trans ?_
  refine Finset.sum_congr rfl fun r _ => ?_
  rw [stats_lift j r]
  exact congrArg₂ (· * ·) (stats_pay3_apply x0 x1 ⟨r.val, r.isLt⟩ j) (stats_pay3_apply x0 x1 ⟨r.val, r.isLt⟩ j)

/-- The row the first point stores into the sums: zero. -/
theorem stats_pay1_apply (j : Fin 16) : k1_pay1 (F := Ideal) (ix2 (0 : Fin 1) j) = 0 :=
  Ideal.ofBits_zero_f32

/-- The row the first point stores into the squares: zero. -/
theorem stats_pay2_apply (j : Fin 16) : k1_pay2 (F := Ideal) (ix2 (0 : Fin 1) j) = 0 :=
  Ideal.ofBits_zero_f32

end Cert.KernelIdeal.Val

end
-- ==== Proof.LibBlockSum.lean ====
/-
  Two regrouping laws, stated generally.

  (1) A sum taken block by block.  Given `a · b` terms indexed by the natural numbers below `a · b`, cut them
  into `a` blocks of `b` consecutive terms, so that term `r` of block `t` is term `b·t + r` of the whole.
  In any commutative additive monoid the sum of the `a` block sums is the sum of all the terms.  On the
  extended reals this needs no finiteness assumption: their addition is commutative and associative
  (the sum of `+∞` and `−∞` is a fixed value whatever the order).

  (2) Scaling a square.  On the extended reals `c · (d · d) = (c · d) · d` for every `c` and `d`, infinite ones
  included: multiplication there is associative.
-/
import Mathlib.Data.EReal.Inv
import Mathlib.Algebra.BigOperators.Fin
import Mathlib.Logic.Equiv.Fin.Basic

namespace Cert.LibBlockSum

/-- The sum of `a` block sums of `b` consecutive terms is the sum of all `a · b` terms:
    `∑_{t < a} ∑_{r < b} g (b·t + r) = ∑_{q < a·b} g q`. -/
theorem sum_blocks {M : Type*} [AddCommMonoid M] (a b : ℕ) (g : ℕ → M) :
    ∑ t ∈ Finset.range a, ∑ r : Fin b, g (b * t + r.val) = ∑ q : Fin (a * b), g q.val :=
  calc ∑ t ∈ Finset.range a, ∑ r : Fin b, g (b * t + r.val)
      = ∑ t : Fin a, ∑ r : Fin b, g (b * t.val + r.val) :=
        (Fin.sum_univ_eq_sum_range (fun t => ∑ r : Fin b, g (b * t + r.val)) a).symm
    _ = ∑ p : Fin a × Fin b, g (b * p.1.val + p.2.val) :=
        (Fintype.sum_prod_type' (fun (t : Fin a) (r : Fin b) => g (b * t.val + r.val))).symm
    _ = ∑ q : Fin (a * b), g q.val :=
        Fintype.sum_equiv finProdFinEquiv _ _ fun p =>
          congrArg g (by rw [finProdFinEquiv_apply_val]; exact Nat.add_comm _ _)

/-- Scaling a square is scaling one factor and then multiplying by the other: `c · (d · d) = (c · d) · d`. -/
theorem scale_sq (c d : EReal) : c * (d * d) = c * d * d := (mul_assoc c d d).symm

end Cert.LibBlockSum
-- ==== Proof.KStatsMath.lean ====
/-
  Sums taken block by block over a finite family.

  A family indexed by the numbers below `n` is extended by zero to every natural number. Cut into `a` blocks of `b`
  consecutive terms (`n = a · b`), the sum of the block sums is the sum of the family; the partial sums over the
  first blocks grow one block at a time. In a commutative additive monoid no finiteness is needed: on the
  extended reals addition is commutative and associative.
-/
import proofs.«167311_j59150289600863_2_alg».proof.Proof.LibBlockSum
import Mathlib.Algebra.BigOperators.Fin

namespace Cert.KernelIdeal.Val

/-- A family over the numbers below `n`, extended by zero. -/
def statsExt {M : Type*} [Zero M] {n : ℕ} (f : Fin n → M) (q : ℕ) : M := if h : q < n then f ⟨q, h⟩ else 0

theorem statsExt_of_lt {M : Type*} [Zero M] {n : ℕ} (f : Fin n → M) (q : ℕ) (h : q < n) : statsExt f q = f ⟨q, h⟩ :=
  dif_pos h

/-- The sum of the first `k` blocks of `b` consecutive terms. -/
def statsPartial {M : Type*} [AddCommMonoid M] {n : ℕ} (b : ℕ) (f : Fin n → M) (k : ℕ) : M :=
  ∑ t ∈ Finset.range k, ∑ r : Fin b, statsExt f (b * t + r.val)

/-- The first block alone, onto zero. -/
theorem statsPartial_one {M : Type*} [AddCommMonoid M] {n : ℕ} (b : ℕ) (f : Fin n → M) :
    statsPartial b f 1 = 0 + ∑ r : Fin b, statsExt f (b * 0 + r.val) := by
  unfold statsPartial
  rw [Finset.sum_range_one, zero_add]

/-- One more block. -/
theorem statsPartial_succ {M : Type*} [AddCommMonoid M] {n : ℕ} (b : ℕ) (f : Fin n → M) (k : ℕ) :
    statsPartial b f (k + 1) = statsPartial b f k + ∑ r : Fin b, statsExt f (b * k + r.val) := by
  unfold statsPartial
  rw [Finset.sum_range_succ]

/-- All `a` blocks: the whole sum. -/
theorem statsPartial_all {M : Type*} [AddCommMonoid M] (a b : ℕ) (f : Fin (a * b) → M) :
    statsPartial b f a = ∑ i : Fin (a * b), f i := by
  unfold statsPartial
  rw [Cert.LibBlockSum.sum_blocks a b (statsExt f)]
  exact Finset.sum_congr rfl fun q _ => statsExt_of_lt f q.val q.isLt

/-- Twenty blocks of ten thousand: the sum over all two hundred thousand. -/
theorem statsPartial_20 {M : Type*} [AddCommMonoid M] (f : Fin 200000 → M) :
    statsPartial 10000 f 20 = ∑ i : Fin 200000, f i :=
  statsPartial_all 20 10000 f

end Cert.KernelIdeal.Val
-- ==== Proof.KStats.lean ====
/-
  The value of the batch-norm statistics kernel (region 1). Its grid has twenty points; point `t` reads rows
  `10000·t … 10000·t + 9999` of the [200000,16] input and the one bias row, and adds, into two [1,16] rows kept
  across the points, the column sums of (input + bias) and of its square; the first point starts both rows from zero,
  and the last point's rows are written back. So the two result rows hold, at column `j`, the sum over all 200000
  rows of (input + bias) and of its square.
-/
import proofs.«167311_j59150289600863_2_alg».proof.Proof.KStatsPieces
import proofs.«167311_j59150289600863_2_alg».proof.Proof.KStatsPay
import proofs.«167311_j59150289600863_2_alg».proof.Proof.KStatsMath
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Val

open Cert.KernelIdeal Cert.KernelIdeal.Gen Idealize.ShloMosaic.ValueIdx

variable (V : (c : Dev nD) → (b : Ref sig .tc) → Buf (Elt Ideal) ((c : Thread nD τ).loc b))

-- sums and products of buffer entries, taken as extended reals
local notation:65 a:65 " +ₑ " b:66 => HAdd.hAdd (α := EReal) (β := EReal) (γ := EReal) a b
local notation:70 a:70 " *ₑ " b:71 => HMul.hMul (α := EReal) (β := EReal) (γ := EReal) a b

/-- The input window's block index at point `t` is `(t, 0)`; the other three windows' is `(0, 0)`. -/
theorem stats_index : ∀ t : Fin cfg1.N, (win1_0.index t 0 = t.val ∧ win1_0.index t 1 = 0)
    ∧ (win1_1.index t 0 = 0 ∧ win1_1.index t 1 = 0) ∧ (win1_2.index t 0 = 0 ∧ win1_2.index t 1 = 0)
    ∧ (win1_3.index t 0 = 0 ∧ win1_3.index t 1 = 0) :=
  (by decide +kernel : ∀ t : Fin grid1.N, (win1_0.index t 0 = t.val ∧ win1_0.index t 1 = 0)
    ∧ (win1_1.index t 0 = 0 ∧ win1_1.index t 1 = 0) ∧ (win1_2.index t 0 = 0 ∧ win1_2.index t 1 = 0)
    ∧ (win1_3.index t 0 = 0 ∧ win1_3.index t 1 = 0))

/-- Row `r` of the input block at point `t` is row `10000·t + r` of the input. -/
theorem stats_iblk0 (c : Dev nD) (t : Fin cfg1.N) (r : Fin 10000) (j : Fin 16) (h : 10000 * t.val + r.val < 200000) :
    (iblk1 V c 0 t : Vec Ideal S10000x16 .f32) (ix2 r j) = V c main_v44 (ix2 (⟨10000 * t.val + r.val, h⟩ : Fin 200000) j) := by
  have hi := (stats_index t).1
  unfold iblk1
  rw [View.read_apply]
  show V c main_v44 _ = V c main_v44 _
  congr 1
  funext a
  apply Fin.ext
  match a with
  | ⟨0, _⟩ => show win1_0.index t 0 * 10000 + 1 * r.val = 10000 * t.val + r.val; rw [hi.1]; omega
  | ⟨1, _⟩ => show win1_0.index t 1 * 16 + 1 * j.val = j.val; rw [hi.2]; omega

/-- The bias block at every point is the bias row. -/
theorem stats_iblk1 (c : Dev nD) (t : Fin cfg1.N) (j : Fin 16) :
    (iblk1 V c 1 t : Vec Ideal S1x16 .f32) (ix2 (0 : Fin 1) j) = V c main_v28 (ix2 (0 : Fin 1) j) := by
  have hi := (stats_index t).2.1
  unfold iblk1
  rw [View.read_apply]
  show V c main_v28 _ = V c main_v28 _
  congr 1
  funext a
  apply Fin.ext
  match a with
  | ⟨0, _⟩ => show win1_1.index t 0 * 1 + 1 * 0 = 0; rw [hi.1]
  | ⟨1, _⟩ => show win1_1.index t 1 * 16 + 1 * j.val = j.val; rw [hi.2]; omega

/-- Column `j` of the input plus the bias, row by row. -/
def statsCol (c : Dev nD) (j : Fin 16) : Fin 200000 → EReal :=
  fun i => V c main_v44 (ix2 i j) +ₑ V c main_v28 (ix2 (0 : Fin 1) j)

/-- Its squares. -/
def statsColSq (c : Dev nD) (j : Fin 16) : Fin 200000 → EReal :=
  fun i => (V c main_v44 (ix2 i j) +ₑ V c main_v28 (ix2 (0 : Fin 1) j)) *ₑ (V c main_v44 (ix2 i j) +ₑ V c main_v28 (ix2 (0 : Fin 1) j))

theorem stats_lt (t : Fin cfg1.N) (r : Fin 10000) : 10000 * t.val + r.val < 200000 := by
  have hN : t.val < 20 := lt_of_lt_of_eq t.isLt (show cfg1.N = 20 from N_1)
  have := r.isLt
  omega

/-- The column sums of point `t`'s block plus bias are block `t` of the column's terms. -/
theorem stats_block (c : Dev nD) (t : Fin cfg1.N) (j : Fin 16) :
    ∑ r : Fin 10000, ((iblk1 V c 0 t : Vec Ideal S10000x16 .f32) (ix2 r j) +ₑ (iblk1 V c 1 t : Vec Ideal S1x16 .f32) (ix2 (0 : Fin 1) j))
      = ∑ r : Fin 10000, statsExt (statsCol V c j) (10000 * t.val + r.val) := by
  refine Finset.sum_congr rfl fun r _ => ?_
  rw [statsExt_of_lt _ _ (stats_lt t r), stats_iblk0 V c t r j (stats_lt t r), stats_iblk1 V c t j]
  rfl

/-- Likewise for the squares. -/
theorem stats_blockSq (c : Dev nD) (t : Fin cfg1.N) (j : Fin 16) :
    ∑ r : Fin 10000, ((iblk1 V c 0 t : Vec Ideal S10000x16 .f32) (ix2 r j) +ₑ (iblk1 V c 1 t : Vec Ideal S1x16 .f32) (ix2 (0 : Fin 1) j))
        *ₑ ((iblk1 V c 0 t : Vec Ideal S10000x16 .f32) (ix2 r j) +ₑ (iblk1 V c 1 t : Vec Ideal S1x16 .f32) (ix2 (0 : Fin 1) j))
      = ∑ r : Fin 10000, statsExt (statsColSq V c j) (10000 * t.val + r.val) := by
  refine Finset.sum_congr rfl fun r _ => ?_
  rw [statsExt_of_lt _ _ (stats_lt t r), stats_iblk0 V c t r j (stats_lt t r), stats_iblk1 V c t j]
  rfl

/-- The first point leaves, in the sums row, zero plus its block's column sums. -/
theorem stats_A_2 (c : Dev nD) (t : Fin cfg1.N) (h0 : t.val % 20 = 0) (j : Fin 16) :
    (outsAt1 V c t.val t.isLt).1 (ix2 (0 : Fin 1) j)
      = 0 + ∑ r : Fin 10000, statsExt (statsCol V c j) (10000 * t.val + r.val) := by
  rw [outsAt1_A V c t h0]
  dsimp only
  refine (congrFun (out1_A_2_eq (F := Ideal) c (grid1.coords t) (ms1_0 t) (hs1_0 t) (ms1_1 t) (hs1_1 t) (ms1_2 t) (hs1_2 t)
    (ms1_3 t) (hs1_3 t) ((hcond1_0 t).mpr h0) (iblk1 V c 0 t) (iblk1 V c 1 t)) (ix2 (0 : Fin 1) j)).trans ?_
  refine (stats_pay4_apply (iblk1 V c 0 t) (iblk1 V c 1 t) (k1_pay1 (F := Ideal)) j).trans ?_
  exact congrArg₂ (· + ·) (stats_pay1_apply j) (stats_block V c t j)

/-- The first point leaves, in the squares row, zero plus its block's column sums of squares. -/
theorem stats_A_3 (c : Dev nD) (t : Fin cfg1.N) (h0 : t.val % 20 = 0) (j : Fin 16) :
    (outsAt1 V c t.val t.isLt).2 (ix2 (0 : Fin 1) j)
      = 0 + ∑ r : Fin 10000, statsExt (statsColSq V c j) (10000 * t.val + r.val) := by
  rw [outsAt1_A V c t h0]
  dsimp only
  refine (congrFun (out1_A_3_eq (F := Ideal) c (grid1.coords t) (ms1_0 t) (hs1_0 t) (ms1_1 t) (hs1_1 t) (ms1_2 t) (hs1_2 t)
    (ms1_3 t) (hs1_3 t) ((hcond1_0 t).mpr h0) (iblk1 V c 0 t) (iblk1 V c 1 t)) (ix2 (0 : Fin 1) j)).trans ?_
  refine (stats_pay5_apply (iblk1 V c 0 t) (iblk1 V c 1 t) (k1_pay2 (F := Ideal)) j).trans ?_
  exact congrArg₂ (· + ·) (stats_pay2_apply j) (stats_blockSq V c t j)

/-- Every other point adds its block's column sums onto what the point before left. -/
theorem stats_B_2 (c : Dev nD) (t : Fin cfg1.N) (h0 : ¬t.val % 20 = 0) (j : Fin 16) :
    (outsAt1 V c t.val t.isLt).1 (ix2 (0 : Fin 1) j)
      = (outsAt1 V c (t.val - 1) (Nat.lt_of_le_of_lt (Nat.sub_le _ _) t.isLt)).1 (ix2 (0 : Fin 1) j)
        + ∑ r : Fin 10000, statsExt (statsCol V c j) (10000 * t.val + r.val) := by
  rw [outsAt1_B V c t h0]
  dsimp only
  refine (congrFun (out1_B_2_eq (F := Ideal) c (grid1.coords t) (ms1_0 t) (hs1_0 t) (ms1_1 t) (hs1_1 t) (ms1_2 t) (hs1_2 t)
    (ms1_3 t) (hs1_3 t) (fun h => h0 ((hcond1_0 t).mp h)) (iblk1 V c 0 t) (iblk1 V c 1 t)
    (outsAt1 V c (t.val - 1) (Nat.lt_of_le_of_lt (Nat.sub_le _ _) t.isLt)).1
    (outsAt1 V c (t.val - 1) (Nat.lt_of_le_of_lt (Nat.sub_le _ _) t.isLt)).2) (ix2 (0 : Fin 1) j)).trans ?_
  refine (stats_pay4_apply (iblk1 V c 0 t) (iblk1 V c 1 t) _ j).trans ?_
  exact congrArg (_ + ·) (stats_block V c t j)

/-- Every other point adds its block's column sums of squares onto what the point before left. -/
theorem stats_B_3 (c : Dev nD) (t : Fin cfg1.N) (h0 : ¬t.val % 20 = 0) (j : Fin 16) :
    (outsAt1 V c t.val t.isLt).2 (ix2 (0 : Fin 1) j)
      = (outsAt1 V c (t.val - 1) (Nat.lt_of_le_of_lt (Nat.sub_le _ _) t.isLt)).2 (ix2 (0 : Fin 1) j)
        + ∑ r : Fin 10000, statsExt (statsColSq V c j) (10000 * t.val + r.val) := by
  rw [outsAt1_B V c t h0]
  dsimp only
  refine (congrFun (out1_B_3_eq (F := Ideal) c (grid1.coords t) (ms1_0 t) (hs1_0 t) (ms1_1 t) (hs1_1 t) (ms1_2 t) (hs1_2 t)
    (ms1_3 t) (hs1_3 t) (fun h => h0 ((hcond1_0 t).mp h)) (iblk1 V c 0 t) (iblk1 V c 1 t)
    (outsAt1 V c (t.val - 1) (Nat.lt_of_le_of_lt (Nat.sub_le _ _) t.isLt)).1
    (outsAt1 V c (t.val - 1) (Nat.lt_of_le_of_lt (Nat.sub_le _ _) t.isLt)).2) (ix2 (0 : Fin 1) j)).trans ?_
  refine (stats_pay5_apply (iblk1 V c 0 t) (iblk1 V c 1 t) _ j).trans ?_
  exact congrArg (_ + ·) (stats_blockSq V c t j)

/-- After point `n` the two rows hold, at column `j`, the sums over the first `n + 1` blocks of rows. -/
theorem stats_outs (c : Dev nD) (j : Fin 16) : ∀ (n : ℕ) (hn : n < cfg1.N),
    (outsAt1 V c n hn).1 (ix2 (0 : Fin 1) j) = statsPartial 10000 (statsCol V c j) (n + 1)
    ∧ (outsAt1 V c n hn).2 (ix2 (0 : Fin 1) j) = statsPartial 10000 (statsColSq V c j) (n + 1)
  | 0, hn => ⟨(stats_A_2 V c ⟨0, hn⟩ rfl j).trans (statsPartial_one 10000 (statsCol V c j)).symm,
      (stats_A_3 V c ⟨0, hn⟩ rfl j).trans (statsPartial_one 10000 (statsColSq V c j)).symm⟩
  | n + 1, hn => by
    have hN : cfg1.N = 20 := N_1
    have hB : ¬(⟨n + 1, hn⟩ : Fin cfg1.N).val % 20 = 0 := by dsimp only; omega
    have ih := stats_outs c j n (Nat.lt_of_succ_lt hn)
    refine ⟨(stats_B_2 V c ⟨n + 1, hn⟩ hB j).trans ?_, (stats_B_3 V c ⟨n + 1, hn⟩ hB j).trans ?_⟩
    · rw [statsPartial_succ 10000 (statsCol V c j) (n + 1)]
      exact congrArg (· + _) ih.1
    · rw [statsPartial_succ 10000 (statsColSq V c j) (n + 1)]
      exact congrArg (· + _) ih.2

/-- The last point. -/
abbrev statsLast : Fin cfg1.N := ⟨19, by rw [show cfg1.N = 20 from N_1]; decide⟩

/-- What the sums row holds after the last point, as contents of the result array (its one block is the array). -/
abbrev statsRes2 (c : Dev nD) : Buf (Elt Ideal) ((c : Thread nD τ).loc main_v45_0) := (outsAt1 V c 19 statsLast.isLt).1

/-- What the squares row holds after the last point, as contents of the result array. -/
abbrev statsRes3 (c : Dev nD) : Buf (Elt Ideal) ((c : Thread nD τ).loc main_v45_1) := (outsAt1 V c 19 statsLast.isLt).2

/-- The one write-back of the sums row, at the last point, writes it: the block at index (0, 0) is the array. -/
theorem stats_flushed_2 (c : Dev nD) (t : Fin cfg1.N) (hf : (cfg1.win 2).flush t = true) :
    (dat1 V c).flushed 2 t = ((cfg1.win 2).blk t).view.read (Elt Ideal) (statsRes2 V c) := by
  have hN : cfg1.N = 20 := N_1
  have h19 : t.val = 19 := by have := (flush1_2 t).mp hf; have := t.isLt; omega
  obtain rfl : t = statsLast := Fin.ext h19
  show (cfg1.win 2).cut (grid1.coords statsLast) ((dat1 V c).after 2 statsLast) = _
  rw [after1_2]
  have hi := (stats_index statsLast).2.2.1
  have hz' : (fun a => win1_2.index statsLast a * main_v45_0.ty.shape.size a) = fun _ => 0 := funext fun a => by
    match a with
    | ⟨0, _⟩ => show win1_2.index statsLast 0 * _ = 0; rw [hi.1, Nat.zero_mul]
    | ⟨1, _⟩ => show win1_2.index statsLast 1 * _ = 0; rw [hi.2, Nat.zero_mul]
  exact (Memref.read_access_unit_zero (Elt Ideal) main_v45_0 hz' (fun a => by rw [congrFun hz' a]; simp) (statsRes2 V c)).symm

/-- Likewise the squares row. -/
theorem stats_flushed_3 (c : Dev nD) (t : Fin cfg1.N) (hf : (cfg1.win 3).flush t = true) :
    (dat1 V c).flushed 3 t = ((cfg1.win 3).blk t).view.read (Elt Ideal) (statsRes3 V c) := by
  have hN : cfg1.N = 20 := N_1
  have h19 : t.val = 19 := by have := (flush1_3 t).mp hf; have := t.isLt; omega
  obtain rfl : t = statsLast := Fin.ext h19
  show (cfg1.win 3).cut (grid1.coords statsLast) ((dat1 V c).after 3 statsLast) = _
  rw [after1_3]
  have hi := (stats_index statsLast).2.2.2
  have hz' : (fun a => win1_3.index statsLast a * main_v45_1.ty.shape.size a) = fun _ => 0 := funext fun a => by
    match a with
    | ⟨0, _⟩ => show win1_3.index statsLast 0 * _ = 0; rw [hi.1, Nat.zero_mul]
    | ⟨1, _⟩ => show win1_3.index statsLast 1 * _ = 0; rw [hi.2, Nat.zero_mul]
  exact (Memref.read_access_unit_zero (Elt Ideal) main_v45_1 hz' (fun a => by rw [congrFun hz' a]; simp) (statsRes3 V c)).symm

/-- So the sums array ends holding the row after the last point: that point's block covers it. -/
theorem stats_final_2 (c : Dev nD) : (dat1 V c).arrAt 2 cfg1.N = statsRes2 V c :=
  (dat1 V c).arrAt_eq_of_cover 2 (statsRes2 V c) (stats_flushed_2 V c) fun i =>
    ⟨statsLast, (flush1_2 statsLast).mpr rfl, by
      show i ∈ ((View.whole main_v45_0).slice (win1_2.rect statsLast)).set
      rw [View.set_slice_whole, Rect.mem_set_unit]
      intro a
      have h0 : (i 0 : Nat) < 1 := (i 0).isLt
      have h1 : (i 1 : Nat) < 16 := (i 1).isLt
      match a with
      | ⟨0, _⟩ => show win1_2.index statsLast 0 * win1_2.size 0 ≤ (i 0 : Nat) ∧ (i 0 : Nat) < win1_2.index statsLast 0 * win1_2.size 0 + win1_2.xsize (grid1.coords statsLast) 0
                  rw [show win1_2.index statsLast 0 * win1_2.size 0 = 0 from by decide +kernel, show win1_2.xsize (grid1.coords statsLast) 0 = 1 from by decide +kernel]; omega
      | ⟨1, _⟩ => show win1_2.index statsLast 1 * win1_2.size 1 ≤ (i 1 : Nat) ∧ (i 1 : Nat) < win1_2.index statsLast 1 * win1_2.size 1 + win1_2.xsize (grid1.coords statsLast) 1
                  rw [show win1_2.index statsLast 1 * win1_2.size 1 = 0 from by decide +kernel, show win1_2.xsize (grid1.coords statsLast) 1 = 16 from by decide +kernel]; omega⟩

/-- And the squares array likewise. -/
theorem stats_final_3 (c : Dev nD) : (dat1 V c).arrAt 3 cfg1.N = statsRes3 V c :=
  (dat1 V c).arrAt_eq_of_cover 3 (statsRes3 V c) (stats_flushed_3 V c) fun i =>
    ⟨statsLast, (flush1_3 statsLast).mpr rfl, by
      show i ∈ ((View.whole main_v45_1).slice (win1_3.rect statsLast)).set
      rw [View.set_slice_whole, Rect.mem_set_unit]
      intro a
      have h0 : (i 0 : Nat) < 1 := (i 0).isLt
      have h1 : (i 1 : Nat) < 16 := (i 1).isLt
      match a with
      | ⟨0, _⟩ => show win1_3.index statsLast 0 * win1_3.size 0 ≤ (i 0 : Nat) ∧ (i 0 : Nat) < win1_3.index statsLast 0 * win1_3.size 0 + win1_3.xsize (grid1.coords statsLast) 0
                  rw [show win1_3.index statsLast 0 * win1_3.size 0 = 0 from by decide +kernel, show win1_3.xsize (grid1.coords statsLast) 0 = 1 from by decide +kernel]; omega
      | ⟨1, _⟩ => show win1_3.index statsLast 1 * win1_3.size 1 ≤ (i 1 : Nat) ∧ (i 1 : Nat) < win1_3.index statsLast 1 * win1_3.size 1 + win1_3.xsize (grid1.coords statsLast) 1
                  rw [show win1_3.index statsLast 1 * win1_3.size 1 = 0 from by decide +kernel, show win1_3.xsize (grid1.coords statsLast) 1 = 16 from by decide +kernel]; omega⟩

/-- THE SUMS: after the region the first result row holds, at column `j`, the sum over all 200000 rows of
    (input entry + bias entry). -/
theorem arr1_sum (c : Dev nD) (j : Fin 16) :
    Eq (α := EReal) ((dat1 V c).arrAt 2 cfg1.N (ix2 (0 : Fin 1) j))
      (∑ i : Fin 200000, (V c main_v44 (ix2 i j) +ₑ V c main_v28 (ix2 (0 : Fin 1) j))) := by
  rw [stats_final_2 V c]
  exact (stats_outs V c j 19 statsLast.isLt).1.trans (statsPartial_20 (statsCol V c j))

/-- THE SUMS OF SQUARES: the second result row holds, at column `j`, the sum over all 200000 rows of
    (input entry + bias entry) squared. -/
theorem arr1_sumsq (c : Dev nD) (j : Fin 16) :
    Eq (α := EReal) ((dat1 V c).arrAt 3 cfg1.N (ix2 (0 : Fin 1) j))
      (∑ i : Fin 200000, ((V c main_v44 (ix2 i j) +ₑ V c main_v28 (ix2 (0 : Fin 1) j))
        *ₑ (V c main_v44 (ix2 i j) +ₑ V c main_v28 (ix2 (0 : Fin 1) j)))) := by
  rw [stats_final_3 V c]
  exact (stats_outs V c j 19 statsLast.isLt).2.trans (statsPartial_20 (statsColSq V c j))

end Cert.KernelIdeal.Val

end
-- ==== Proof.KNormMatmul2Pay.lean ====
/-
  The second matmul body at an entry. Each row of the loaded block gets, column by column, the bias added, the mean
  subtracted, the product with `rsqrt (variance + ε)`, the product with the scale and the shift added; the result is
  clamped below at zero, rounded to bf16 (the identity on the extended reals) and multiplied with the weight block into
  a zero accumulator. The five `[1, 16]` rows are broadcast over the 10000 rows of the block, so entry `(p, k)` of
  the normalized block reads each of them at `(0, k)`.
-/
import proofs.«167311_j59150289600863_2_alg».proof.Proof.Gen.KernelIdeal.Skeleton
import proofs.«167311_j59150289600863_2_alg».proof.Proof.LibPlainMatmul
import Idealize.ShloMosaic.Lib.Pipeline.Value

noncomputable section

open scoped BigOperators

namespace Cert.KernelIdeal.Val

open Cert.KernelIdeal Idealize.ShloMosaic Idealize.ShloMosaic.ValueIdx

/-- A `[1, 16]` row broadcast over 10000 rows reads, at `(p, k)`, the row at `(0, k)`. -/
theorem row_bcast0 {α : Type} (v : S1x16.Idx → α) (h2 : S1x16.Broadcasts S10000x16) (p : Fin 10000) (k : Fin 16) :
    broadcastTo S10000x16 v h2 (ix2 p k) = v (ix2 0 k) := by
  refine broadcastTo_apply v h2 (ix2 p k) (ix2 0 k) fun a => ?_
  match a with
  | ⟨0, _⟩ => rfl
  | ⟨1, _⟩ => rfl

/-- The same through the body's shape cast of the row to its own shape. -/
theorem row_bcast {α : Type} (v : S1x16.Idx → α) (h1 : S1x16.ShapeCasts S1x16) (h2 : S1x16.Broadcasts S10000x16)
    (p : Fin 10000) (k : Fin 16) :
    broadcastTo S10000x16 (shapeCast S1x16 v h1) h2 (ix2 p k) = v (ix2 0 k) := by
  rw [shapeCast_self]; exact row_bcast0 v h2 p k

/-- One entry of the normalized, clamped block. -/
def normAct (x b μ σ2 γ β : EReal) : EReal :=
  max ((((x + b) - μ) * Ideal.rsqrt (σ2 + Ideal.ofBits .f32 0x3727C5AC#32)) * γ + β) 0

/-- The stored block at `(p, q)`: the normalized, clamped row `p` against column `q` of the weight block. The body
    reads the variance row for the `rsqrt` and the mean row for the subtraction. -/
theorem pay2_apply (x : Vec Ideal S10000x16 .f32) (b σ2 μ γ β : Vec Ideal S1x16 .f32) (w : Vec Ideal S16x3 .f32)
    (p : Fin 10000) (q : Fin 3) :
    Gen.k2_pay1 x b σ2 μ γ β w (ix2 p q)
      = ∑ k : Fin 16, normAct (x (ix2 p k)) (b (ix2 0 k)) (μ (ix2 0 k)) (σ2 (ix2 0 k)) (γ (ix2 0 k)) (β (ix2 0 k))
          * w (ix2 k q) := by
  unfold Gen.k2_pay1
  refine (Cert.LibPlainMatmul.matmul_plain_zero_apply (M := 10000) (K := 16) (N := 3)
    dot_S10000x16_S16x3_S10000x3_1_0_0_1_n_n rfl none _ _ p q).trans ?_
  refine Finset.sum_congr rfl fun k _ => ?_
  refine congrArg (· * w (ix2 k q)) ?_
  unfold normAct
  refine congrArg₂ max ?_ Ideal.ofBits_zero_f32
  refine congrArg₂ (· + ·) ?_ (row_bcast β _ _ p k)
  refine congrArg₂ (· * ·) ?_ (row_bcast γ _ _ p k)
  refine congrArg₂ (· * ·) ?_ ?_
  · refine congrArg₂ (· - ·) ?_ (row_bcast μ _ _ p k)
    refine congrArg₂ (· + ·) ?_ (row_bcast b _ _ p k)
    exact congrFun (shapeCast_self x _) (ix2 p k)
  · refine (row_bcast0 _ _ p k).trans ?_
    refine congrArg Ideal.rsqrt ?_
    exact congrArg (· + Ideal.ofBits .f32 0x3727C5AC#32) (congrFun (shapeCast_self σ2 _) (ix2 0 k))

/-- The same at any index of the block. -/
theorem pay2_at (x : Vec Ideal S10000x16 .f32) (b σ2 μ γ β : Vec Ideal S1x16 .f32) (w : Vec Ideal S16x3 .f32)
    (y : S10000x3.Idx) :
    Gen.k2_pay1 x b σ2 μ γ β w y
      = ∑ k : Fin 16, normAct (x (ix2 (y 0) k)) (b (ix2 0 k)) (μ (ix2 0 k)) (σ2 (ix2 0 k)) (γ (ix2 0 k)) (β (ix2 0 k))
          * w (ix2 k (y 1)) := by
  rw [eq_ix2 y]
  exact pay2_apply x b σ2 μ γ β w (y 0) (y 1)

end Cert.KernelIdeal.Val

end
-- ==== Proof.KNormMatmul2.lean ====
/-
  The array the second matmul region leaves: every row block of 10000 rows of the output is the same rows of the
  normalized, clamped operand times the whole weight matrix, the five `[1, 16]` rows being the same at every grid
  point; the 20 row blocks tile the 200000 rows, so entry `(i, j)` of the output is
  `∑ k, normAct (x (i, k)) (bias (0, k)) (mean (0, k)) (variance (0, k)) (scale (0, k)) (shift (0, k)) · w (k, j)`.
-/
import proofs.«167311_j59150289600863_2_alg».proof.Proof.Gen.KernelIdeal.Frame
import proofs.«167311_j59150289600863_2_alg».proof.Proof.KNormMatmul2Pay
import Idealize.ShloMosaic.Lib.Pipeline.Value

noncomputable section

open scoped BigOperators

namespace Cert.KernelIdeal.Val

open Cert.KernelIdeal Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The normalized, clamped operand times the weights, entry by entry; the rows are the bias, the mean, the variance,
    the scale and the shift. -/
def norm2 (x : S200000x16.Idx → EReal) (b μ σ2 γ β : S1x16.Idx → EReal) (w : S16x3.Idx → EReal) :
    S200000x3.Idx → EReal :=
  fun i => ∑ k : Fin 16,
    normAct (x (ix2 (i 0) k)) (b (ix2 0 k)) (μ (ix2 0 k)) (σ2 (ix2 0 k)) (γ (ix2 0 k)) (β (ix2 0 k)) * w (ix2 k (i 1))

/-- Entry `(i, j)`: the normalized, clamped row `i` against column `j` of the weights. -/
theorem norm2_apply (x : S200000x16.Idx → EReal) (b μ σ2 γ β : S1x16.Idx → EReal) (w : S16x3.Idx → EReal)
    (i : Fin 200000) (j : Fin 3) :
    norm2 x b μ σ2 γ β w (ix2 i j)
      = ∑ k : Fin 16, max ((((x (ix2 i k) + b (ix2 0 k)) - μ (ix2 0 k))
            * Ideal.rsqrt (σ2 (ix2 0 k) + Ideal.ofBits .f32 0x3727C5AC#32)) * γ (ix2 0 k) + β (ix2 0 k)) 0
          * w (ix2 k j) := rfl

theorem normAct_congr {x x' b b' μ μ' s s' g g' β β' : EReal} (h1 : x = x') (h2 : b = b') (h3 : μ = μ') (h4 : s = s')
    (h5 : g = g') (h6 : β = β') : normAct x b μ s g β = normAct x' b' μ' s' g' β' := by
  subst h1 h2 h3 h4 h5 h6; rfl

/-- Where the windows' blocks sit at grid point `t`: the operand's and the output's at row block `t`, the five rows'
    and the weights' at the origin. -/
theorem where2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- The operand's block at point `t` is its rows `10000 t … 10000 t + 9999`. -/
theorem blk2_x (c : Dev nD) (t : Fin cfg2.N) (p : Fin 10000) (k : Fin 16) (r : Fin 200000)
    (hr : r.val = t.val * 10000 + p.val) :
    Gen.iblk2 (F := Ideal) V c 0 t (ix2 p k) = V c main_v44 (ix2 r k) := by
  have e := where2 t
  show V c main_v44 (((cfg2.win 0).blk t).view.emb (ix2 p k)) = V c main_v44 (ix2 r k)
  refine congrArg (V c main_v44) (funext fun a => Fin.ext ?_)
  match a with
  | ⟨0, _⟩ => show win2_0.index t (0 : Fin 2) * 10000 + 1 * p.val = r.val; omega
  | ⟨1, _⟩ => show win2_0.index t (1 : Fin 2) * 16 + 1 * k.val = k.val; omega

/-- The bias row's block at every point is the whole row. -/
theorem blk2_bias (c : Dev nD) (t : Fin cfg2.N) (k : Fin 16) :
    Gen.iblk2 (F := Ideal) V c 1 t (ix2 (0 : Fin 1) k) = V c main_v28 (ix2 0 k) := by
  have e := where2 t
  show V c main_v28 (((cfg2.win 1).blk t).view.emb (ix2 (0 : Fin 1) k)) = V c main_v28 (ix2 0 k)
  refine congrArg (V c main_v28) (funext fun a => Fin.ext ?_)
  match a with
  | ⟨0, _⟩ => show win2_1.index t (0 : Fin 2) * 1 + 1 * 0 = 0; omega
  | ⟨1, _⟩ => show win2_1.index t (1 : Fin 2) * 16 + 1 * k.val = k.val; omega

/-- The mean row's block at every point is the whole row. -/
theorem blk2_mean (c : Dev nD) (t : Fin cfg2.N) (k : Fin 16) :
    Gen.iblk2 (F := Ideal) V c 2 t (ix2 (0 : Fin 1) k) = V c main_v47 (ix2 0 k) := by
  have e := where2 t
  show V c main_v47 (((cfg2.win 2).blk t).view.emb (ix2 (0 : Fin 1) k)) = V c main_v47 (ix2 0 k)
  refine congrArg (V c main_v47) (funext fun a => Fin.ext ?_)
  match a with
  | ⟨0, _⟩ => show win2_2.index t (0 : Fin 2) * 1 + 1 * 0 = 0; omega
  | ⟨1, _⟩ => show win2_2.index t (1 : Fin 2) * 16 + 1 * k.val = k.val; omega

/-- The variance row's block at every point is the whole row. -/
theorem blk2_var (c : Dev nD) (t : Fin cfg2.N) (k : Fin 16) :
    Gen.iblk2 (F := Ideal) V c 3 t (ix2 (0 : Fin 1) k) = V c main_v53 (ix2 0 k) := by
  have e := where2 t
  show V c main_v53 (((cfg2.win 3).blk t).view.emb (ix2 (0 : Fin 1) k)) = V c main_v53 (ix2 0 k)
  refine congrArg (V c main_v53) (funext fun a => Fin.ext ?_)
  match a with
  | ⟨0, _⟩ => show win2_3.index t (0 : Fin 2) * 1 + 1 * 0 = 0; omega
  | ⟨1, _⟩ => show win2_3.index t (1 : Fin 2) * 16 + 1 * k.val = k.val; omega

/-- The scale row's block at every point is the whole row. -/
theorem blk2_scale (c : Dev nD) (t : Fin cfg2.N) (k : Fin 16) :
    Gen.iblk2 (F := Ideal) V c 4 t (ix2 (0 : Fin 1) k) = V c main_v29 (ix2 0 k) := by
  have e := where2 t
  show V c main_v29 (((cfg2.win 4).blk t).view.emb (ix2 (0 : Fin 1) k)) = V c main_v29 (ix2 0 k)
  refine congrArg (V c main_v29) (funext fun a => Fin.ext ?_)
  match a with
  | ⟨0, _⟩ => show win2_4.index t (0 : Fin 2) * 1 + 1 * 0 = 0; omega
  | ⟨1, _⟩ => show win2_4.index t (1 : Fin 2) * 16 + 1 * k.val = k.val; omega

/-- The shift row's block at every point is the whole row. -/
theorem blk2_shift (c : Dev nD) (t : Fin cfg2.N) (k : Fin 16) :
    Gen.iblk2 (F := Ideal) V c 5 t (ix2 (0 : Fin 1) k) = V c main_v30 (ix2 0 k) := by
  have e := where2 t
  show V c main_v30 (((cfg2.win 5).blk t).view.emb (ix2 (0 : Fin 1) k)) = V c main_v30 (ix2 0 k)
  refine congrArg (V c main_v30) (funext fun a => Fin.ext ?_)
  match a with
  | ⟨0, _⟩ => show win2_5.index t (0 : Fin 2) * 1 + 1 * 0 = 0; omega
  | ⟨1, _⟩ => show win2_5.index t (1 : Fin 2) * 16 + 1 * k.val = k.val; omega

/-- The weights' block at every point is the whole matrix. -/
theorem blk2_w (c : Dev nD) (t : Fin cfg2.N) (k : Fin 16) (q : Fin 3) :
    Gen.iblk2 (F := Ideal) V c 6 t (ix2 k q) = V c main_arg5 (ix2 k q) := by
  have e := where2 t
  show V c main_arg5 (((cfg2.win 6).blk t).view.emb (ix2 k q)) = V c main_arg5 (ix2 k q)
  refine congrArg (V c main_arg5) (funext fun a => Fin.ext ?_)
  match a with
  | ⟨0, _⟩ => show win2_6.index t (0 : Fin 2) * 16 + 1 * k.val = k.val; omega
  | ⟨1, _⟩ => show win2_6.index t (1 : Fin 2) * 3 + 1 * q.val = q.val; omega

/-- What grid point `t` writes back is row block `t` of `norm2` of the arrays as the region finds them. -/
theorem flushed2 (c : Dev nD) (t : Fin cfg2.N) :
    (Gen.dat2 (F := Ideal) V c).flushed 7 t
      = ((cfg2.win 7).blk t).view.read (Elt Ideal)
          (norm2 (V c main_v44) (V c main_v28) (V c main_v47) (V c main_v53) (V c main_v29) (V c main_v30) (V c main_arg5)) := by
  show (cfg2.win 7).cut (grid2.coords t) ((Gen.dat2 V c).after 7 t) = _
  rw [Gen.after2_7]
  unfold Gen.out2_7
  rw [View.canon_unit_zero origin2]
  simp only [View.ld_unit_zero (S := S10000x16) origin2, View.ld_unit_zero (S := S1x16) origin2,
    View.ld_unit_zero (S := S16x3) origin2]
  funext y
  have e := where2 t
  show Gen.k2_pay1 (Gen.iblk2 V c 0 t) (Gen.iblk2 V c 1 t) (Gen.iblk2 V c 3 t) (Gen.iblk2 V c 2 t) (Gen.iblk2 V c 4 t)
      (Gen.iblk2 V c 5 t) (Gen.iblk2 V c 6 t) y
    = norm2 (V c main_v44) (V c main_v28) (V c main_v47) (V c main_v53) (V c main_v29) (V c main_v30) (V c main_arg5)
        (((cfg2.win 7).blk t).view.emb y)
  have h0 : ((((cfg2.win 7).blk t).view.emb y) 0).val = t.val * 10000 + (y 0).val := by
    show win2_7.index t (0 : Fin 2) * 10000 + 1 * (y 0).val = _; omega
  have h1 : (((cfg2.win 7).blk t).view.emb y) 1 = y 1 :=
    Fin.ext (by show win2_7.index t (1 : Fin 2) * 3 + 1 * (y 1).val = (y 1).val; omega)
  refine (pay2_at _ _ _ _ _ _ _ y).trans ?_
  refine Finset.sum_congr rfl fun k _ => ?_
  exact congrArg₂ (· * ·)
    (normAct_congr (blk2_x V c t (y 0) k _ h0) (blk2_bias V c t k) (blk2_mean V c t k) (blk2_var V c t k)
      (blk2_scale V c t k) (blk2_shift V c t k))
    ((blk2_w V c t k (y 1)).trans (congrArg (fun z => V c main_arg5 (ix2 k z)) h1.symm))

/-- An index of the output is in point `t`'s block iff each coordinate is in the block's range on its axis. -/
theorem mem_blk2 (t : Fin cfg2.N) (i : S200000x3.Idx) :
    i ∈ ((cfg2.win 7).blk t).view.set
      ↔ ∀ a : Fin 2, win2_7.index t a * S10000x3.size a ≤ (i a).val
          ∧ (i a).val < win2_7.index t a * S10000x3.size a + S10000x3.size a := by
  show i ∈ ((View.whole main_v54).slice (win2_7.rect t)).set ↔ _
  rw [View.set_slice_whole, Rect.mem_set_unit]
  exact Iff.rfl

/-- Row `r` of the output is in the block of point `r / 10000`, which writes back. -/
theorem cover2 (i : S200000x3.Idx) :
    ∃ t : Fin cfg2.N, (cfg2.win 7).flush t = true ∧ i ∈ ((cfg2.win 7).blk t).view.set := by
  have hN : cfg2.N = 20 := Gen.N_2
  have hi0 : (i 0).val < 200000 := (i 0).isLt
  have hi1 : (i 1).val < 3 := (i 1).isLt
  refine ⟨⟨(i 0).val / 10000, by omega⟩, Gen.flush2_7 _, ?_⟩
  rw [mem_blk2]
  have e := where2 ⟨(i 0).val / 10000, by omega⟩
  intro a
  match a with
  | ⟨0, _⟩ =>
    show win2_7.index _ (0 : Fin 2) * 10000 ≤ (i 0).val ∧ (i 0).val < win2_7.index _ (0 : Fin 2) * 10000 + 10000
    rw [e.2.2.2.2.2.2.2.2.2.2.2.2.2.2.1]
    show (i 0).val / 10000 * 10000 ≤ (i 0).val ∧ (i 0).val < (i 0).val / 10000 * 10000 + 10000; omega
  | ⟨1, _⟩ =>
    show win2_7.index _ (1 : Fin 2) * 3 ≤ (i 1).val ∧ (i 1).val < win2_7.index _ (1 : Fin 2) * 3 + 3
    rw [e.2.2.2.2.2.2.2.2.2.2.2.2.2.2.2]; omega

/-- The output array after the region is `norm2` of the arrays as the region finds them. -/
theorem arr2_eq (c : Dev nD) :
    (Gen.dat2 (F := Ideal) V c).arrAt 7 cfg2.N
      = norm2 (V c main_v44) (V c main_v28) (V c main_v47) (V c main_v53) (V c main_v29) (V c main_v30) (V c main_arg5) :=
  (Gen.dat2 (F := Ideal) V c).arrAt_eq_of_cover 7
    (norm2 (V c main_v44) (V c main_v28) (V c main_v47) (V c main_v53) (V c main_v29) (V c main_v30) (V c main_arg5))
    (fun t _ => flushed2 V c t) cover2

/-- Entry `(i, j)` of the output after the region. -/
theorem arr2 (c : Dev nD) (i : Fin 200000) (j : Fin 3) :
    (Gen.dat2 (F := Ideal) V c).arrAt 7 cfg2.N (ix2 i j)
      = norm2 (V c main_v44) (V c main_v28) (V c main_v47) (V c main_v53) (V c main_v29) (V c main_v30) (V c main_arg5)
          (ix2 i j) :=
  congrFun (arr2_eq V c) (ix2 i j)

end Cert.KernelIdeal.Val

end
-- ==== Proof.LibColumn.lean ====
/-
  Column vectors read at an index.

  A vector of length `a` re-laid as an `a × 1` column holds, at row `i`, the vector's entry `i`.
  An `a × 1` column broadcast to `a × b` holds, at `(p, c)`, the column's entry at row `p`.
  Summing an `a × 1` column over its rows, or an `a × b` array over its columns, inserts the summed
  coordinate at the place the reduced index leaves open: the inserted index is `(k, u)` resp. `(r, k)`.
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- A length-`a` vector cast to an `a × 1` column reads, at `(i, 0)`, the vector at `i`:
    both positions are number `i` in row-major order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Summing an `a × b` array along its columns: the index of row `r` with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Summing an `a × 1` column along its rows: the one reduced index with row `k` put back is `(k, 0)`. -/
theorem lift_rows {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

end Cert.LibColumn
-- ==== Proof.SoftSpec.lean ====
/-
  The row-wise log-softmax over three columns, on the extended reals.

  For a row `a` of three extended reals and a column `j`: with `M` the row's maximum (the fold of `max` from `-∞`
  over the three columns), the value is `(a j - M) - log (∑ j', exp (a j' - M))`, the exponential and the logarithm
  being the extended-real ones of PureOps/Ideal.lean (`Ideal.exp`, `Ideal.log`).
-/
import Idealize.ShloMosaic.PureOps.Ideal

namespace Cert.Gcn

open Idealize.ShloMosaic

/-- The log-softmax of a row of three extended reals at column `j`. -/
noncomputable def logSoftRow (a : Fin 3 → EReal) (j : Fin 3) : EReal :=
  (a j - (Finset.univ : Finset (Fin 3)).fold max (⊥ : EReal) a)
    - Ideal.log (∑ j' : Fin 3, Ideal.exp (a j' - (Finset.univ : Finset (Fin 3)).fold max (⊥ : EReal) a))

end Cert.Gcn
-- ==== Proof.KLogSoftOps.lean ====
/-
  The kernel's spelling of a row-wise log-softmax over three columns, read at an index.

  For an `n × 3` array `a` of extended reals: the lane maximum from `-∞` and the lane sum from zero, each re-laid as an
  `n × 1` column and broadcast back to `n × 3`, give at `(p, q)` the fold of `max` from `⊥` and the sum over row `p`;
  so `(a - max) - log (sum (exp (a - max)))` is `logSoftRow` of row `p` at column `q`.
-/
import Idealize.ShloMosaic.Lib.Pipeline.Value
import Idealize.ShloMosaic.Lib.ValueIdx
import Idealize.ShloMosaic.Lib.ValueLayout
import Idealize.ShloMosaic.PureOps.Ideal.Laws
import proofs.«167311_j59150289600863_2_alg».proof.Proof.LibColumn
import proofs.«167311_j59150289600863_2_alg».proof.Proof.SoftSpec

namespace Cert.Gcn

open Idealize.ShloMosaic Idealize.ShloMosaic.ValueIdx

/-- The word `0xFF800000` denotes `-∞`. -/
theorem ofBits_neg_inf_f32 : Ideal.ofBits .f32 0xFF800000#32 = ⊥ := by simp [Ideal.ofBits, Ideal.ieee]

variable {n : ℕ}

/-- The lane maximum from `-∞`, as a column, at row `p`: the fold of `max` from `⊥` over the row. -/
theorem rowMax_col_apply (a : FVec Ideal ⟨2, ![n, 3]⟩ .f32)
    (hr : (⟨2, ![n, 3]⟩ : Shape).Reduces [1] ⟨1, ![n]⟩) (hc : (⟨1, ![n]⟩ : Shape).ShapeCasts ⟨2, ![n, 1]⟩)
    (p : Fin n) (u : Fin 1) :
    shapeCast ⟨2, ![n, 1]⟩ (multiReduction (F := Ideal) .maximumf [1] ⟨1, ![n]⟩ a 0xFF800000#32 hr (.inl rfl) rfl) hc (ix2 p u)
      = (Finset.univ : Finset (Fin 3)).fold max (⊥ : EReal) (fun j' => a (ix2 p j')) := by
  rw [Cert.LibColumn.shapeCast_a_a1_apply]
  refine (Ideal.multiReduction_maximumf_single a _ hr (.inl rfl) rfl (ix1 p)).trans ?_
  show (Finset.univ : Finset (Fin 3)).fold max (Ideal.ofBits .f32 0xFF800000#32) (a ∘ hr.lift (ix1 p)) = _
  rw [ofBits_neg_inf_f32]
  congr 1
  funext j'
  exact congrArg a (Cert.LibColumn.lift_cols hr p j')

/-- The lane sum from zero, as a column, at row `p`: the sum over the row. -/
theorem rowSum_col_apply (a : FVec Ideal ⟨2, ![n, 3]⟩ .f32)
    (hr : (⟨2, ![n, 3]⟩ : Shape).Reduces [1] ⟨1, ![n]⟩) (hc : (⟨1, ![n]⟩ : Shape).ShapeCasts ⟨2, ![n, 1]⟩)
    (p : Fin n) (u : Fin 1) :
    shapeCast ⟨2, ![n, 1]⟩ (multiReduction (F := Ideal) .add [1] ⟨1, ![n]⟩ a 0x00000000#32 hr (.inl rfl) rfl) hc (ix2 p u)
      = ∑ j' : Fin 3, a (ix2 p j') := by
  rw [Cert.LibColumn.shapeCast_a_a1_apply]
  refine (Ideal.multiReduction_add_single a _ hr (.inl rfl) rfl (ix1 p)).trans ?_
  refine Finset.sum_congr rfl fun j' _ => ?_
  exact congrArg a (Cert.LibColumn.lift_cols hr p j')

/-- The kernel's log-softmax of `a` at `(p, q)`. -/
theorem logSoft_kernel_apply (a : FVec Ideal ⟨2, ![n, 3]⟩ .f32)
    (hr : (⟨2, ![n, 3]⟩ : Shape).Reduces [1] ⟨1, ![n]⟩) (hc : (⟨1, ![n]⟩ : Shape).ShapeCasts ⟨2, ![n, 1]⟩)
    (hb : (⟨2, ![n, 1]⟩ : Shape).Broadcasts ⟨2, ![n, 3]⟩) (p : Fin n) (q : Fin 3) :
    subf (subf a (broadcastTo ⟨2, ![n, 3]⟩ (shapeCast ⟨2, ![n, 1]⟩
        (multiReduction (F := Ideal) .maximumf [1] ⟨1, ![n]⟩ a 0xFF800000#32 hr (.inl rfl) rfl) hc) hb))
      (broadcastTo ⟨2, ![n, 3]⟩ (log (shapeCast ⟨2, ![n, 1]⟩
        (multiReduction (F := Ideal) .add [1] ⟨1, ![n]⟩
          (exp (subf a (broadcastTo ⟨2, ![n, 3]⟩ (shapeCast ⟨2, ![n, 1]⟩
            (multiReduction (F := Ideal) .maximumf [1] ⟨1, ![n]⟩ a 0xFF800000#32 hr (.inl rfl) rfl) hc) hb)))
          0x00000000#32 hr (.inl rfl) rfl) hc)) hb) (ix2 p q)
      = logSoftRow (fun j' => a (ix2 p j')) q := by
  rw [subf_apply, subf_apply, Cert.LibColumn.broadcastTo_a1_ab_apply, Cert.LibColumn.broadcastTo_a1_ab_apply,
    rowMax_col_apply]
  show _ - Ideal.log (shapeCast ⟨2, ![n, 1]⟩ _ hc (ix2 p (0 : Fin 1))) = _
  rw [rowSum_col_apply]
  unfold logSoftRow
  congr 2
  refine Finset.sum_congr rfl fun j' _ => ?_
  show Ideal.exp (subf a _ (ix2 p j')) = _
  rw [subf_apply, Cert.LibColumn.broadcastTo_a1_ab_apply, rowMax_col_apply]

/-- The bias row added to every row: at `(p, q)` the entry plus the bias at column `q`. -/
theorem add_bias_apply (v0 : FVec Ideal ⟨2, ![n, 3]⟩ .f32) (v2 : FVec Ideal ⟨2, ![1, 3]⟩ .f32)
    (h0 : (⟨2, ![n, 3]⟩ : Shape).ShapeCasts ⟨2, ![n, 3]⟩) (h1 : (⟨2, ![1, 3]⟩ : Shape).ShapeCasts ⟨2, ![1, 3]⟩)
    (hb : (⟨2, ![1, 3]⟩ : Shape).Broadcasts ⟨2, ![n, 3]⟩) (p : Fin n) (q : Fin 3) :
    addf (shapeCast ⟨2, ![n, 3]⟩ v0 h0) (broadcastTo ⟨2, ![n, 3]⟩ (shapeCast ⟨2, ![1, 3]⟩ v2 h1) hb) (ix2 p q)
      = v0 (ix2 p q) + v2 (ix2 0 q) := by
  rw [addf_apply, shapeCast_self, shapeCast_self, broadcastTo_1b_ab_apply]

end Cert.Gcn
-- ==== Proof.KLogSoftPay.lean ====
/-
  The log-softmax kernel's payload at an index: over a block `v0` of 10000 rows and the bias row `v2`, the value at
  `(p, q)` is the log-softmax of row `p` of `v0` plus the bias, at column `q`.
-/
import proofs.«167311_j59150289600863_2_alg».proof.Proof.Gen.KernelIdeal.Skeleton
import proofs.«167311_j59150289600863_2_alg».proof.Proof.KLogSoftOps

namespace Cert.KernelIdeal.Val

open Idealize.ShloMosaic Idealize.ShloMosaic.ValueIdx

theorem pay3_apply (v0 : Vec Ideal S10000x3 .f32) (v2 : Vec Ideal S1x3 .f32) (p : Fin 10000) (q : Fin 3) :
    Gen.k3_pay1 (F := Ideal) v0 v2 (ix2 p q)
      = Cert.Gcn.logSoftRow (fun j' => v0 (ix2 p j') + v2 (ix2 0 j')) q := by
  unfold Gen.k3_pay1
  dsimp only
  refine (Cert.Gcn.logSoft_kernel_apply _ _ _ _ p q).trans ?_
  congr 1
  funext j'
  exact Cert.Gcn.add_bias_apply v0 v2 _ _ _ p j'

end Cert.KernelIdeal.Val
-- ==== Proof.KLogSoft.lean ====
/-
  The log-softmax region's output array, index by index: after the region, row `i` of the output holds the
  log-softmax of row `i` of the first input array plus the bias row.
-/
import proofs.«167311_j59150289600863_2_alg».proof.Proof.Gen.KernelIdeal.Frame
import proofs.«167311_j59150289600863_2_alg».proof.Proof.KLogSoftPay
import Idealize.ShloMosaic.Lib.Pipeline.Value

set_option maxRecDepth 16384

noncomputable section

namespace Cert.KernelIdeal.Val

open Idealize.ShloMosaic Idealize.ShloMosaic.TcCoe Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem zero_off2 : (![0, 0] : Fin 2 → Nat) = fun _ => 0 := funext fun a => by fin_cases a <;> rfl

/-- The whole output array as one function of the two input arrays: row by row, the log-softmax of the row plus the bias. -/
def logSoftArr (z : S200000x3.Idx → Elt Ideal .f32) (b : S1x3.Idx → Elt Ideal .f32) : S200000x3.Idx → Elt Ideal .f32 :=
  fun i => Cert.Gcn.logSoftRow (fun j' => z (ix2 (i 0) j') + b (ix2 0 j')) (i 1)

/-- The printed index maps over the grid: point `t` takes row block `t` of the input and of the output, and the one bias block. -/
theorem blockIdx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `logSoftArr` of the arrays as the region finds them. -/
theorem flushed3_eq (c : Dev nD) (t : Fin cfg3.N) :
    (dat3 V c).flushed 2 t = ((cfg3.win 2).blk t).view.read (Elt Ideal) (logSoftArr (V c main_v66) (V c main_v31)) := by
  show (cfg3.win 2).cut (grid3.coords t) ((dat3 V c).after 2 t) = _
  rw [after3_2]
  unfold out3_2
  rw [View.canon_unit_zero zero_off2]
  simp only [View.ld_unit_zero (S := S10000x3) zero_off2, View.ld_unit_zero (S := S1x3) zero_off2]
  obtain ⟨e0, e1, e2, e3, e4, e5⟩ := blockIdx3 t
  funext j
  show k3_pay1 (iblk3 V c 0 t) (iblk3 V c 1 t) j
    = logSoftArr (V c main_v66) (V c main_v31) (((cfg3.win 2).blk t).view.emb j)
  obtain ⟨p, q, rfl⟩ : ∃ (p : Fin 10000) (q : Fin 3), j = ix2 p q := ⟨j 0, j 1, eq_ix2 j⟩
  refine (pay3_apply (iblk3 V c 0 t) (iblk3 V c 1 t) p q).trans ?_
  unfold logSoftArr
  refine congr (congrArg Cert.Gcn.logSoftRow (funext fun j' => ?_)) ?_
  · have h0 : iblk3 V c 0 t (ix2 p j') = V c main_v66 (ix2 (((cfg3.win 2).blk t).view.emb (ix2 p q) 0) j') := by
      show V c main_v66 (((cfg3.win 0).blk t).view.emb (ix2 p j')) = _
      have e : ((cfg3.win 0).blk t).view.emb (ix2 p j') = ix2 (((cfg3.win 2).blk t).view.emb (ix2 p q) 0) j' := by
        funext a; apply Fin.ext
        match a with
        | ⟨0, _⟩ => show win3_0.index t (0 : Fin 2) * 10000 + 1 * p.val = win3_2.index t (0 : Fin 2) * 10000 + 1 * p.val; omega
        | ⟨1, _⟩ => show win3_0.index t (1 : Fin 2) * 3 + 1 * j'.val = j'.val; omega
      rw [e]
      rfl
    have h1 : iblk3 V c 1 t (ix2 (0 : Fin 1) j') = V c main_v31 (ix2 (0 : Fin 1) j') := by
      show V c main_v31 (((cfg3.win 1).blk t).view.emb (ix2 (0 : Fin 1) j')) = _
      have e : ((cfg3.win 1).blk t).view.emb (ix2 (0 : Fin 1) j') = ix2 (0 : Fin 1) j' := by
        funext a; apply Fin.ext
        match a with
        | ⟨0, _⟩ => show win3_1.index t (0 : Fin 2) * 1 + 1 * 0 = 0; omega
        | ⟨1, _⟩ => show win3_1.index t (1 : Fin 2) * 3 + 1 * j'.val = j'.val; omega
      rw [e]
    rw [h0, h1]
  · exact Fin.ext (by show q.val = win3_2.index t (1 : Fin 2) * 3 + 1 * q.val; omega)

/-- An index of the output array is in point `t`'s block iff each coordinate is in the block's range on its axis. -/
theorem mem_blk3 (t : Fin cfg3.N) (i : S200000x3.Idx) :
    i ∈ ((cfg3.win 2).blk t).view.set ↔ ∀ a : Fin 2, win3_2.index t a * S10000x3.size a ≤ (i a).val ∧ (i a).val < win3_2.index t a * S10000x3.size a + S10000x3.size a := by
  show i ∈ ((View.whole main_v67).slice (win3_2.rect t)).set ↔ _
  rw [View.set_slice_whole, Rect.mem_set_unit]
  exact Iff.rfl

/-- Every block of the output is some point's. -/
theorem block_onto3 : ∀ q0 : Fin 20, ∃ t : Fin cfg3.N, win3_2.index t = ![q0.val, 0] :=
  (by decide +kernel : ∀ q0 : Fin 20, ∃ t : Fin grid3.N, win3_2.index t = ![q0.val, 0])

/-- Every index of the output array is in some point's block: row `r` in the block of point `r / 10000`. -/
theorem cover3 (i : S200000x3.Idx) : ∃ t : Fin cfg3.N, (cfg3.win 2).flush t = true ∧ i ∈ ((cfg3.win 2).blk t).view.set := by
  have hi0 : (i 0).val < 200000 := (i 0).isLt
  have hi1 : (i 1).val < 3 := (i 1).isLt
  obtain ⟨t, ht⟩ := block_onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 3 ≤ (i 1).val ∧ (i 1).val < win3_2.index t (1 : Fin 2) * 3 + 3; omega

/-- The output array after the region is `logSoftArr` of the arrays as the region finds them. -/
theorem final3 (c : Dev nD) :
    (dat3 V c).arrAt 2 cfg3.N = logSoftArr (V c main_v66) (V c main_v31) :=
  (dat3 V c).arrAt_eq_of_cover 2 (logSoftArr (V c main_v66) (V c main_v31)) (fun t _ => flushed3_eq V c t) cover3

/-- `logSoftArr` at an index. -/
theorem logSoftArr_apply (z : S200000x3.Idx → Elt Ideal .f32) (b : S1x3.Idx → Elt Ideal .f32) (i : Fin 200000) (j : Fin 3) :
    logSoftArr z b (ix2 i j) = Cert.Gcn.logSoftRow (fun j' => z (ix2 i j') + b (ix2 0 j')) j := rfl

/-- The output array after the region, index by index. -/
theorem arr3 (c : Dev nD) (i : Fin 200000) (j : Fin 3) :
    (dat3 (F := Ideal) V c).arrAt 2 cfg3.N (ix2 i j) = logSoftArr (V c main_v66) (V c main_v31) (ix2 i j) := by
  rw [final3]

end Cert.KernelIdeal.Val

end
-- ==== Proof.KValue.lean ====
/-
  The idealized kernel program's result as a function of its eight argument arrays.

  Reading the fold of the program's segments backwards from the result: the last launch writes the row-wise
  log-softmax of its input plus the second bias; its input is the second aggregation of the third launch's output; the
  third launch normalizes the first aggregate (plus the first bias) by the batch mean and clamped batch variance,
  rectifies, and multiplies by the second weight matrix; mean and variance come from the column sums and the column
  sums of squares the second launch accumulates over the twenty row blocks; the first aggregate is the aggregation of
  the first launch's output, the product of the features with the first weight matrix.
-/
import proofs.«167311_j59150289600863_2_alg».proof.Proof.KCarry
import proofs.«167311_j59150289600863_2_alg».proof.Proof.KMatmul1
import proofs.«167311_j59150289600863_2_alg».proof.Proof.KStats
import proofs.«167311_j59150289600863_2_alg».proof.Proof.KNormMatmul2
import proofs.«167311_j59150289600863_2_alg».proof.Proof.KLogSoft

set_option maxRecDepth 16384

noncomputable section

namespace Cert.KernelIdeal.Val

open Cert.KernelIdeal Cert.KernelIdeal.Gen Cert.Gcn
open Idealize.ShloMosaic Idealize.ShloMosaic.TcCoe Idealize.ShloMosaic.StableHlo Idealize.SL.Sem
open Idealize.ShloMosaic.ValueIdx

variable (m : (ℓ : Loc nD τ sig) → Buf (Elt Ideal) ℓ) (ρ : Dev nD → PrngReg) (c : Dev nD)

/-- The first aggregate: the features times the first weight matrix, aggregated over the graph. -/
def agg1 : F32 S200000x16 :=
  agg16 (prod0 (m ((c.tc : Thread nD τ).loc main_arg0)) (m ((c.tc : Thread nD τ).loc main_arg1)))
    (srcVec (m ((c.tc : Thread nD τ).loc main_arg7))) (dstVec (m ((c.tc : Thread nD τ).loc main_arg7)))
    (ewCol (srcVec (m ((c.tc : Thread nD τ).loc main_arg7))) (dstVec (m ((c.tc : Thread nD τ).loc main_arg7))))

/-- The first launch leaves the product of the features with the first weight matrix. -/
theorem W2_prod : W2 m ρ c (Proc.devRef .tc main_v32)
    = prod0 (m ((c.tc : Thread nD τ).loc main_arg0)) (m ((c.tc : Thread nD τ).loc main_arg1)) := by
  have hx : V1 m ρ c main_arg0 = m ((c.tc : Thread nD τ).loc main_arg0) := W1_x m ρ c
  have hw : V1 m ρ c main_arg1 = m ((c.tc : Thread nD τ).loc main_arg1) := W1_w1 m ρ c
  refine (W2_arr m ρ c 2).trans ((arr0_eq (V1 m ρ) c).trans ?_)
  rw [hx, hw]

/-- The second stretch leaves the first aggregate. -/
theorem W3_agg1 : W3 m ρ c (Proc.devRef .tc main_v44) = agg1 m c := by
  refine (host1_agg (W2 m ρ c)).trans ?_
  rw [W2_prod, W2_src, W2_dst, W2_ew]
  rfl

/-- The first bias laid out as a row. -/
abbrev b1Row : FVec Ideal S1x16 .f32 := shapeCast S1x16 (m ((c.tc : Thread nD τ).loc main_arg2)) shapeCasts_S16_S1x16

/-- The column sums after the second launch: over all 200000 rows of the first aggregate plus the bias. -/
theorem W4_sum (k : Fin 16) : (W4 m ρ c (Proc.devRef .tc main_v45_0) : S1x16.Idx → EReal) (ix2 (0 : Fin 1) k)
    = ∑ i : Fin 200000, ((agg1 m c : S200000x16.Idx → EReal) (ix2 i k)
        + (b1Row m c : S1x16.Idx → EReal) (ix2 (0 : Fin 1) k)) := by
  have h := arr1_sum (V3 m ρ) c k
  have hA : V3 m ρ c main_v44 = agg1 m c := W3_agg1 m ρ c
  have hb : V3 m ρ c main_v28 = b1Row m c := W3_b1 m ρ c
  rw [hA, hb] at h
  exact (congrFun (W4_arr m ρ c 2) _).trans h

/-- The column sums of squares after the second launch. -/
theorem W4_sumsq (k : Fin 16) : (W4 m ρ c (Proc.devRef .tc main_v45_1) : S1x16.Idx → EReal) (ix2 (0 : Fin 1) k)
    = ∑ i : Fin 200000, ((agg1 m c : S200000x16.Idx → EReal) (ix2 i k)
          + (b1Row m c : S1x16.Idx → EReal) (ix2 (0 : Fin 1) k))
        * ((agg1 m c : S200000x16.Idx → EReal) (ix2 i k) + (b1Row m c : S1x16.Idx → EReal) (ix2 (0 : Fin 1) k)) := by
  have h := arr1_sumsq (V3 m ρ) c k
  have hA : V3 m ρ c main_v44 = agg1 m c := W3_agg1 m ρ c
  have hb : V3 m ρ c main_v28 = b1Row m c := W3_b1 m ρ c
  rw [hA, hb] at h
  exact (congrFun (W4_arr m ρ c 3) _).trans h

/-- The third launch leaves the normalized, rectified first layer times the second weight matrix. -/
theorem W6_dense : W6 m ρ c (Proc.devRef .tc main_v54)
    = norm2 (agg1 m c) (b1Row m c)
        (meanRow (W4 m ρ c (Proc.devRef .tc main_v45_0)))
        (varRow (W4 m ρ c (Proc.devRef .tc main_v45_0)) (W4 m ρ c (Proc.devRef .tc main_v45_1)))
        (shapeCast S1x16 (m ((c.tc : Thread nD τ).loc main_arg3)) shapeCasts_S16_S1x16)
        (shapeCast S1x16 (m ((c.tc : Thread nD τ).loc main_arg4)) shapeCasts_S16_S1x16)
        (m ((c.tc : Thread nD τ).loc main_arg5)) := by
  have hA : V5 m ρ c main_v44 = agg1 m c := (W5_agg m ρ c).trans (W3_agg1 m ρ c)
  have hb : V5 m ρ c main_v28 = b1Row m c := W5_b1 m ρ c
  have hμ : V5 m ρ c main_v47 = meanRow (W4 m ρ c (Proc.devRef .tc main_v45_0)) := host2_mean (W4 m ρ c)
  have hσ : V5 m ρ c main_v53
      = varRow (W4 m ρ c (Proc.devRef .tc main_v45_0)) (W4 m ρ c (Proc.devRef .tc main_v45_1)) := host2_var (W4 m ρ c)
  have hg : V5 m ρ c main_v29 = shapeCast S1x16 (m ((c.tc : Thread nD τ).loc main_arg3)) shapeCasts_S16_S1x16 :=
    W5_gamma m ρ c
  have hβ : V5 m ρ c main_v30 = shapeCast S1x16 (m ((c.tc : Thread nD τ).loc main_arg4)) shapeCasts_S16_S1x16 :=
    W5_beta m ρ c
  have hw : V5 m ρ c main_arg5 = m ((c.tc : Thread nD τ).loc main_arg5) := W5_w2 m ρ c
  refine (W6_arr m ρ c 7).trans ((arr2_eq (V5 m ρ) c).trans ?_)
  rw [hA, hb, hμ, hσ, hg, hβ, hw]

/-- The fourth stretch leaves the second aggregate. -/
theorem W7_agg2 : W7 m ρ c (Proc.devRef .tc main_v66)
    = agg3 (W6 m ρ c (Proc.devRef .tc main_v54))
        (srcVec (m ((c.tc : Thread nD τ).loc main_arg7))) (dstVec (m ((c.tc : Thread nD τ).loc main_arg7)))
        (ewCol (srcVec (m ((c.tc : Thread nD τ).loc main_arg7))) (dstVec (m ((c.tc : Thread nD τ).loc main_arg7)))) := by
  refine (host3_agg (W6 m ρ c)).trans ?_
  rw [W6_src, W6_dst, W6_ew]

/-- THE RESULT: the row-wise log-softmax of the second aggregate plus the second bias. -/
theorem W8_value : W8 m ρ c (Proc.devRef .tc main_v67)
    = logSoftArr (W7 m ρ c (Proc.devRef .tc main_v66))
        (shapeCast S1x3 (m ((c.tc : Thread nD τ).loc main_arg6)) shapeCasts_S3_S1x3) := by
  have hz : V7 m ρ c main_v66 = W7 m ρ c (Proc.devRef .tc main_v66) := rfl
  have hb : V7 m ρ c main_v31 = shapeCast S1x3 (m ((c.tc : Thread nD τ).loc main_arg6)) shapeCasts_S3_S1x3 :=
    W7_b2 m ρ c
  refine (W8_arr m ρ c 2).trans ((final3 (V7 m ρ) c).trans ?_)
  rw [hb]

end Cert.KernelIdeal.Val

end
-- ==== Proof.GcnSpec.lean ====
/-
  Batch normalization, the rectifier and the second dense product, in plain extended-real arithmetic.

  `H i k` is the first layer's output (aggregate plus bias) at node `i`, feature `k`. Each feature is normalized by its
  mean and variance over the 200000 nodes — the variance in the form "mean of squares minus squared mean, clamped below
  at zero" —, scaled by `gamma`, shifted by `beta`, rectified, and the 16 features are then mapped to 3 by the weights
  `w2`. The float literals 200000.0 and the epsilon 9.99999974E-6 are kept as the words the programs spell.
-/
import Idealize.ShloMosaic.PureOps.Ideal

noncomputable section

open scoped BigOperators

namespace Cert.Gcn

open Idealize.ShloMosaic

/-- The mean of feature `k` over the nodes. -/
def colMean (H : Fin 200000 → Fin 16 → EReal) (k : Fin 16) : EReal :=
  Ideal.div (∑ i, H i k) (Ideal.ofBits .f32 0x48435000#32)

/-- The variance of feature `k` over the nodes: mean of squares minus squared mean, clamped below at zero. -/
def colVar (H : Fin 200000 → Fin 16 → EReal) (k : Fin 16) : EReal :=
  max (Ideal.div (∑ i, H i k * H i k) (Ideal.ofBits .f32 0x48435000#32) - colMean H k * colMean H k) 0

/-- The normalized, scaled, shifted and rectified feature. -/
def act (H : Fin 200000 → Fin 16 → EReal) (gamma beta : Fin 16 → EReal) (i : Fin 200000) (k : Fin 16) : EReal :=
  max ((H i k - colMean H k) * Ideal.rsqrt (colVar H k + Ideal.ofBits .f32 0x3727C5AC#32) * gamma k + beta k) 0

/-- The second dense product of the rectified features. -/
def dense2 (H : Fin 200000 → Fin 16 → EReal) (gamma beta : Fin 16 → EReal) (w2 : Fin 16 → Fin 3 → EReal)
    (i : Fin 200000) (j : Fin 3) : EReal :=
  ∑ k, act H gamma beta i k * w2 k j

end Cert.Gcn

end
-- ==== Proof.KMid.lean ====
/-
  The kernel's dense middle in plain arithmetic: the parameter vectors laid out as rows, the host's batch mean and
  clamped variance read at a column, and the normalized, rectified second dense product as `dense2` of the first
  layer's output plus bias.
-/
import proofs.«167311_j59150289600863_2_alg».proof.Proof.KNormMatmul2
import proofs.«167311_j59150289600863_2_alg».proof.Proof.KHost
import proofs.«167311_j59150289600863_2_alg».proof.Proof.GcnSpec
import Idealize.ShloMosaic.Lib.ValueLayout
import Idealize.ShloMosaic.PureOps.Ideal.Laws

noncomputable section

open scoped BigOperators

namespace Cert.KernelIdeal.Val

open Cert.KernelIdeal Idealize.ShloMosaic Idealize.ShloMosaic.ValueIdx

/-- A vector of 16 laid out as a `1 × 16` row reads, at `(0, k)`, the vector at `k`. -/
theorem row16_apply (v : FVec Ideal S16 .f32) {h : S16.ShapeCasts S1x16} (k : Fin 16) :
    shapeCast S1x16 v h (ix2 (0 : Fin 1) k) = v (ix1 k) :=
  shapeCast_a_1a_apply v h 0 k

/-- A vector of 3 laid out as a `1 × 3` row reads, at `(0, j)`, the vector at `j`. -/
theorem row3_apply (v : FVec Ideal S3 .f32) {h : S3.ShapeCasts S1x3} (j : Fin 3) :
    shapeCast S1x3 v h (ix2 (0 : Fin 1) j) = v (ix1 j) :=
  shapeCast_a_1a_apply v h 0 j

/-- The batch mean at column `k`: the column's sum divided by the literal 200000. -/
theorem meanRow_apply (s : FVec Ideal S1x16 .f32) (k : Fin 16) :
    meanRow s (ix2 0 k) = Ideal.div (s (ix2 0 k)) (Ideal.ofBits .f32 0x48435000#32) := rfl

/-- The clamped batch variance at column `k`: mean of squares minus squared mean, clamped below at zero. -/
theorem varRow_apply (s q : FVec Ideal S1x16 .f32) (k : Fin 16) :
    varRow s q (ix2 0 k)
      = max (Ideal.div (q (ix2 0 k)) (Ideal.ofBits .f32 0x48435000#32) - meanRow s (ix2 0 k) * meanRow s (ix2 0 k)) 0 := by
  show max (Ideal.div (q (ix2 0 k)) (Ideal.ofBits .f32 0x48435000#32) - meanRow s (ix2 0 k) * meanRow s (ix2 0 k))
      (Ideal.ofBits .f32 0x00000000#32) = _
  rw [Ideal.ofBits_zero_f32]

/-- The normalized, rectified product over the rows the kernel is launched with is `dense2` of the first layer's
    output plus bias, when `s` and `q` hold its column sums and column sums of squares. -/
theorem norm2_dense2 (A1 : S200000x16.Idx → EReal) (b1 γ β : FVec Ideal S16 .f32) (w2 : S16x3.Idx → EReal)
    (s q : FVec Ideal S1x16 .f32) {h : S16.ShapeCasts S1x16}
    (hs : ∀ k : Fin 16, s (ix2 0 k) = ∑ i : Fin 200000, (A1 (ix2 i k) + b1 (ix1 k)))
    (hq : ∀ k : Fin 16, q (ix2 0 k) = ∑ i : Fin 200000, (A1 (ix2 i k) + b1 (ix1 k)) * (A1 (ix2 i k) + b1 (ix1 k)))
    (i : Fin 200000) (j : Fin 3) :
    norm2 A1 (shapeCast S1x16 b1 h) (meanRow s) (varRow s q) (shapeCast S1x16 γ h) (shapeCast S1x16 β h) w2 (ix2 i j)
      = Cert.Gcn.dense2 (fun i k => A1 (ix2 i k) + b1 (ix1 k)) (fun k => γ (ix1 k)) (fun k => β (ix1 k))
          (fun k j => w2 (ix2 k j)) i j := by
  have hmean : ∀ k : Fin 16, meanRow s (ix2 0 k) = Cert.Gcn.colMean (fun i k => A1 (ix2 i k) + b1 (ix1 k)) k := fun k => by
    rw [meanRow_apply, hs]; rfl
  have hvar : ∀ k : Fin 16, varRow s q (ix2 0 k) = Cert.Gcn.colVar (fun i k => A1 (ix2 i k) + b1 (ix1 k)) k := fun k => by
    rw [varRow_apply, hq, hmean]; rfl
  rw [norm2_apply]
  unfold Cert.Gcn.dense2 Cert.Gcn.act
  refine Finset.sum_congr rfl fun k _ => ?_
  rw [row16_apply, row16_apply, row16_apply, hmean, hvar]

end Cert.KernelIdeal.Val

end
-- ==== Proof.LibScatterAddRows.lean ====
/-
  An accumulating row scatter `x.at[idx].add(u)` of a table `x : [N, C]` on the host, on the extended reals, read at
  an index.

  Summing rows `u : [E, C]` into the rows of `x` that an integer vector `idx` names lowers to a scatter whose body is
  an addition, with one inserted window axis (the table's rows), one update window axis (the columns: a whole row of
  `C` entries per scatter index) and a trailing index-vector axis of extent one on the scatter indices. Update entry
  `(e, c)` lands on table entry `(i, c)` exactly when the scatter index `idx (e, 0)`, read as a signed integer, is
  `i`; an index outside `[0, N)` lands nowhere and its row is dropped. So entry `(i, c)` of the result is

      x (i, c) + ∑ over the edges e with idx (e, 0) = i of u (e, c),

  and the set of such `e` does not depend on the width `C`: the same rows are summed whatever is carried along them.
  The statement takes the dimension numbers as a record built from the literal lists; a printed record with the same
  lists is equal to it by `rfl`.
-/
import Idealize.ShloMosaic.PureOps.Ideal.Laws
import Idealize.ShloMosaic.Lib.ValueIdx

noncomputable section

open scoped BigOperators

namespace Cert.LibScatterAddRows

open Idealize.ShloMosaic Idealize.ShloMosaic.ValueIdx

/-- The dimension numbers of `x.at[idx].add(u)` for a table `[N, C]`, scatter indices `[E, 1]`, updates `[E, C]`. -/
abbrev rowDims (N C E : ℕ) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The rows `e` of the updates whose scatter index, read signed, is `i`. -/
def landing {E w : ℕ} (idx : IVec ⟨2, ![E, 1]⟩ w) (i : ℕ) : Finset (Fin E) :=
  Finset.univ.filter fun e => (idx (ix2 e (0 : Fin 1))).toInt = (i : ℤ)

theorem one_not_mem_zero : (1 : Fin 2) ∉ ([0] : List (Fin 2)) :=
  fun h => absurd (List.mem_singleton.mp h) (by decide)

section Coordinates
variable {N C E w : ℕ} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the table's row axis the window starts at the scatter index `idx (e, 0)`, read signed. -/
theorem start_row : (rowDims N C E wf).start (ix2 e c) idx 0 = (idx (ix2 e (0 : Fin 1))).toInt := by
  unfold ScatterDims.start
  rw [dif_pos (show (0 : Fin 2) ∈ (rowDims N C E wf).scatterDimsToOperandDims from List.mem_singleton.mpr rfl)]
  have hsi : (rowDims N C E wf).siIdx (ix2 e c) ⟨List.idxOf (0 : Fin 2) (rowDims N C E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at zero: the scatter index does not name that axis. -/
theorem start_col : (rowDims N C E wf).start (ix2 e c) idx 1 = 0 := by
  unfold ScatterDims.start
  rw [dif_neg (show (1 : Fin 2) ∉ (rowDims N C E wf).scatterDimsToOperandDims from one_not_mem_zero)]

theorem zero_not_mem_sKept : (0 : Fin 2) ∉ (rowDims N C E wf).sKept := by
  simp [ScatterDims.sKept, Shape.kept]

theorem one_mem_sKept : (1 : Fin 2) ∈ (rowDims N C E wf).sKept := by
  simp [ScatterDims.sKept, Shape.kept]

/-- The row axis is inserted: the window coordinate there is zero. -/
theorem window_row : (rowDims N C E wf).window (ix2 e c) 0 = 0 := by
  unfold ScatterDims.window
  rw [dif_neg (zero_not_mem_sKept wf)]

/-- The column axis is the one window axis: the window coordinate there is the update's column. -/
theorem window_col : (rowDims N C E wf).window (ix2 e c) 1 = c.val := by
  unfold ScatterDims.window
  rw [dif_pos (one_mem_sKept wf)]
  rfl

end Coordinates

section Landing
variable {N C E w : ℕ} (wf : ScatterDims.WF ⟨2, ![N, C]⟩ ⟨2, ![E, 1]⟩ ⟨2, ![E, C]⟩ [1] [0] [0] 1)
  (idx : IVec ⟨2, ![E, 1]⟩ w)

/-- Update entry `(e, c)` lands on table entry `(i, c')` exactly when the scatter index of row `e` is `i` and the
    column is kept. -/
theorem resultIdx?_row (e : Fin E) (c : Fin C) (i : Fin N) (c' : Fin C) :
    (rowDims N C E wf).resultIdx? (ix2 e c) idx = some (ix2 i c')
      ↔ (idx (ix2 e (0 : Fin 1))).toInt = (i.val : ℤ) ∧ c = c' := by
  unfold ScatterDims.resultIdx?
  split
  · rename_i h
    rw [Option.some.injEq]
    have hr := h 0
    rw [start_row, window_row] at hr
    constructor
    · intro hf
      have h0 : ((rowDims N C E wf).start (ix2 e c) idx 0 + ((rowDims N C E wf).window (ix2 e c) 0 : ℕ)).toNat = i.val :=
        congrArg (fun f => (f 0).val) hf
      have h1 : ((rowDims N C E wf).start (ix2 e c) idx 1 + ((rowDims N C E wf).window (ix2 e c) 1 : ℕ)).toNat = c'.val :=
        congrArg (fun f => (f 1).val) hf
      rw [start_row, window_row] at h0
      rw [start_col, window_col] at h1
      refine ⟨by omega, Fin.ext (by omega)⟩
    · rintro ⟨h0, rfl⟩
      funext a
      refine Fin.ext ?_
      match a with
      | ⟨0, _⟩ =>
        show ((rowDims N C E wf).start (ix2 e c) idx 0 + ((rowDims N C E wf).window (ix2 e c) 0 : ℕ)).toNat = i.val
        rw [start_row, window_row]; omega
      | ⟨1, _⟩ =>
        show ((rowDims N C E wf).start (ix2 e c) idx 1 + ((rowDims N C E wf).window (ix2 e c) 1 : ℕ)).toNat = c.val
        rw [start_col, window_col]; omega
  · rename_i h
    constructor
    · intro hf; exact absurd hf (by simp)
    · rintro ⟨h0, rfl⟩
      exfalso
      apply h
      intro a
      match a with
      | ⟨0, _⟩ =>
        show 0 ≤ (rowDims N C E wf).start (ix2 e c) idx 0 + ((rowDims N C E wf).window (ix2 e c) 0 : ℕ)
          ∧ (rowDims N C E wf).start (ix2 e c) idx 0 + ((rowDims N C E wf).window (ix2 e c) 0 : ℕ) < (N : ℤ)
        rw [start_row, window_row, h0]
        have := i.isLt
        constructor <;> omega
      | ⟨1, _⟩ =>
        show 0 ≤ (rowDims N C E wf).start (ix2 e c) idx 1 + ((rowDims N C E wf).window (ix2 e c) 1 : ℕ)
          ∧ (rowDims N C E wf).start (ix2 e c) idx 1 + ((rowDims N C E wf).window (ix2 e c) 1 : ℕ) < (C : ℤ)
        rw [start_col, window_col]
        have := c.isLt
        constructor <;> omega

/-- THE ACCUMULATING SCATTER READ AT `(i, c)`: the table's entry plus the updates' column `c` summed over the rows
    whose scatter index is `i`. -/
theorem hostScatterAdd_rows_apply (x : (⟨2, ![N, C]⟩ : Shape).Idx → EReal) (upd : (⟨2, ![E, C]⟩ : Shape).Idx → EReal)
    (i : Fin N) (c : Fin C) :
    Ideal.hostScatterAdd (rowDims N C E wf) x idx upd (ix2 i c)
      = x (ix2 i c) + ∑ e ∈ landing idx i.val, upd (ix2 e c) := by
  unfold Ideal.hostScatterAdd
  congr 1
  refine Finset.sum_nbij' (fun j => (j 0 : Fin E)) (fun e => ix2 e c) ?_ ?_ ?_ ?_ ?_
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    exact Finset.mem_filter.mpr ⟨Finset.mem_univ _, this.1⟩
  · intro e he
    exact Finset.mem_filter.mpr ⟨Finset.mem_univ _,
      (resultIdx?_row wf idx e c i c).mpr ⟨(Finset.mem_filter.mp he).2, rfl⟩⟩
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    rw [this.2]
    rfl
  · intro e _
    rfl
  · intro j hj
    obtain ⟨e, c', rfl⟩ : ∃ (e : Fin E) (c' : Fin C), j = ix2 e c' := ⟨j 0, j 1, eq_ix2 j⟩
    have := (resultIdx?_row wf idx e c' i c).mp (Finset.mem_filter.mp hj).2
    rw [this.2]
    rfl

/-- The same for a printed `stablehlo.scatter` with an `add` body whose dimension numbers are these lists. -/
theorem scatterAdd_rows_apply {φ : FTy} (d : ScatterDims ⟨2, ![N, C]⟩ ⟨2, ![E, 1]⟩ ⟨2, ![E, C]⟩)
    (hd : d = rowDims N C E wf) (x : FVec Ideal ⟨2, ![N, C]⟩ φ) (upd : FVec Ideal ⟨2, ![E, C]⟩ φ)
    (i : Fin N) (c : Fin C) :
    Host.scatterAdd d x idx upd (ix2 i c) = x (ix2 i c) + ∑ e ∈ landing idx i.val, upd (ix2 e c) := by
  subst hd
  exact hostScatterAdd_rows_apply wf idx x upd i c

end Landing

end Cert.LibScatterAddRows

end
-- ==== Proof.LibScatterAddVec.lean ====
/-
  An accumulating scatter `x.at[idx].add(u)` of a vector `x : [N]` on the host, on the extended reals, read at an
  index.

  Summing the entries of `u : [E]` into the entries of `x` that an integer vector `idx` names lowers to a scatter
  whose body is an addition, with one inserted window axis (the vector's only axis), no update window axis (each
  scatter index carries one scalar) and a trailing index-vector axis of extent one on the scatter indices. Update
  entry `e` lands on entry `i` of the vector exactly when the scatter index `idx (e, 0)`, read as a signed integer,
  is `i`; an index outside `[0, N)` lands nowhere and its entry is dropped. So entry `i` of the result is

      x i + ∑ over the e with idx (e, 0) = i of u e,

  the sum running over the same set of positions as for a table of rows scattered by the same indices.
  The statement takes the dimension numbers as a record built from the literal lists; a printed record with the same
  lists is equal to it by `rfl`.
-/
import Idealize.ShloMosaic.PureOps.Ideal.Laws
import Idealize.ShloMosaic.Lib.ValueIdx
import proofs.«167311_j59150289600863_2_alg».proof.Proof.LibScatterAddRows

noncomputable section

open scoped BigOperators

namespace Cert.LibScatterAddVec

open Idealize.ShloMosaic Idealize.ShloMosaic.ValueIdx
open Cert.LibScatterAddRows (landing)

/-- The dimension numbers of `x.at[idx].add(u)` for a vector `[N]`, scatter indices `[E, 1]`, updates `[E]`. -/
abbrev vecDims (N E : ℕ) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Coordinates
variable {N E w : ℕ} (wf : ScatterDims.WF ⟨1, ![N]⟩ ⟨2, ![E, 1]⟩ ⟨1, ![E]⟩ [] [0] [0] 1)
  (idx : IVec ⟨2, ![E, 1]⟩ w) (e : Fin E)

/-- On the vector's axis the window starts at the scatter index `idx (e, 0)`, read signed. -/
theorem start_zero : (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem zero_not_mem_sKept : (0 : Fin 1) ∉ (vecDims N E wf).sKept := by
  simp [ScatterDims.sKept, Shape.kept]

/-- The vector's axis is inserted: the window coordinate there is zero. -/
theorem window_zero : (vecDims N E wf).window (ix1 e) 0 = 0 := by
  unfold ScatterDims.window
  rw [dif_neg (zero_not_mem_sKept wf)]

end Coordinates

section Landing
variable {N E w : ℕ} (wf : ScatterDims.WF ⟨1, ![N]⟩ ⟨2, ![E, 1]⟩ ⟨1, ![E]⟩ [] [0] [0] 1)
  (idx : IVec ⟨2, ![E, 1]⟩ w)

/-- Update entry `e` lands on entry `i` of the vector exactly when its scatter index, read signed, is `i`. -/
theorem resultIdx?_vec (e : Fin E) (i : Fin N) :
    (vecDims N E wf).resultIdx? (ix1 e) idx = some (ix1 i) ↔ (idx (ix2 e (0 : Fin 1))).toInt = (i.val : ℤ) := by
  unfold ScatterDims.resultIdx?
  split
  · rename_i h
    rw [Option.some.injEq]
    have hr := h 0
    rw [start_zero, window_zero] at hr
    constructor
    · intro hf
      have h0 : ((vecDims N E wf).start (ix1 e) idx 0 + ((vecDims N E wf).window (ix1 e) 0 : ℕ)).toNat = i.val :=
        congrArg (fun f => (f 0).val) hf
      rw [start_zero, window_zero] at h0
      omega
    · intro h0
      funext a
      refine Fin.ext ?_
      match a with
      | ⟨0, _⟩ =>
        show ((vecDims N E wf).start (ix1 e) idx 0 + ((vecDims N E wf).window (ix1 e) 0 : ℕ)).toNat = i.val
        rw [start_zero, window_zero]; omega
  · rename_i h
    constructor
    · intro hf; exact absurd hf (by simp)
    · intro h0
      exfalso
      apply h
      intro a
      match a with
      | ⟨0, _⟩ =>
        show 0 ≤ (vecDims N E wf).start (ix1 e) idx 0 + ((vecDims N E wf).window (ix1 e) 0 : ℕ)
          ∧ (vecDims N E wf).start (ix1 e) idx 0 + ((vecDims N E wf).window (ix1 e) 0 : ℕ) < (N : ℤ)
        rw [start_zero, window_zero, h0]
        have := i.isLt
        constructor <;> omega

/-- THE ACCUMULATING SCATTER READ AT `i`: the vector's entry plus the updates summed over the positions whose
    scatter index is `i`. -/
theorem hostScatterAdd_vec_apply (x : (⟨1, ![N]⟩ : Shape).Idx → EReal) (upd : (⟨1, ![E]⟩ : Shape).Idx → EReal)
    (i : Fin N) :
    Ideal.hostScatterAdd (vecDims N E wf) x idx upd (ix1 i) = x (ix1 i) + ∑ e ∈ landing idx i.val, upd (ix1 e) := by
  unfold Ideal.hostScatterAdd
  congr 1
  refine Finset.sum_nbij' (fun j => (j 0 : Fin E)) (fun e => ix1 e) ?_ ?_ ?_ ?_ ?_
  · intro j hj
    obtain ⟨e, rfl⟩ : ∃ e : Fin E, j = ix1 e := ⟨j 0, eq_ix1 j⟩
    exact Finset.mem_filter.mpr ⟨Finset.mem_univ _, (resultIdx?_vec wf idx e i).mp (Finset.mem_filter.mp hj).2⟩
  · intro e he
    exact Finset.mem_filter.mpr ⟨Finset.mem_univ _, (resultIdx?_vec wf idx e i).mpr (Finset.mem_filter.mp he).2⟩
  · intro j _
    exact (eq_ix1 j).symm
  · intro e _
    rfl
  · intro j _
    exact congrArg upd (eq_ix1 j)

end Landing

/-- The same for a printed `stablehlo.scatter` with an `add` body whose dimension numbers are these lists. -/
theorem scatterAdd_vec_apply {N E w : ℕ} {φ : FTy}
    (wf : ScatterDims.WF ⟨1, ![N]⟩ ⟨2, ![E, 1]⟩ ⟨1, ![E]⟩ [] [0] [0] 1)
    (d : ScatterDims ⟨1, ![N]⟩ ⟨2, ![E, 1]⟩ ⟨1, ![E]⟩) (hd : d = vecDims N E wf)
    (idx : IVec ⟨2, ![E, 1]⟩ w) (x : FVec Ideal ⟨1, ![N]⟩ φ) (upd : FVec Ideal ⟨1, ![E]⟩ φ) (i : Fin N) :
    Host.scatterAdd d x idx upd (ix1 i) = x (ix1 i) + ∑ e ∈ landing idx i.val, upd (ix1 e) := by
  subst hd
  exact hostScatterAdd_vec_apply wf idx x upd i

end Cert.LibScatterAddVec

end
-- ==== Proof.LibGatherRows.lean ====
/-
  A row gather `x[idx]` of a table `x : [N, D]` on the host, read at an index.

  `x[idx]` for an integer array `idx` lowers to a gather with one collapsed axis (the table's rows), one offset axis (the
  table's columns, a whole row of `D` entries per start index) and a trailing index-vector axis of extent one on the
  start indices. Result entry `(r, d)` — or `(a, b, d)` for a matrix of indices — is the table's entry in column `d` of
  the row the start index names: the start index is read as a signed integer and clamped into `[0, N − 1]`, so every
  integer names a row. Both statements take the dimension numbers as a record built from the literal lists; a printed
  record with the same lists is equal to it by `rfl`.
-/
import Idealize.ShloMosaic.Lib.ValueIdx

noncomputable section

namespace Cert.LibGatherRows

open Idealize.ShloMosaic Idealize.ShloMosaic.ValueIdx

variable {α : Type}

/-- The row a start index names in a table of `N` rows: its signed value clamped into `[0, N − 1]`. -/
def clampRow {w : ℕ} (N : ℕ) (hN : 0 < N) (v : BitVec w) : Fin N := ⟨min v.toInt.toNat (N - 1), by omega⟩

theorem one_not_mem_zero : (1 : Fin 2) ∉ ([0] : List (Fin 2)) :=
  fun h => absurd (List.mem_singleton.mp h) (by decide)

/-! ## A vector of indices: table `[N, D]`, start indices `[R, 1]`, result `[R, D]` -/

/-- The dimension numbers of `x[idx]` for a table `[N, D]` and start indices `[R, 1]`. -/
abbrev rowDims2 (N D R : ℕ)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

section Rows2
variable {N D R w : ℕ}
  (wf : GatherDims.WF ⟨2, ![N, D]⟩ ⟨2, ![R, 1]⟩ ⟨2, ![R, D]⟩ [1] [0] [] [0] [] 1 ![1, D])
  (idx : IVec ⟨2, ![R, 1]⟩ w) (r : Fin R) (d : Fin D)

/-- On the table's row axis the operand coordinate is the clamped start index: no batching, and the axis is collapsed. -/
theorem rows2_axis0 :
    (rowDims2 N D R wf).start (ix2 r d) idx 0 + (rowDims2 N D R wf).batchCoord (ix2 r d) 0
      + (rowDims2 N D R wf).offCoord (ix2 r d) 0 = min (idx (ix2 r (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims2 N D R wf).startIndexMap from List.mem_singleton.mpr rfl)]
  have hsi : (rowDims2 N D R wf).siIdx (ix2 r d) ⟨List.idxOf (0 : Fin 2) (rowDims2 N D R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis it is the result's column: the start index map does not name the axis, and the axis is
    the one offset axis. -/
theorem rows2_axis1 :
    (rowDims2 N D R wf).start (ix2 r d) idx 1 + (rowDims2 N D R wf).batchCoord (ix2 r d) 1
      + (rowDims2 N D R wf).offCoord (ix2 r d) 1 = d.val := by
  rw [GatherDims.batchCoord_eq_zero _ _ _ List.not_mem_nil, Nat.add_zero]
  unfold GatherDims.start
  rw [dif_neg (show (1 : Fin 2) ∉ (rowDims2 N D R wf).startIndexMap from one_not_mem_zero), Nat.zero_add]
  unfold GatherDims.offCoord
  rw [dif_pos ((GatherDims.mem_sKept _ _).mpr ⟨one_not_mem_zero, List.not_mem_nil⟩)]
  rfl

end Rows2

/-- Entry `(r, d)` of the gather is the table's entry `(row, d)`, `row` the clamped start index `idx (r, 0)`. -/
theorem gather_rows2_apply {N D R w : ℕ} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (r : Fin R) (d : Fin D) :
    Host.gather (rowDims2 N D R wf) x idx (ix2 r d) = x (ix2 (clampRow N hN (idx (ix2 r (0 : Fin 1)))) d) := by
  unfold Host.gather
  congr 1
  funext a
  refine Fin.ext ?_
  match a with
  | ⟨0, _⟩ => exact rows2_axis0 wf idx r d
  | ⟨1, _⟩ => exact rows2_axis1 wf idx r d

/-! ## A matrix of indices: table `[N, D]`, start indices `[A, B, 1]`, result `[A, B, D]` -/

/-- The dimension numbers of `x[idx]` for a table `[N, D]` and start indices `[A, B, 1]`. -/
abbrev rowDims3 (N D A B : ℕ)
    (wf : GatherDims.WF ⟨2, ![N, D]⟩ ⟨3, ![A, B, 1]⟩ ⟨3, ![A, B, D]⟩ [2] [0] [] [0] [] 2 ![1, D]) :
    GatherDims ⟨2, ![N, D]⟩ ⟨3, ![A, B, 1]⟩ ⟨3, ![A, B, D]⟩ where
  offsetDims := [2]
  collapsedSliceDims := [0]
  operandBatchingDims := []
  startIndicesBatchingDims := []
  startIndexMap := [0]
  indexVectorDim := 2
  sliceSizes := ![1, D]
  wf := wf

section Rows3
variable {N D A B w : ℕ}
  (wf : GatherDims.WF ⟨2, ![N, D]⟩ ⟨3, ![A, B, 1]⟩ ⟨3, ![A, B, D]⟩ [2] [0] [] [0] [] 2 ![1, D])
  (idx : IVec ⟨3, ![A, B, 1]⟩ w) (a : Fin A) (b : Fin B) (d : Fin D)

/-- On the table's row axis the operand coordinate is the clamped start index. -/
theorem rows3_axis0 :
    (rowDims3 N D A B wf).start (ix3 a b d) idx 0 + (rowDims3 N D A B wf).batchCoord (ix3 a b d) 0
      + (rowDims3 N D A B wf).offCoord (ix3 a b d) 0 = min (idx (ix3 a b (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 2) ∈ (rowDims3 N D A B wf).startIndexMap from List.mem_singleton.mpr rfl)]
  have hsi : (rowDims3 N D A B wf).siIdx (ix3 a b d) ⟨List.idxOf (0 : Fin 2) (rowDims3 N D A B wf).startIndexMap,
      List.idxOf_lt_length_iff.2 (List.mem_singleton.mpr rfl)⟩ = ix3 a b (0 : Fin 1) := by
    funext c; refine Fin.ext ?_
    match c with
    | ⟨0, _⟩ => rfl
    | ⟨1, _⟩ => rfl
    | ⟨2, _⟩ => rfl
  rw [hsi]
  rfl

/-- On the table's column axis it is the result's column. -/
theorem rows3_axis1 :
    (rowDims3 N D A B wf).start (ix3 a b d) idx 1 + (rowDims3 N D A B wf).batchCoord (ix3 a b d) 1
      + (rowDims3 N D A B wf).offCoord (ix3 a b d) 1 = d.val := by
  rw [GatherDims.batchCoord_eq_zero _ _ _ List.not_mem_nil, Nat.add_zero]
  unfold GatherDims.start
  rw [dif_neg (show (1 : Fin 2) ∉ (rowDims3 N D A B wf).startIndexMap from one_not_mem_zero), Nat.zero_add]
  unfold GatherDims.offCoord
  rw [dif_pos ((GatherDims.mem_sKept _ _).mpr ⟨one_not_mem_zero, List.not_mem_nil⟩)]
  rfl

end Rows3

/-- Entry `(a, b, d)` of the gather is the table's entry `(row, d)`, `row` the clamped start index `idx (a, b, 0)`. -/
theorem gather_rows3_apply {N D A B w : ℕ} (hN : 0 < N)
    (wf : GatherDims.WF ⟨2, ![N, D]⟩ ⟨3, ![A, B, 1]⟩ ⟨3, ![A, B, D]⟩ [2] [0] [] [0] [] 2 ![1, D])
    (x : (⟨2, ![N, D]⟩ : Shape).Idx → α) (idx : IVec ⟨3, ![A, B, 1]⟩ w) (a : Fin A) (b : Fin B) (d : Fin D) :
    Host.gather (rowDims3 N D A B wf) x idx (ix3 a b d) = x (ix2 (clampRow N hN (idx (ix3 a b (0 : Fin 1)))) d) := by
  unfold Host.gather
  congr 1
  funext ax
  refine Fin.ext ?_
  match ax with
  | ⟨0, _⟩ => exact rows3_axis0 wf idx a b d
  | ⟨1, _⟩ => exact rows3_axis1 wf idx a b d

end Cert.LibGatherRows

end
-- ==== Proof.LibGatherVec.lean ====
/-
  A gather `x[idx]` of a vector `x : [N]` on the host, read at an index.

  `x[idx]` for a vector `x` and an integer array `idx` lowers to a gather with one collapsed axis (the vector's only
  axis), no offset axis (each start index picks one scalar) and a trailing index-vector axis of extent one on the
  start indices. Result entry `r` is the vector's entry at the position the start index names: the start index is
  read as a signed integer and clamped into `[0, N − 1]`, so every integer names a position. The statement takes the
  dimension numbers as a record built from the literal lists; a printed record with the same lists is equal to it by
  `rfl`.
-/
import Idealize.ShloMosaic.Lib.ValueIdx
import proofs.«167311_j59150289600863_2_alg».proof.Proof.LibGatherRows

noncomputable section

namespace Cert.LibGatherVec

open Idealize.ShloMosaic Idealize.ShloMosaic.ValueIdx
open Cert.LibGatherRows (clampRow)

variable {α : Type}

/-- The dimension numbers of `x[idx]` for a vector `[N]` and start indices `[R, 1]`, result `[R]`. -/
abbrev vecDims (N R : ℕ)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

section Vec
variable {N R w : ℕ}
  (wf : GatherDims.WF ⟨1, ![N]⟩ ⟨2, ![R, 1]⟩ ⟨1, ![R]⟩ [] [0] [] [0] [] 1 ![1])
  (idx : IVec ⟨2, ![R, 1]⟩ w) (r : Fin R)

/-- On the vector's axis the operand coordinate is the clamped start index: no batching, and the axis is collapsed. -/
theorem vec_axis0 :
    (vecDims N R wf).start (ix1 r) idx 0 + (vecDims N R wf).batchCoord (ix1 r) 0
      + (vecDims N R wf).offCoord (ix1 r) 0 = min (idx (ix2 r (0 : Fin 1))).toInt.toNat (N - 1) := by
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos (show (0 : Fin 1) ∈ (vecDims N R wf).startIndexMap from List.mem_singleton.mpr rfl)]
  have hsi : (vecDims N R wf).siIdx (ix1 r) ⟨List.idxOf (0 : Fin 1) (vecDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Vec

/-- Entry `r` of the gather is the vector's entry at the clamped start index `idx (r, 0)`. -/
theorem gather_vec_apply {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r) = x (ix1 (clampRow N hN (idx (ix2 r (0 : Fin 1))))) := by
  unfold Host.gather
  congr 1
  funext a
  refine Fin.ext ?_
  match a with
  | ⟨0, _⟩ => exact vec_axis0 wf idx r

end Cert.LibGatherVec

end
-- ==== Proof.LibConcatVec.lean ====
/-
  Two host operations on vectors read at an index: the concatenation of two vectors, and the index vector
  `0, 1, …, N − 1`.

  The concatenation of `a : [A]` and `b : [B]` along their only axis is a vector of `A + B` entries: at a position
  `p < A` it reads `a p`, and at a position `p = A + j` with `j < B` it reads `b j`. The statements take the result's
  extent as a separate number `C` (the side condition of the concatenation says `A + B = C`) and a position `p : Fin C`
  together with the position in the piece and the equation that relates the two, so that at literal extents the
  equation is closed by `rfl` or by linear arithmetic.

  The index vector of `N` entries of 32-bit words holds at position `j` the word of `j`. For `N ≤ 2 ^ 31` that word,
  read as a signed integer, is `j` itself; in particular it is not negative, so a signed comparison "less than zero"
  fails on it, and clamping it into `[0, N − 1]` leaves it where it is.
-/
import Idealize.ShloMosaic.Lib.ValueIdx
import Idealize.ShloMosaic.Lib.Affine
import Idealize.ShloMosaic.Lib.Pipeline.Value
import proofs.«167311_j59150289600863_2_alg».proof.Proof.LibGatherRows

noncomputable section

namespace Cert.LibConcatVec

open Idealize.ShloMosaic Idealize.ShloMosaic.ValueIdx
open Cert.LibGatherRows (clampRow)

/-! ## The concatenation of two vectors -/

section Concat
variable {α : Type} {A B C : ℕ}
  (h : Shape.Concatenates [(⟨1, ![A]⟩ : Shape), (⟨1, ![B]⟩ : Shape)] ⟨1, ![C]⟩ 0)
  (a : (⟨1, ![A]⟩ : Shape).Idx → α) (b : (⟨1, ![B]⟩ : Shape).Idx → α)

include h in
/-- The side condition of the concatenation: the result's extent is the sum of the pieces'. -/
theorem concat_vec_size : A + B = C := by
  have e := h.2.2
  simpa using e

/-- At a position `p` that is a position `k` of the first vector, the concatenation reads the first vector at `k`. -/
theorem concat_vec_left (p : Fin C) (k : Fin A) (hp : p.val = k.val) :
    concatenate ⟨1, ![C]⟩ 0 [⟨⟨1, ![A]⟩, a⟩, ⟨⟨1, ![B]⟩, b⟩] h (ix1 p) = a (ix1 k) := by
  refine concatenate_pair_apply_left 0 a b h (ix1 p) rfl (ix1 k) ?_
  intro c
  match c with
  | ⟨0, _⟩ => exact hp.symm

/-- At a position `p = A + j`, `j` a position of the second vector, the concatenation reads the second vector at
    `j`. -/
theorem concat_vec_right (p : Fin C) (j : Fin B) (hp : p.val = A + j.val) :
    concatenate ⟨1, ![C]⟩ 0 [⟨⟨1, ![A]⟩, a⟩, ⟨⟨1, ![B]⟩, b⟩] h (ix1 p) = b (ix1 j) := by
  refine concatenate_pair_apply_right 0 a b h (ix1 p) rfl rfl (ix1 j) ?_ ?_
  · intro c hc
    match c with
    | ⟨0, _⟩ => exact absurd rfl hc
  · show j.val + A = p.val
    omega

/-- The concatenation at any position: the first vector below `A`, the second vector, shifted by `A`, from `A` on. -/
theorem concat_vec_apply (p : Fin C) :
    concatenate ⟨1, ![C]⟩ 0 [⟨⟨1, ![A]⟩, a⟩, ⟨⟨1, ![B]⟩, b⟩] h (ix1 p)
      = if hlt : p.val < A then a (ix1 ⟨p.val, hlt⟩)
        else b (ix1 ⟨p.val - A, by have := concat_vec_size h; have := p.isLt; omega⟩) := by
  split
  · next hlt => exact concat_vec_left h a b p ⟨p.val, hlt⟩ rfl
  · next hge =>
    exact concat_vec_right h a b p ⟨p.val - A, by have := concat_vec_size h; have := p.isLt; omega⟩
      (by show p.val = A + (p.val - A); omega)

end Concat

/-! ## The index vector `0, 1, …, N − 1` of 32-bit words -/

section Iota
variable {N : ℕ}

/-- Entry `j` of the index vector is the 32-bit word of `j`. -/
theorem iota_vec_apply (j : Fin N) : iotaInDim ⟨1, ![N]⟩ 32 0 (ix1 j) = BitVec.ofNat 32 j.val := rfl

/-- For at most `2 ^ 31` entries the word of `j`, read signed, is `j`. -/
theorem ofNat_toInt (hN : N ≤ 2 ^ 31) (j : Fin N) : (BitVec.ofNat 32 j.val).toInt = (j.val : ℤ) := by
  have hj : j.val < 2 ^ 31 := lt_of_lt_of_le j.isLt hN
  have hmod : j.val % 2 ^ 32 = j.val := Nat.mod_eq_of_lt (by omega)
  rw [BitVec.toInt_eq_toNat_of_lt (by rw [BitVec.toNat_ofNat, hmod]; omega), BitVec.toNat_ofNat, hmod]

/-- For at most `2 ^ 31` entries, entry `j` of the index vector read signed is `j`. -/
theorem iota_vec_toInt (hN : N ≤ 2 ^ 31) (j : Fin N) :
    (iotaInDim ⟨1, ![N]⟩ 32 0 (ix1 j)).toInt = (j.val : ℤ) := by
  rw [iota_vec_apply, ofNat_toInt hN j]

/-- A word whose signed value is a natural number is not signed-less-than zero: the comparison's word is not one. -/
theorem not_slt_zero_of_toInt {v : BitVec 32} {n : ℕ} (hv : v.toInt = (n : ℤ)) : IntOp.cmpi .slt v 0#32 ≠ 1#1 := by
  rw [Ne, IntOp.cmpi_slt, hv, show (0#32 : BitVec 32).toInt = 0 from rfl]
  omega

/-- The same as the comparison's word being zero. -/
theorem slt_zero_of_toInt {v : BitVec 32} {n : ℕ} (hv : v.toInt = (n : ℤ)) : IntOp.cmpi .slt v 0#32 = 0#1 := by
  have hne := not_slt_zero_of_toInt hv
  generalize IntOp.cmpi .slt v 0#32 = c at hne ⊢
  revert c; decide

/-- Entry `j` of the index vector is not signed-less-than zero. -/
theorem iota_vec_not_slt_zero (hN : N ≤ 2 ^ 31) (j : Fin N) :
    IntOp.cmpi .slt (iotaInDim ⟨1, ![N]⟩ 32 0 (ix1 j)) 0#32 ≠ 1#1 :=
  not_slt_zero_of_toInt (iota_vec_toInt hN j)

/-- The same as the comparison's word being zero. -/
theorem iota_vec_slt_zero (hN : N ≤ 2 ^ 31) (j : Fin N) :
    IntOp.cmpi .slt (iotaInDim ⟨1, ![N]⟩ 32 0 (ix1 j)) 0#32 = 0#1 :=
  slt_zero_of_toInt (iota_vec_toInt hN j)

/-- A word whose signed value is a position `j < N` is clamped into `[0, N − 1]` to `j` itself. -/
theorem clampRow_of_toInt {w : ℕ} (hN : 0 < N) (v : BitVec w) (j : Fin N) (hv : v.toInt = (j.val : ℤ)) :
    clampRow N hN v = j := by
  refine Fin.ext ?_
  show min v.toInt.toNat (N - 1) = j.val
  have := j.isLt
  rw [hv]
  omega

end Iota

end Cert.LibConcatVec

end
-- ==== Proof.LibSumSwap.lean ====
/-
  Two sums of products of REAL numbers, read on the extended reals, regrouped.

  For finite index types `ι`, `κ` and real families `a : ι → ℝ`, `x : ι → κ → ℝ`, `w : κ → ℝ`,

    ∑ d, (∑ k, a k · x k d) · w d  =  ∑ k, a k · (∑ d, x k d · w d)

  as extended reals: every term is the image of a real, the image of a finite real sum is the sum of the images, and on
  the reals the identity is distributivity and an exchange of the two sums. (On the extended reals themselves the
  identity fails at infinities: the hypothesis that every factor is real is what makes it true.)
-/
import Mathlib.Data.EReal.Basic
import Mathlib.Data.EReal.Operations
import Mathlib.Algebra.BigOperators.Ring.Finset
import Mathlib.Algebra.BigOperators.Group.Finset.Sigma

open scoped BigOperators

namespace SumSwap

/-- The image of a finite sum of reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A product of two matrix-like sums of reals regrouped, on the extended reals. -/
theorem sum_mul_sum_swap {ι κ : Type*} [Fintype ι] [Fintype κ] (a : ι → ℝ) (x : ι → κ → ℝ) (w : κ → ℝ) :
    (∑ d, (∑ k, (a k : EReal) * (x k d : EReal)) * (w d : EReal))
      = ∑ k, (a k : EReal) * ∑ d, (x k d : EReal) * (w d : EReal) := by
  have hl : ∀ d, (∑ k, (a k : EReal) * (x k d : EReal)) * (w d : EReal) = (((∑ k, a k * x k d) * w d : ℝ) : EReal) := fun d => by
    rw [EReal.coe_mul, coe_sum]; simp only [EReal.coe_mul]
  have hr : ∀ k, (a k : EReal) * ∑ d, (x k d : EReal) * (w d : EReal) = ((a k * ∑ d, x k d * w d : ℝ) : EReal) := fun k => by
    rw [EReal.coe_mul, coe_sum]; simp only [EReal.coe_mul]
  simp only [hl, hr]
  rw [← coe_sum, ← coe_sum]
  congr 1
  simp only [Finset.sum_mul, Finset.mul_sum]
  rw [Finset.sum_comm]
  exact Finset.sum_congr rfl fun k _ => Finset.sum_congr rfl fun d _ => mul_assoc _ _ _

end SumSwap
-- ==== Proof.LibMeanProj.lean ====
/-
  Mean aggregation commutes with a linear projection, for real data read on the extended reals.

  Let `L` be a finite set of neighbours, `g e k` the `k`-th real feature of neighbour `e`, `w k` a real weight and
  `d ≠ 0` a real count. Projecting every neighbour first and averaging the projections,

      (0 + ∑ e ∈ L, ∑ k, g e k · w k) / d,

  gives what averaging every feature first and projecting the averages gives,

      ∑ k, ((0 + ∑ e ∈ L, g e k) / d) · w k.

  On the reals this is distributivity and an exchange of the two sums. On the extended reals it needs every factor to be
  real (at an infinity distributivity fails), which is why the statement is about images of reals. The division is the
  extended reals' own, `Ideal.div`, which by a nonzero real is the product with its reciprocal.

  Also here: the closure of "is the image of a real" under the operations a dense layer uses.
-/
import Idealize.ShloMosaic.PureOps.Ideal
import proofs.«167311_j59150289600863_2_alg».proof.Proof.LibSumSwap

noncomputable section

open scoped BigOperators

namespace Cert.LibMeanProj

open Idealize.ShloMosaic

/-- A real divided by a nonzero real, on the extended reals, is the image of the real quotient. -/
theorem div_coe_coe (a d : ℝ) (hd : d ≠ 0) : Ideal.div (a : EReal) (d : EReal) = ((a / d : ℝ) : EReal) := by
  rw [Ideal.div_coe hd, ← EReal.coe_mul, mul_one_div]

/-- Projecting then averaging is averaging then projecting. -/
theorem mean_proj {ι κ : Type*} [Fintype κ] (L : Finset ι) (g : ι → κ → ℝ) (w : κ → ℝ) (d : ℝ) (hd : d ≠ 0) :
    Ideal.div (0 + ∑ e ∈ L, ∑ k, (g e k : EReal) * (w k : EReal)) (d : EReal)
      = ∑ k, Ideal.div (0 + ∑ e ∈ L, (g e k : EReal)) (d : EReal) * (w k : EReal) := by
  have hl : (∑ e ∈ L, ∑ k, (g e k : EReal) * (w k : EReal)) = ((∑ e ∈ L, ∑ k, g e k * w k : ℝ) : EReal) := by
    rw [SumSwap.coe_sum]
    refine Finset.sum_congr rfl fun e _ => ?_
    rw [SumSwap.coe_sum]
    exact Finset.sum_congr rfl fun k _ => (EReal.coe_mul _ _).symm
  have hk : ∀ k, Ideal.div (0 + ∑ e ∈ L, (g e k : EReal)) (d : EReal) * (w k : EReal)
      = (((∑ e ∈ L, g e k) / d * w k : ℝ) : EReal) := fun k => by
    rw [zero_add, ← SumSwap.coe_sum, div_coe_coe _ _ hd, ← EReal.coe_mul]
  rw [zero_add, hl, div_coe_coe _ _ hd]
  simp only [hk]
  rw [← SumSwap.coe_sum]
  congr 1
  rw [Finset.sum_comm, Finset.sum_div]
  refine Finset.sum_congr rfl fun k _ => ?_
  rw [← Finset.sum_mul, mul_div_right_comm]

/-! ## Images of reals -/

/-- An extended real that is the image of a real number. -/
def IsReal (v : EReal) : Prop := ∃ r : ℝ, v = (r : EReal)

theorem isReal_coe (r : ℝ) : IsReal (r : EReal) := ⟨r, rfl⟩
theorem isReal_zero : IsReal 0 := ⟨0, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩

theorem IsReal.mul {a b : EReal} (ha : IsReal a) (hb : IsReal b) : IsReal (a * b) := by
  obtain ⟨x, rfl⟩ := ha; obtain ⟨y, rfl⟩ := hb; exact ⟨x * y, (EReal.coe_mul x y).symm⟩

theorem IsReal.max {a b : EReal} (ha : IsReal a) (hb : IsReal b) : IsReal (max a b) := by
  obtain ⟨x, rfl⟩ := ha; obtain ⟨y, rfl⟩ := hb
  rcases le_total x y with h | h
  · exact ⟨y, max_eq_right (EReal.coe_le_coe_iff.mpr h)⟩
  · exact ⟨x, max_eq_left (EReal.coe_le_coe_iff.mpr h)⟩

theorem IsReal.sum {ι : Type*} (s : Finset ι) (f : ι → EReal) (hf : ∀ i ∈ s, IsReal (f i)) : IsReal (∑ i ∈ s, f i) := by
  classical
  induction s using Finset.induction_on with
  | empty => exact ⟨0, by simp⟩
  | insert i s hi ih =>
    rw [Finset.sum_insert hi]
    exact (hf i (Finset.mem_insert_self i s)).add (ih fun j hj => hf j (Finset.mem_insert_of_mem hj))

theorem IsReal.div {a : EReal} (ha : IsReal a) (d : ℝ) (hd : d ≠ 0) : IsReal (Ideal.div a (d : EReal)) := by
  obtain ⟨x, rfl⟩ := ha; exact ⟨x / d, div_coe_coe x d hd⟩

end Cert.LibMeanProj

end
-- ==== Proof.LibGatheredSums.lean ====
/-
  Three small tools for sums of gathered rows on the extended reals.

  * A host gather of rows of a table `[N, D]`, or of entries of a vector `[N]`, by a one-column table of start indices,
    read at an index through ANY record of dimension numbers that equals the row-gather (vector-gather) record: entry
    `(r, q)` is the table's entry `(row, q)`, `row` the start index read signed and clamped into `[0, N − 1]`.
  * A vector made a column by one `broadcast_in_dim` and the column spread over `b` columns by a second one reads, at
    `(p, q)`, the vector at `p`.
  * A real factor moves across a finite sum of products of reals: `(0 + ∑ h·z)·y = 0 + ∑ h·(z·y)`. On the extended reals
    this needs every term real — `⊤·0` and `⊤ + ⊥` are where the law fails — and then it is the law of the real numbers.
-/
import proofs.«167311_j59150289600863_2_alg».proof.Proof.LibGatherRows
import proofs.«167311_j59150289600863_2_alg».proof.Proof.LibGatherVec
import proofs.«167311_j59150289600863_2_alg».proof.Proof.LibMeanProj
import Idealize.ShloMosaic.Lib.Pipeline.Value
import Idealize.ShloMosaic.Lib.ValueIdx

noncomputable section

open scoped BigOperators

namespace Cert.LibGatheredSums

open Idealize.ShloMosaic Idealize.ShloMosaic.ValueIdx
open Cert.LibGatherRows (clampRow)
open Cert.LibMeanProj (IsReal)

/-- A row gather through any record with the row-gather dimension numbers, at `(r, q)`. -/
theorem gather_rows_at {α : Type} {N D R w : ℕ} (g : GatherDims ⟨2, ![N, D]⟩ ⟨2, ![R, 1]⟩ ⟨2, ![R, D]⟩)
    {wf : GatherDims.WF ⟨2, ![N, D]⟩ ⟨2, ![R, 1]⟩ ⟨2, ![R, D]⟩ [1] [0] [] [0] [] 1 ![1, D]}
    (hg : g = Cert.LibGatherRows.rowDims2 N D R wf) (hN : 0 < N) (x : (⟨2, ![N, D]⟩ : Shape).Idx → α) (idx : IVec ⟨2, ![R, 1]⟩ w)
    (r : Fin R) (q : Fin D) : Host.gather g x idx (ix2 r q) = x (ix2 (clampRow N hN (idx (ix2 r (0 : Fin 1)))) q) := by
  subst hg
  exact Cert.LibGatherRows.gather_rows2_apply hN wf x idx r q

/-- A vector gather through any record with the vector-gather dimension numbers, at `r`. -/
theorem gather_vec_at {α : Type} {N R w : ℕ} (g : GatherDims ⟨1, ![N]⟩ ⟨2, ![R, 1]⟩ ⟨1, ![R]⟩)
    {wf : GatherDims.WF ⟨1, ![N]⟩ ⟨2, ![R, 1]⟩ ⟨1, ![R]⟩ [] [0] [] [0] [] 1 ![1]}
    (hg : g = Cert.LibGatherVec.vecDims N R wf) (hN : 0 < N) (x : (⟨1, ![N]⟩ : Shape).Idx → α) (idx : IVec ⟨2, ![R, 1]⟩ w)
    (r : Fin R) : Host.gather g x idx (ix1 r) = x (ix1 (clampRow N hN (idx (ix2 r (0 : Fin 1))))) := by
  subst hg
  exact Cert.LibGatherVec.gather_vec_apply hN wf x idx r

/-- A vector made a column and the column spread over `b` columns reads, at `(p, q)`, the vector at `p`. -/
theorem spread_apply {α : Type} {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (q : Fin b) :
    broadcastInDim ⟨2, ![a, b]⟩ ![0, 1] h2 (broadcastInDim ⟨2, ![a, 1]⟩ ![0] h1 v) (ix2 p q) = v (ix1 p) := by
  have e2 : broadcastInDim ⟨2, ![a, b]⟩ ![0, 1] h2 (broadcastInDim ⟨2, ![a, 1]⟩ ![0] h1 v) (ix2 p q)
      = broadcastInDim ⟨2, ![a, 1]⟩ ![0] h1 v (ix2 p (0 : Fin 1)) := by
    refine broadcastInDim_apply ![0, 1] h2 _ (ix2 p q) (ix2 p (0 : Fin 1)) fun ax => ?_
    match ax with
    | ⟨0, _⟩ =>
      show p.val = if a = 1 then 0 else p.val
      split
      · have := p.isLt; omega
      · rfl
    | ⟨1, _⟩ => rfl
  have e1 : broadcastInDim ⟨2, ![a, 1]⟩ ![0] h1 v (ix2 p (0 : Fin 1)) = v (ix1 p) := by
    refine broadcastInDim_apply ![0] h1 v (ix2 p (0 : Fin 1)) (ix1 p) fun ax => ?_
    match ax with
    | ⟨0, _⟩ =>
      show p.val = if a = 1 then 0 else p.val
      split
      · have := p.isLt; omega
      · rfl
  rw [e2, e1]

/-- A real factor moves across a finite sum of products of reals. -/
theorem factor_out {ι : Type*} (L : Finset ι) (h z : ι → EReal) (y : EReal)
    (hh : ∀ e ∈ L, IsReal (h e)) (hz : ∀ e ∈ L, IsReal (z e)) (hy : IsReal y) :
    ((0 : EReal) + ∑ e ∈ L, h e * z e) * y = (0 : EReal) + ∑ e ∈ L, h e * (z e * y) := by
  classical
  obtain ⟨yr, rfl⟩ := hy
  rw [zero_add, zero_add]
  have hsum : ∀ (M : Finset ι), M ⊆ L → (∑ e ∈ M, h e * z e) * (yr : EReal) = ∑ e ∈ M, h e * (z e * (yr : EReal)) := by
    intro M
    induction M using Finset.induction_on with
    | empty => intro _; simp
    | insert a M ha ih =>
      intro hsub
      have haL : a ∈ L := hsub (Finset.mem_insert_self a M)
      obtain ⟨hr, hhr⟩ := hh a haL
      obtain ⟨zr, hzr⟩ := hz a haL
      have hM : IsReal (∑ e ∈ M, h e * z e) :=
        IsReal.sum _ _ fun e he => IsReal.mul (hh e (hsub (Finset.mem_insert_of_mem he))) (hz e (hsub (Finset.mem_insert_of_mem he)))
      obtain ⟨sr, hsr⟩ := hM
      rw [Finset.sum_insert ha, Finset.sum_insert ha, ← ih (fun e he => hsub (Finset.mem_insert_of_mem he)), hsr, hhr, hzr]
      simp only [← EReal.coe_mul, ← EReal.coe_add]
      congr 1; ring
  exact hsum L (Finset.Subset.refl L)

end Cert.LibGatheredSums

end
-- ==== Proof.GcnRealDeg.lean ====
/-
  Every degree is at least one.

  The degree of a node counts the entries of the destination vector equal to it: an accumulating scatter of ones into
  zeros, read at an index, is the number of positions that land there. The destination vector ends with the self-loops
  `0, 1, …, N − 1`, so position `E + i` holds `i`, and the degree of `i` is a natural number that is at least one.
-/
import proofs.«167311_j59150289600863_2_alg».proof.Proof.GcnHost
import proofs.«167311_j59150289600863_2_alg».proof.Proof.LibScatterAddRows
import proofs.«167311_j59150289600863_2_alg».proof.Proof.LibScatterAddVec
import proofs.«167311_j59150289600863_2_alg».proof.Proof.LibGatherRows
import proofs.«167311_j59150289600863_2_alg».proof.Proof.LibGatherVec
import proofs.«167311_j59150289600863_2_alg».proof.Proof.LibConcatVec
import proofs.«167311_j59150289600863_2_alg».proof.Proof.LibGatheredSums
import proofs.«167311_j59150289600863_2_alg».proof.Proof.LibMeanProj
import Idealize.ShloMosaic.Lib.Pipeline.Value
import Idealize.ShloMosaic.Lib.ValueIdx
import Idealize.ShloMosaic.PureOps.Ideal.Laws

noncomputable section

open scoped BigOperators

namespace Cert.Gcn

open Idealize.ShloMosaic Idealize.ShloMosaic.ValueIdx Cert.LibMeanProj Cert.KernelIdeal Cert.KernelIdeal.Facts₀
open Cert.LibScatterAddRows (landing)
open Cert.LibGatherRows (clampRow)

/-- The f32 word of one is the extended real one. -/
theorem ofBits_one_f32 : Ideal.ofBits .f32 0x3F800000#32 = 1 := by
  simp [Ideal.ofBits, Ideal.ieee]
  rw [← EReal.coe_mul]
  norm_num

/-- A finite sum of ones is the number of its terms. -/
theorem sum_ones {ι : Type*} (L : Finset ι) : ∑ _e ∈ L, (1 : EReal) = ((L.card : ℝ) : EReal) := by
  classical
  induction L using Finset.induction_on with
  | empty => simp
  | insert a M ha ih =>
    rw [Finset.sum_insert ha, ih, Finset.card_insert_of_notMem ha]
    push_cast
    rw [add_comm]

/-- A vector made a column reads, at `(e, 0)`, the vector at `e`. -/
theorem col_apply {α : Type} (v : S6600000.Idx → α) (e : Fin 6600000) :
    broadcastInDim S6600000x1 ![0] bcast_S6600000_S6600000x1_0 v (ix2 e (0 : Fin 1)) = v (ix1 e) := by
  refine broadcastInDim_apply ![0] bcast_S6600000_S6600000x1_0 v (ix2 e (0 : Fin 1)) (ix1 e) fun ax => ?_
  match ax with
  | ⟨0, _⟩ => rfl

/-- An index vector made a column reads, at `(e, 0)`, the vector at `e`. -/
theorem idxCol_apply (v : I32 S6600000) (e : Fin 6600000) : idxCol v (ix2 e (0 : Fin 1)) = v (ix1 e) :=
  col_apply v e

/-- Position `E + i` of the destination vector is the self-loop `i`. -/
theorem dstVec_selfloop (ei : I32 S2x6400000) (i : Fin 200000) :
    (dstVec ei (ix1 (⟨6400000 + i.val, by have := i.isLt; omega⟩ : Fin 6600000))).toInt = (i.val : ℤ) := by
  unfold dstVec
  rw [Cert.LibConcatVec.concat_vec_right concatenates_S6400000_S200000_S6600000_d0 _ _ _ i rfl]
  exact Cert.LibConcatVec.iota_vec_toInt (by norm_num) i

/-- The degree of a node is the number of entries of the index vector equal to it. -/
theorem degVec_apply (d : I32 S6600000) (i : Fin 200000) :
    degVec d (ix1 i) = (((landing (idxCol d) i.val).card : ℝ) : EReal) := by
  unfold degVec
  rw [Cert.LibScatterAddVec.scatterAdd_vec_apply scatter_S200000_S6600000x1_S6600000_n_0_0_1_wf
    scatter_S200000_S6600000x1_S6600000_n_0_0_1 rfl (idxCol d) _ _ i]
  have hz : broadcastInDim S200000 ![] bcast_S_S200000 (constant (F := Ideal) S_ .f32 0x00000000#32) (ix1 i) = 0 := by
    show Ideal.ofBits .f32 0x00000000#32 = 0
    exact Ideal.ofBits_zero_f32
  have ho : ∀ e : Fin 6600000,
      broadcastInDim S6600000 ![] bcast_S_S6600000 (constant (F := Ideal) S_ .f32 0x3F800000#32) (ix1 e) = 1 := by
    intro e
    show Ideal.ofBits .f32 0x3F800000#32 = 1
    exact ofBits_one_f32
  rw [hz, zero_add, Finset.sum_congr rfl (fun e _ => ho e), sum_ones]

/-- THE DEGREE IS AT LEAST ONE: every node is the destination of its own self-loop. -/
theorem one_le_deg (ei : I32 S2x6400000) (i : Fin 200000) :
    ∃ r : ℝ, 1 ≤ r ∧ degVec (dstVec ei) (ix1 i) = (r : EReal) := by
  refine ⟨((landing (idxCol (dstVec ei)) i.val).card : ℝ), ?_, degVec_apply (dstVec ei) i⟩
  have hmem : (⟨6400000 + i.val, by have := i.isLt; omega⟩ : Fin 6600000) ∈ landing (idxCol (dstVec ei)) i.val := by
    refine Finset.mem_filter.mpr ⟨Finset.mem_univ _, ?_⟩
    rw [idxCol_apply]
    exact dstVec_selfloop ei i
  have : 1 ≤ (landing (idxCol (dstVec ei)) i.val).card := Finset.card_pos.mpr ⟨_, hmem⟩
  exact_mod_cast this

end Cert.Gcn

end
-- ==== Proof.GcnReal.lean ====
/-
  Every entry of the first aggregation is a real number.

  The degree of every node is a real number that is at least one (the self-loops), so its inverse square root is a
  positive real. A gather reads an entry of its table whatever the index is, so the weight of an edge — a product of two
  entries of the inverse square roots — is real, and one aggregation step applied to a table of reals with real weights
  gives, at every entry, a finite sum of products of reals. Each operation is first read at an index over variables,
  and only then instantiated at the graph's vectors.
-/
import proofs.«167311_j59150289600863_2_alg».proof.Proof.GcnRealDeg

noncomputable section

open scoped BigOperators

namespace Cert.Gcn

open Idealize.ShloMosaic Idealize.ShloMosaic.ValueIdx Cert.LibMeanProj Cert.KernelIdeal Cert.KernelIdeal.Facts₀
open Cert.LibScatterAddRows (landing)
open Cert.LibGatherRows (clampRow)

/-- The host's inverse square root at an index. -/
theorem hostRsqrt_apply {s : Shape} (x : FVec Ideal s .f32) (i : s.Idx) :
    Host.rsqrt (F := Ideal) x i = Ideal.rsqrt (x i) := rfl

theorem dinvVec_eq (d : I32 S6600000) (j : Fin 200000) : dinvVec d (ix1 j) = Ideal.rsqrt (degVec d (ix1 j)) := by
  unfold dinvVec
  exact hostRsqrt_apply _ _

/-- Entry `j` of the inverse square root of the degrees is the inverse square root of a real number that is at least
    one: a positive real. -/
theorem dinvVec_apply (ei : I32 S2x6400000) (j : Fin 200000) :
    ∃ r : ℝ, 1 ≤ r ∧ dinvVec (dstVec ei) (ix1 j) = (((Real.sqrt r)⁻¹ : ℝ) : EReal) := by
  obtain ⟨r, hr, h⟩ := one_le_deg ei j
  refine ⟨r, hr, ?_⟩
  rw [dinvVec_eq, h, Ideal.rsqrt_coe, if_neg (by linarith), if_neg (by linarith)]

theorem dinvVec_real (ei : I32 S2x6400000) (j : Fin 200000) : IsReal (dinvVec (dstVec ei) (ix1 j)) := by
  obtain ⟨r, _, h⟩ := dinvVec_apply ei j
  exact ⟨_, h⟩

theorem pos200000 : 0 < 200000 := by norm_num

/-- A vector gather of a table of 200000 entries along an index column, at `e`: the table at the clamped index. -/
theorem gatherVec_apply (t : F32 S200000) (c : I32 S6600000x1) (e : Fin 6600000) :
    Host.gather gather_S200000_S6600000x1_S6600000_n_0_n_n_0_1_1 t c (ix1 e)
      = t (ix1 (clampRow 200000 pos200000 (c (ix2 e (0 : Fin 1))))) :=
  Cert.LibGatheredSums.gather_vec_at gather_S200000_S6600000x1_S6600000_n_0_n_n_0_1_1
    (wf := gather_S200000_S6600000x1_S6600000_n_0_n_n_0_1_1_wf) rfl pos200000 t c e

/-- The product of two gathers of one table, made a column, at `(e, 0)`. -/
theorem weightCol_apply (t : F32 S200000) (a b : I32 S6600000x1) (e : Fin 6600000) :
    broadcastInDim S6600000x1 ![0] bcast_S6600000_S6600000x1_0
        (mulf (Host.gather gather_S200000_S6600000x1_S6600000_n_0_n_n_0_1_1 t a)
          (Host.gather gather_S200000_S6600000x1_S6600000_n_0_n_n_0_1_1 t b)) (ix2 e (0 : Fin 1))
      = t (ix1 (clampRow 200000 pos200000 (a (ix2 e (0 : Fin 1)))))
        * t (ix1 (clampRow 200000 pos200000 (b (ix2 e (0 : Fin 1))))) := by
  rw [col_apply, mulf_apply, gatherVec_apply, gatherVec_apply]

/-- The weight of an edge is the product of two entries of the inverse square roots, whatever the two node indices are:
    a gather reads an entry of its table. -/
theorem ewCol_apply (s d : I32 S6600000) (e : Fin 6600000) :
    ewCol s d (ix2 e (0 : Fin 1))
      = dinvVec d (ix1 (clampRow 200000 pos200000 (idxCol (wrapIdx s) (ix2 e (0 : Fin 1)))))
        * dinvVec d (ix1 (clampRow 200000 pos200000 (idxCol (wrapIdx d) (ix2 e (0 : Fin 1))))) := by
  unfold ewCol
  exact weightCol_apply (dinvVec d) (idxCol (wrapIdx s)) (idxCol (wrapIdx d)) e

/-- EVERY EDGE WEIGHT IS REAL. -/
theorem ewCol_real (ei : I32 S2x6400000) (e : Fin 6600000) :
    IsReal (ewCol (srcVec ei) (dstVec ei) (ix2 e (0 : Fin 1))) := by
  rw [ewCol_apply]
  exact IsReal.mul (dinvVec_real ei _) (dinvVec_real ei _)

/-- The weight column spread over the 16 columns reads, at `(e, k)`, the column at `(e, 0)`. -/
theorem spread16_apply {α : Type} (w : S6600000x1.Idx → α) (e : Fin 6600000) (k : Fin 16) :
    broadcastInDim S6600000x16 ![0, 1] bcast_S6600000x1_S6600000x16_0_1 w (ix2 e k) = w (ix2 e (0 : Fin 1)) := by
  refine broadcastInDim_apply ![0, 1] bcast_S6600000x1_S6600000x16_0_1 w (ix2 e k) (ix2 e (0 : Fin 1)) fun ax => ?_
  match ax with
  | ⟨0, _⟩ => rfl
  | ⟨1, _⟩ => rfl

/-- A row gather of a table `[200000, 16]` along an index column, at `(e, k)`: the table's clamped row, column `k`. -/
theorem gatherRows16_apply (M : F32 S200000x16) (c : I32 S6600000x1) (e : Fin 6600000) (k : Fin 16) :
    Host.gather gather_S200000x16_S6600000x1_S6600000x16_1_0_n_n_0_1_116 M c (ix2 e k)
      = M (ix2 (clampRow 200000 pos200000 (c (ix2 e (0 : Fin 1)))) k) :=
  Cert.LibGatheredSums.gather_rows_at gather_S200000x16_S6600000x1_S6600000x16_1_0_n_n_0_1_116
    (wf := gather_S200000x16_S6600000x1_S6600000x16_1_0_n_n_0_1_116_wf) rfl pos200000 M c e k

/-- The zero table at an index. -/
theorem zeros16_apply (j : S200000x16.Idx) :
    broadcastInDim S200000x16 ![] bcast_S_S200000x16 (constant (F := Ideal) S_ .f32 0x00000000#32) j = 0 :=
  Ideal.ofBits_zero_f32

/-- An accumulating row scatter into the zero table of the products of gathered rows with a spread column, at
    `(i, k)`, over variables: the sum over the rows landing on `i`. -/
theorem aggCore_apply (M : F32 S200000x16) (a c : I32 S6600000x1) (w : F32 S6600000x1) (i : Fin 200000) (k : Fin 16) :
    Host.scatterAdd (F := Ideal) scatter_S200000x16_S6600000x1_S6600000x16_1_0_0_1
        (broadcastInDim S200000x16 ![] bcast_S_S200000x16 (constant (F := Ideal) S_ .f32 0x00000000#32)) c
        (mulf (Host.gather gather_S200000x16_S6600000x1_S6600000x16_1_0_n_n_0_1_116 M a)
          (broadcastInDim S6600000x16 ![0, 1] bcast_S6600000x1_S6600000x16_0_1 w)) (ix2 i k)
      = 0 + ∑ e ∈ landing c i.val,
          M (ix2 (clampRow 200000 pos200000 (a (ix2 e (0 : Fin 1)))) k) * w (ix2 e (0 : Fin 1)) := by
  rw [Cert.LibScatterAddRows.scatterAdd_rows_apply scatter_S200000x16_S6600000x1_S6600000x16_1_0_0_1_wf c
    scatter_S200000x16_S6600000x1_S6600000x16_1_0_0_1 rfl _ _ i k, zeros16_apply]
  refine congrArg (fun t : EReal => (0 : EReal) + t) (Finset.sum_congr rfl fun e _ => ?_)
  rw [mulf_apply, spread16_apply, gatherRows16_apply]

/-- One aggregation step at `(i, k)`: the sum, over the edges whose destination is `i`, of the table's entry at the
    edge's (clamped) source row times the edge's weight. -/
theorem agg16_apply (M : F32 S200000x16) (s d : I32 S6600000) (w : F32 S6600000x1) (i : Fin 200000) (k : Fin 16) :
    agg16 M s d w (ix2 i k)
      = 0 + ∑ e ∈ landing (idxCol d) i.val,
          M (ix2 (clampRow 200000 pos200000 (idxCol (wrapIdx s) (ix2 e (0 : Fin 1)))) k) * w (ix2 e (0 : Fin 1)) := by
  unfold agg16
  exact aggCore_apply M (idxCol (wrapIdx s)) (idxCol d) w i k

/-- AN AGGREGATION OF A TABLE OF REALS WITH REAL WEIGHTS IS A TABLE OF REALS. -/
theorem agg16_real (M : F32 S200000x16) (s d : I32 S6600000) (w : F32 S6600000x1)
    (hM : ∀ i k, IsReal (M (ix2 i k))) (hw : ∀ e, IsReal (w (ix2 e (0 : Fin 1)))) (i : Fin 200000) (k : Fin 16) :
    IsReal (agg16 M s d w (ix2 i k)) := by
  rw [agg16_apply]
  exact IsReal.add isReal_zero (IsReal.sum _ _ fun e _ => IsReal.mul (hM _ k) (hw e))

end Cert.Gcn

end
-- ==== Proof.KReal.lean ====
/-
  The first aggregate is a table of reals when the features and the first weight matrix are: a finite sum of
  products of reals is real, the edge weights are real, and an aggregation of reals with real weights is real.
-/
import proofs.«167311_j59150289600863_2_alg».proof.Proof.KValue
import proofs.«167311_j59150289600863_2_alg».proof.Proof.GcnReal

noncomputable section

open scoped BigOperators

namespace Cert.KernelIdeal.Val

open Cert.KernelIdeal Cert.Gcn
open Idealize.ShloMosaic Idealize.ShloMosaic.TcCoe Idealize.ShloMosaic.ValueIdx Cert.LibMeanProj

/-- Every entry of the product of two tables of reals is real. -/
theorem prod0_real (a : S200000x256.Idx → EReal) (b : S256x16.Idx → EReal) (ha : ∀ idx, IsReal (a idx))
    (hb : ∀ idx, IsReal (b idx)) (i : Fin 200000) (j : Fin 16) : IsReal (prod0 a b (ix2 i j)) := by
  rw [prod0_apply]
  exact IsReal.sum _ _ fun k _ => IsReal.mul (ha _) (hb _)

/-- Every entry of the first aggregate is real when the features and the first weight matrix are. -/
theorem agg1_real (m : (ℓ : Loc nD τ sig) → Buf (Elt Ideal) ℓ) (c : Dev nD)
    (hx : ∀ idx, IsReal (m ((c.tc : Thread nD τ).loc main_arg0) idx))
    (hw : ∀ idx, IsReal (m ((c.tc : Thread nD τ).loc main_arg1) idx)) (i : Fin 200000) (k : Fin 16) :
    IsReal (agg1 m c (ix2 i k)) := by
  unfold agg1
  exact agg16_real _ _ _ _ (fun i k => prod0_real _ _ hx hw i k) (fun e => ewCol_real _ e) i k

end Cert.KernelIdeal.Val

end
-- ==== Proof.RefRunStages.lean ====
/- The values the reference program computes, as named functions: the index vectors of the edge table with a self
   edge per node, the symmetric degree normalisation as edge weights, the two weighted aggregations, the
   column-wise normalisation between them, the rectifier and the row-wise log-softmax — each stage a function of the
   one before, then all of them as functions of the program's eight arguments (res_v3 … res_v80). -/
import proofs.«167311_j59150289600863_2_alg».proof.Proof.Gen.ReferenceIdeal

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! The values @main's operations compute, stage by stage, each a function of the stage before: the printed
    operations composed, nothing opened. -/

/-- Row 0 of the edge table, flattened, followed by the iota: the source of every edge, then every node (its self edge). -/
def srcIdx (e : (⟨S2x6400000, .i32⟩ : BufTy).Contents (Elt F)) : (⟨S6600000, .i32⟩ : BufTy).Contents (Elt F) :=
  concatenate S6600000 0 [⟨S6400000, shapeCast S6400000 (extractStridedSlice S1x6400000 ![0, 0] e slices_S2x6400000_S1x6400000_0_0) shapeCasts_S1x6400000_S6400000⟩, ⟨S200000, iotaInDim S200000 32 0⟩] concatenates_S6400000_S200000_S6600000_d0

/-- Row 1 of the edge table, flattened, followed by the iota: the destination of every edge, then every node. -/
def dstIdx (e : (⟨S2x6400000, .i32⟩ : BufTy).Contents (Elt F)) : (⟨S6600000, .i32⟩ : BufTy).Contents (Elt F) :=
  concatenate S6600000 0 [⟨S6400000, shapeCast S6400000 (extractStridedSlice S1x6400000 ![1, 0] e slices_S2x6400000_S1x6400000_1_0) shapeCasts_S1x6400000_S6400000⟩, ⟨S200000, iotaInDim S200000 32 0⟩] concatenates_S6400000_S200000_S6600000_d0

/-- An index vector as a column of one-element index rows. -/
def idxCol (x : (⟨S6600000, .i32⟩ : BufTy).Contents (Elt F)) : (⟨S6600000x1, .i32⟩ : BufTy).Contents (Elt F) :=
  broadcastInDim S6600000x1 ![0] bcast_S6600000_S6600000x1_0 x

/-- A negative index counted from the end: 200000 added where the index is below zero. -/
def wrapIdx (x : (⟨S6600000, .i32⟩ : BufTy).Contents (Elt F)) : (⟨S6600000, .i32⟩ : BufTy).Contents (Elt F) :=
  select (cmpi .slt x (broadcastInDim S6600000 ![] bcast_S_S6600000 (constantI S_ 32 0#32)))
    (addi x (broadcastInDim S6600000 ![] bcast_S_S6600000 (constantI S_ 32 200000#32))) x

/-- The degree of every node: ones scatter-added at the destinations. -/
def degree (dst : (⟨S6600000, .i32⟩ : BufTy).Contents (Elt F)) : (⟨S200000, .f32⟩ : BufTy).Contents (Elt F) :=
  Host.scatterAdd scatter_S200000_S6600000x1_S6600000_n_0_0_1 (broadcastInDim S200000 ![] bcast_S_S200000 (constant S_ .f32 0x00000000#32))
    (idxCol dst) (broadcastInDim S6600000 ![] bcast_S_S6600000 (constant S_ .f32 0x3F800000#32))

/-- The inverse square root of the degree. -/
def dinv (dst : (⟨S6600000, .i32⟩ : BufTy).Contents (Elt F)) : (⟨S200000, .f32⟩ : BufTy).Contents (Elt F) := Host.rsqrt (degree dst)

/-- The weight of every edge: the inverse square root of the degree at its source times that at its destination. -/
def edgeWeight (src dst : (⟨S6600000, .i32⟩ : BufTy).Contents (Elt F)) : (⟨S6600000, .f32⟩ : BufTy).Contents (Elt F) :=
  mulf (Host.gather gather_S200000_S6600000x1_S6600000_n_0_n_n_0_1_1 (dinv dst) (idxCol (wrapIdx src)))
    (Host.gather gather_S200000_S6600000x1_S6600000_n_0_n_n_0_1_1 (dinv dst) (idxCol (wrapIdx dst)))

/-- The edge weights as a column. -/
def weightCol (src dst : (⟨S6600000, .i32⟩ : BufTy).Contents (Elt F)) : (⟨S6600000x1, .f32⟩ : BufTy).Contents (Elt F) :=
  broadcastInDim S6600000x1 ![0] bcast_S6600000_S6600000x1_0 (edgeWeight src dst)

/-- The first layer's product. -/
def xw1 (x : (⟨S200000x256, .f32⟩ : BufTy).Contents (Elt F)) (w : (⟨S256x16, .f32⟩ : BufTy).Contents (Elt F)) : (⟨S200000x16, .f32⟩ : BufTy).Contents (Elt F) :=
  Host.dotGeneral dot_S200000x256_S256x16_S200000x16_1_0_0_1_n_n none x w

/-- The aggregation of a sixteen-column table: its rows gathered at the sources, scaled by the edge weights,
    scatter-added at the destinations into zeros. -/
def aggregate16 (t : (⟨S200000x16, .f32⟩ : BufTy).Contents (Elt F)) (src dst : (⟨S6600000, .i32⟩ : BufTy).Contents (Elt F)) (w : (⟨S6600000x1, .f32⟩ : BufTy).Contents (Elt F)) : (⟨S200000x16, .f32⟩ : BufTy).Contents (Elt F) :=
  Host.scatterAdd scatter_S200000x16_S6600000x1_S6600000x16_1_0_0_1 (broadcastInDim S200000x16 ![] bcast_S_S200000x16 (constant S_ .f32 0x00000000#32))
    (idxCol dst)
    (mulf (Host.gather gather_S200000x16_S6600000x1_S6600000x16_1_0_n_n_0_1_116 t (idxCol (wrapIdx src)))
      (broadcastInDim S6600000x16 ![0, 1] bcast_S6600000x1_S6600000x16_0_1 w))

/-- A vector of sixteen as every row of a 200000 × 16 table. -/
def rowBcast16 (v : (⟨S16, .f32⟩ : BufTy).Contents (Elt F)) : (⟨S200000x16, .f32⟩ : BufTy).Contents (Elt F) :=
  broadcastInDim S200000x16 ![0, 1] bcast_S1x16_S200000x16_0_1 (broadcastInDim S1x16 ![1] bcast_S16_S1x16_1 v)

/-- The bias added to every row. -/
def addBias16 (t : (⟨S200000x16, .f32⟩ : BufTy).Contents (Elt F)) (b : (⟨S16, .f32⟩ : BufTy).Contents (Elt F)) : (⟨S200000x16, .f32⟩ : BufTy).Contents (Elt F) := addf t (rowBcast16 b)

/-- The column sums, from zero. -/
def colSum16 (t : (⟨S200000x16, .f32⟩ : BufTy).Contents (Elt F)) : (⟨S16, .f32⟩ : BufTy).Contents (Elt F) :=
  Host.reduceAdd t (constant S_ .f32 0x00000000#32) reducesTo_S200000x16_S16_d0 h_S_

/-- The column means: the column sums over 200000. -/
def colMean (t : (⟨S200000x16, .f32⟩ : BufTy).Contents (Elt F)) : (⟨S16, .f32⟩ : BufTy).Contents (Elt F) :=
  Host.divf (colSum16 t) (broadcastInDim S16 ![] bcast_S_S16 (constant S_ .f32 0x48435000#32))

/-- The variance function's own mean, as one row. -/
def varMeanRow (t : (⟨S200000x16, .f32⟩ : BufTy).Contents (Elt F)) : (⟨S1x16, .f32⟩ : BufTy).Contents (Elt F) :=
  Host.divf (broadcastInDim S1x16 ![1] bcast_S16_S1x16_1 (colSum16 t)) (broadcastInDim S1x16 ![] bcast_S_S1x16 (constant S_ .f32 0x48435000#32))

/-- The table less its column means. -/
def varCentered (t : (⟨S200000x16, .f32⟩ : BufTy).Contents (Elt F)) : (⟨S200000x16, .f32⟩ : BufTy).Contents (Elt F) :=
  subf t (broadcastInDim S200000x16 ![0, 1] bcast_S1x16_S200000x16_0_1 (varMeanRow t))

/-- The variance's divisor: 200000 less the correction, which is the integer zero converted. -/
def varCount : (⟨S_, .f32⟩ : BufTy).Contents (Elt F) :=
  subf (constant S_ .f32 0x48435000#32) (sitofp .f32 (constantI S_ 32 0#32 : (⟨S_, .i32⟩ : BufTy).Contents (Elt F)))

/-- The column variances: the sums of the squared deviations over the divisor where the divisor is positive, the
    not-a-number constant elsewhere. -/
def colVar (t : (⟨S200000x16, .f32⟩ : BufTy).Contents (Elt F)) : (⟨S16, .f32⟩ : BufTy).Contents (Elt F) :=
  select (broadcastInDim S16 ![] bcast_S_S16 (cmpf .ogt (varCount (F := F)) (constant S_ .f32 0x00000000#32)))
    (Host.divf (colSum16 (mulf (varCentered t) (varCentered t))) (broadcastInDim S16 ![] bcast_S_S16 (varCount (F := F))))
    (broadcastInDim S16 ![] bcast_S_S16 (constant S_ .f32 0x7FC00000#32))

/-- The normalisation: the deviation from the mean times the inverse square root of the variance plus 1e-5, scaled and shifted. -/
def normalize (t : (⟨S200000x16, .f32⟩ : BufTy).Contents (Elt F)) (mean var g b : (⟨S16, .f32⟩ : BufTy).Contents (Elt F)) : (⟨S200000x16, .f32⟩ : BufTy).Contents (Elt F) :=
  addf (mulf (mulf (subf t (rowBcast16 mean))
      (rowBcast16 (Host.rsqrt (addf var (broadcastInDim S16 ![] bcast_S_S16 (constant S_ .f32 0x3727C5AC#32))))))
    (rowBcast16 g)) (rowBcast16 b)

/-- The rectifier: the maximum with zero. -/
def relu16 (t : (⟨S200000x16, .f32⟩ : BufTy).Contents (Elt F)) : (⟨S200000x16, .f32⟩ : BufTy).Contents (Elt F) :=
  maximumf t (broadcastInDim S200000x16 ![] bcast_S_S200000x16 (constant S_ .f32 0x00000000#32))

/-- The second layer's product. -/
def hw2 (h : (⟨S200000x16, .f32⟩ : BufTy).Contents (Elt F)) (w : (⟨S16x3, .f32⟩ : BufTy).Contents (Elt F)) : (⟨S200000x3, .f32⟩ : BufTy).Contents (Elt F) :=
  Host.dotGeneral dot_S200000x16_S16x3_S200000x3_1_0_0_1_n_n none h w

/-- The aggregation of a three-column table. -/
def aggregate3 (t : (⟨S200000x3, .f32⟩ : BufTy).Contents (Elt F)) (src dst : (⟨S6600000, .i32⟩ : BufTy).Contents (Elt F)) (w : (⟨S6600000x1, .f32⟩ : BufTy).Contents (Elt F)) : (⟨S200000x3, .f32⟩ : BufTy).Contents (Elt F) :=
  Host.scatterAdd scatter_S200000x3_S6600000x1_S6600000x3_1_0_0_1 (broadcastInDim S200000x3 ![] bcast_S_S200000x3 (constant S_ .f32 0x00000000#32))
    (idxCol dst)
    (mulf (Host.gather gather_S200000x3_S6600000x1_S6600000x3_1_0_n_n_0_1_13 t (idxCol (wrapIdx src)))
      (broadcastInDim S6600000x3 ![0, 1] bcast_S6600000x1_S6600000x3_0_1 w))

/-- The second bias added to every row. -/
def addBias3 (t : (⟨S200000x3, .f32⟩ : BufTy).Contents (Elt F)) (b : (⟨S3, .f32⟩ : BufTy).Contents (Elt F)) : (⟨S200000x3, .f32⟩ : BufTy).Contents (Elt F) :=
  addf t (broadcastInDim S200000x3 ![0, 1] bcast_S1x3_S200000x3_0_1 (broadcastInDim S1x3 ![1] bcast_S3_S1x3_1 b))

/-- The row maxima, from minus infinity (and once more against minus infinity). -/
def rowMax (t : (⟨S200000x3, .f32⟩ : BufTy).Contents (Elt F)) : (⟨S200000, .f32⟩ : BufTy).Contents (Elt F) :=
  maximumf (broadcastInDim S200000 ![] bcast_S_S200000 (constant S_ .f32 0xFF800000#32))
    (Host.reduce FloatOps.maximumf t (constant S_ .f32 0xFF800000#32) reducesTo_S200000x3_S200000_d1 h_S_)

/-- A vector of 200000 as every column of a 200000 × 3 table. -/
def colBcast3 (v : (⟨S200000, .f32⟩ : BufTy).Contents (Elt F)) : (⟨S200000x3, .f32⟩ : BufTy).Contents (Elt F) :=
  broadcastInDim S200000x3 ![0, 1] bcast_S200000x1_S200000x3_0_1 (broadcastInDim S200000x1 ![0] bcast_S200000_S200000x1_0 v)

/-- The table less its row maxima. -/
def shifted (t : (⟨S200000x3, .f32⟩ : BufTy).Contents (Elt F)) : (⟨S200000x3, .f32⟩ : BufTy).Contents (Elt F) := subf t (colBcast3 (rowMax t))

/-- The row sums of the exponentials, from zero. -/
def sumExp (t : (⟨S200000x3, .f32⟩ : BufTy).Contents (Elt F)) : (⟨S200000, .f32⟩ : BufTy).Contents (Elt F) :=
  Host.reduceAdd (Host.exp (shifted t)) (constant S_ .f32 0x00000000#32) reducesTo_S200000x3_S200000_d1 h_S_

/-- The log-softmax of every row. -/
def logSoftmax (t : (⟨S200000x3, .f32⟩ : BufTy).Contents (Elt F)) : (⟨S200000x3, .f32⟩ : BufTy).Contents (Elt F) :=
  subf (shifted t)
    (broadcastInDim S200000x3 ![0, 1] bcast_S200000x1_S200000x3_0_1 (Host.log (broadcastInDim S200000x1 ![0] bcast_S200000_S200000x1_0 (sumExp t))))

/-! The same values as functions of @main's eight arguments, each over the ones before it. -/

/-- The source index vector (main_v3). -/
def res_v3 (a7 : (⟨S2x6400000, .i32⟩ : BufTy).Contents (Elt F)) : (⟨S6600000, .i32⟩ : BufTy).Contents (Elt F) :=
  srcIdx a7

/-- The destination index vector (main_v6). -/
def res_v6 (a7 : (⟨S2x6400000, .i32⟩ : BufTy).Contents (Elt F)) : (⟨S6600000, .i32⟩ : BufTy).Contents (Elt F) :=
  dstIdx a7

/-- The edge-weight column (main_v27). -/
def res_v27 (a7 : (⟨S2x6400000, .i32⟩ : BufTy).Contents (Elt F)) : (⟨S6600000x1, .f32⟩ : BufTy).Contents (Elt F) :=
  weightCol (res_v3 a7) (res_v6 a7)

/-- The first layer's product (main_v28). -/
def res_v28 (a0 : (⟨S200000x256, .f32⟩ : BufTy).Contents (Elt F)) (a1 : (⟨S256x16, .f32⟩ : BufTy).Contents (Elt F)) : (⟨S200000x16, .f32⟩ : BufTy).Contents (Elt F) :=
  xw1 a0 a1

/-- The first aggregation (main_v40). -/
def res_v40 (a0 : (⟨S200000x256, .f32⟩ : BufTy).Contents (Elt F)) (a1 : (⟨S256x16, .f32⟩ : BufTy).Contents (Elt F)) (a7 : (⟨S2x6400000, .i32⟩ : BufTy).Contents (Elt F)) : (⟨S200000x16, .f32⟩ : BufTy).Contents (Elt F) :=
  aggregate16 (res_v28 a0 a1) (res_v3 a7) (res_v6 a7) (res_v27 a7)

/-- The first aggregation plus the first bias (main_v43). -/
def res_v43 (a0 : (⟨S200000x256, .f32⟩ : BufTy).Contents (Elt F)) (a1 : (⟨S256x16, .f32⟩ : BufTy).Contents (Elt F)) (a2 : (⟨S16, .f32⟩ : BufTy).Contents (Elt F)) (a7 : (⟨S2x6400000, .i32⟩ : BufTy).Contents (Elt F)) : (⟨S200000x16, .f32⟩ : BufTy).Contents (Elt F) :=
  addBias16 (res_v40 a0 a1 a7) a2

/-- Its column means (main_v46). -/
def res_v46 (a0 : (⟨S200000x256, .f32⟩ : BufTy).Contents (Elt F)) (a1 : (⟨S256x16, .f32⟩ : BufTy).Contents (Elt F)) (a2 : (⟨S16, .f32⟩ : BufTy).Contents (Elt F)) (a7 : (⟨S2x6400000, .i32⟩ : BufTy).Contents (Elt F)) : (⟨S16, .f32⟩ : BufTy).Contents (Elt F) :=
  colMean (res_v43 a0 a1 a2 a7)

/-- Its column variances, through the variance and selection functions (main_v47). -/
def res_v47 (a0 : (⟨S200000x256, .f32⟩ : BufTy).Contents (Elt F)) (a1 : (⟨S256x16, .f32⟩ : BufTy).Contents (Elt F)) (a2 : (⟨S16, .f32⟩ : BufTy).Contents (Elt F)) (a7 : (⟨S2x6400000, .i32⟩ : BufTy).Contents (Elt F)) : (⟨S16, .f32⟩ : BufTy).Contents (Elt F) :=
  colVar (res_v43 a0 a1 a2 a7)

/-- The normalised, scaled, shifted and rectified table (main_v63). -/
def res_v63 (a0 : (⟨S200000x256, .f32⟩ : BufTy).Contents (Elt F)) (a1 : (⟨S256x16, .f32⟩ : BufTy).Contents (Elt F)) (a2 : (⟨S16, .f32⟩ : BufTy).Contents (Elt F)) (a3 : (⟨S16, .f32⟩ : BufTy).Contents (Elt F)) (a4 : (⟨S16, .f32⟩ : BufTy).Contents (Elt F)) (a7 : (⟨S2x6400000, .i32⟩ : BufTy).Contents (Elt F)) : (⟨S200000x16, .f32⟩ : BufTy).Contents (Elt F) :=
  relu16 (normalize (res_v43 a0 a1 a2 a7) (res_v46 a0 a1 a2 a7) (res_v47 a0 a1 a2 a7) a3 a4)

/-- The second layer's product (main_v64). -/
def res_v64 (a0 : (⟨S200000x256, .f32⟩ : BufTy).Contents (Elt F)) (a1 : (⟨S256x16, .f32⟩ : BufTy).Contents (Elt F)) (a2 : (⟨S16, .f32⟩ : BufTy).Contents (Elt F)) (a3 : (⟨S16, .f32⟩ : BufTy).Contents (Elt F)) (a4 : (⟨S16, .f32⟩ : BufTy).Contents (Elt F)) (a5 : (⟨S16x3, .f32⟩ : BufTy).Contents (Elt F)) (a7 : (⟨S2x6400000, .i32⟩ : BufTy).Contents (Elt F)) : (⟨S200000x3, .f32⟩ : BufTy).Contents (Elt F) :=
  hw2 (res_v63 a0 a1 a2 a3 a4 a7) a5

/-- The second aggregation (main_v76). -/
def res_v76 (a0 : (⟨S200000x256, .f32⟩ : BufTy).Contents (Elt F)) (a1 : (⟨S256x16, .f32⟩ : BufTy).Contents (Elt F)) (a2 : (⟨S16, .f32⟩ : BufTy).Contents (Elt F)) (a3 : (⟨S16, .f32⟩ : BufTy).Contents (Elt F)) (a4 : (⟨S16, .f32⟩ : BufTy).Contents (Elt F)) (a5 : (⟨S16x3, .f32⟩ : BufTy).Contents (Elt F)) (a7 : (⟨S2x6400000, .i32⟩ : BufTy).Contents (Elt F)) : (⟨S200000x3, .f32⟩ : BufTy).Contents (Elt F) :=
  aggregate3 (res_v64 a0 a1 a2 a3 a4 a5 a7) (res_v3 a7) (res_v6 a7) (res_v27 a7)

/-- The second aggregation plus the second bias (main_v79). -/
def res_v79 (a0 : (⟨S200000x256, .f32⟩ : BufTy).Contents (Elt F)) (a1 : (⟨S256x16, .f32⟩ : BufTy).Contents (Elt F)) (a2 : (⟨S16, .f32⟩ : BufTy).Contents (Elt F)) (a3 : (⟨S16, .f32⟩ : BufTy).Contents (Elt F)) (a4 : (⟨S16, .f32⟩ : BufTy).Contents (Elt F)) (a5 : (⟨S16x3, .f32⟩ : BufTy).Contents (Elt F)) (a6 : (⟨S3, .f32⟩ : BufTy).Contents (Elt F)) (a7 : (⟨S2x6400000, .i32⟩ : BufTy).Contents (Elt F)) : (⟨S200000x3, .f32⟩ : BufTy).Contents (Elt F) :=
  addBias3 (res_v76 a0 a1 a2 a3 a4 a5 a7) a6

/-- The result: the log-softmax of every row (main_v80). -/
def res_v80 (a0 : (⟨S200000x256, .f32⟩ : BufTy).Contents (Elt F)) (a1 : (⟨S256x16, .f32⟩ : BufTy).Contents (Elt F)) (a2 : (⟨S16, .f32⟩ : BufTy).Contents (Elt F)) (a3 : (⟨S16, .f32⟩ : BufTy).Contents (Elt F)) (a4 : (⟨S16, .f32⟩ : BufTy).Contents (Elt F)) (a5 : (⟨S16x3, .f32⟩ : BufTy).Contents (Elt F)) (a6 : (⟨S3, .f32⟩ : BufTy).Contents (Elt F)) (a7 : (⟨S2x6400000, .i32⟩ : BufTy).Contents (Elt F)) : (⟨S200000x3, .f32⟩ : BufTy).Contents (Elt F) :=
  logSoftmax (res_v79 a0 a1 a2 a3 a4 a5 a6 a7)

end Cert.ReferenceIdeal.RefRun

end
-- ==== Proof.RLogSoftOps.lean ====
/-
  The host's spelling of a row-wise log-softmax over three columns, read at an index.

  For an `n × 3` array `a` of extended reals: the host's maximum-reduce from `-∞` along the columns (joined once more
  with a row of `-∞`) and its sum-reduce from zero, each broadcast to an `n × 1` column and then to `n × 3`, give at
  `(p, q)` the fold of `max` from `⊥` and the sum over row `p`; so the host's `(a - max) - log (sum (exp (a - max)))`
  is `logSoftRow` of row `p` at column `q`. Also the bias vector broadcast to every row.
-/
import Idealize.ShloMosaic.Lib.Pipeline.Value
import Idealize.ShloMosaic.Lib.ValueIdx
import Idealize.ShloMosaic.PureOps.Ideal.Laws
import proofs.«167311_j59150289600863_2_alg».proof.Proof.LibColumn
import proofs.«167311_j59150289600863_2_alg».proof.Proof.KLogSoftOps

namespace Cert.Gcn

open Idealize.ShloMosaic Idealize.ShloMosaic.ValueIdx

variable {n : ℕ}

/-- The host's logarithm and exponential at an index. -/
theorem hostLog_apply {s : Shape} (x : FVec Ideal s .f32) (i : s.Idx) : Host.log (F := Ideal) x i = Ideal.log (x i) := rfl
theorem hostExp_apply {s : Shape} (x : FVec Ideal s .f32) (i : s.Idx) : Host.exp (F := Ideal) x i = Ideal.exp (x i) := rfl

/-- A vector broadcast to an `n × 1` column reads, at `(p, u)`, the vector at `p`. -/
theorem bcast_vec_col_apply {α : Type} (x : (⟨1, ![n]⟩ : Shape).Idx → α)
    (h : (⟨1, ![n]⟩ : Shape).BroadcastsInDim ⟨2, ![n, 1]⟩ (![0] : Fin 1 → Fin 2)) (p : Fin n) (u : Fin 1) :
    broadcastInDim ⟨2, ![n, 1]⟩ ![0] h x (ix2 p u) = x (ix1 p) := by
  refine broadcastInDim_apply _ h x (ix2 p u) (ix1 p) fun a => ?_
  match a with
  | ⟨0, _⟩ =>
    show p.val = if n = 1 then 0 else p.val
    split
    · have := p.isLt; omega
    · rfl

/-- An `n × 1` column broadcast to `n × 3` reads, at `(p, q)`, the column at row `p`. -/
theorem bcast_col_apply {α : Type} (x : (⟨2, ![n, 1]⟩ : Shape).Idx → α)
    (h : (⟨2, ![n, 1]⟩ : Shape).BroadcastsInDim ⟨2, ![n, 3]⟩ (![0, 1] : Fin 2 → Fin 2)) (p : Fin n) (q : Fin 3) :
    broadcastInDim ⟨2, ![n, 3]⟩ ![0, 1] h x (ix2 p q) = x (ix2 p (0 : Fin 1)) := by
  refine broadcastInDim_apply _ h x (ix2 p q) (ix2 p (0 : Fin 1)) fun a => ?_
  match a with
  | ⟨0, _⟩ =>
    show p.val = if n = 1 then 0 else p.val
    split
    · have := p.isLt; omega
    · rfl
  | ⟨1, _⟩ => rfl

/-- A vector of three broadcast to a `1 × 3` row and then to every row of `n × 3` reads, at `(p, q)`, the vector at `q`. -/
theorem bcast_bias_apply {α : Type} (b : (⟨1, ![3]⟩ : Shape).Idx → α)
    (h1 : (⟨1, ![3]⟩ : Shape).BroadcastsInDim ⟨2, ![1, 3]⟩ (![1] : Fin 1 → Fin 2))
    (h2 : (⟨2, ![1, 3]⟩ : Shape).BroadcastsInDim ⟨2, ![n, 3]⟩ (![0, 1] : Fin 2 → Fin 2)) (p : Fin n) (q : Fin 3) :
    broadcastInDim ⟨2, ![n, 3]⟩ ![0, 1] h2 (broadcastInDim ⟨2, ![1, 3]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ => rfl
  · match a with
    | ⟨0, _⟩ => rfl

/-- The host's maximum-reduce from `-∞` along the columns, at row `p`: the fold of `max` from `⊥` over the row. -/
theorem hostRowMax_apply (a : FVec Ideal ⟨2, ![n, 3]⟩ .f32)
    (h' : (⟨2, ![n, 3]⟩ : Shape).ReducesTo [1] ⟨1, ![n]⟩) (hu : 0 < (⟨0, ![]⟩ : Shape).numel) (p : Fin n) :
    Host.reduce (FloatOps.maximumf (F := Ideal) (φ := .f32)) a (constant (F := Ideal) ⟨0, ![]⟩ .f32 0xFF800000#32) h' hu (ix1 p)
      = (Finset.univ : Finset (Fin 3)).fold max (⊥ : EReal) (fun j' => a (ix2 p j')) := by
  have h : (⟨2, ![n, 3]⟩ : Shape).Reduces [1] ⟨1, ![n]⟩ := ⟨h'.1, Nat.one_pos, h'.2⟩
  rw [Host.reduce_eq_fold_single _ a _ h' h hu]
  show (Finset.univ : Finset (Fin 3)).fold max (Ideal.ofBits .f32 0xFF800000#32) (a ∘ h.lift (ix1 p)) = _
  rw [ofBits_neg_inf_f32]
  congr 1
  funext j'
  exact congrArg a (Cert.LibColumn.lift_cols h p j')

/-- The host's sum-reduce from zero along the columns, at row `p`: the sum over the row. -/
theorem hostRowSum_apply (a : FVec Ideal ⟨2, ![n, 3]⟩ .f32)
    (h' : (⟨2, ![n, 3]⟩ : Shape).ReducesTo [1] ⟨1, ![n]⟩) (hu : 0 < (⟨0, ![]⟩ : Shape).numel) (p : Fin n) :
    Host.reduceAdd (F := Ideal) a (constant (F := Ideal) ⟨0, ![]⟩ .f32 0x00000000#32) h' hu (ix1 p)
      = ∑ j' : Fin 3, a (ix2 p j') := by
  have h : (⟨2, ![n, 3]⟩ : Shape).Reduces [1] ⟨1, ![n]⟩ := ⟨h'.1, Nat.one_pos, h'.2⟩
  show Ideal.hostReduceAdd h' a (Ideal.ofBits .f32 0x00000000#32) (ix1 p) = _
  rw [Ideal.hostReduceAdd_single h' h, Ideal.ofBits_zero_f32, zero_add]
  exact Finset.sum_congr rfl fun j' _ => congrArg a (Cert.LibColumn.lift_cols h p j')

/-- The host's row maximum, joined with `-∞` and broadcast back to `n × 3`, at `(p, q)`. -/
theorem hostRowMax_bcast_apply (a : FVec Ideal ⟨2, ![n, 3]⟩ .f32)
    (h' : (⟨2, ![n, 3]⟩ : Shape).ReducesTo [1] ⟨1, ![n]⟩) (hu : 0 < (⟨0, ![]⟩ : Shape).numel)
    (hb0 : (⟨0, ![]⟩ : Shape).BroadcastsInDim ⟨1, ![n]⟩ (![] : Fin 0 → Fin 1))
    (hb1 : (⟨1, ![n]⟩ : Shape).BroadcastsInDim ⟨2, ![n, 1]⟩ (![0] : Fin 1 → Fin 2))
    (hb2 : (⟨2, ![n, 1]⟩ : Shape).BroadcastsInDim ⟨2, ![n, 3]⟩ (![0, 1] : Fin 2 → Fin 2)) (p : Fin n) (q : Fin 3) :
    broadcastInDim ⟨2, ![n, 3]⟩ ![0, 1] hb2 (broadcastInDim ⟨2, ![n, 1]⟩ ![0] hb1
        (maximumf (broadcastInDim ⟨1, ![n]⟩ ![] hb0 (constant (F := Ideal) ⟨0, ![]⟩ .f32 0xFF800000#32))
          (Host.reduce (FloatOps.maximumf (F := Ideal) (φ := .f32)) a (constant (F := Ideal) ⟨0, ![]⟩ .f32 0xFF800000#32) h' hu)))
        (ix2 p q)
      = (Finset.univ : Finset (Fin 3)).fold max (⊥ : EReal) (fun j' => a (ix2 p j')) := by
  rw [bcast_col_apply, bcast_vec_col_apply, maximumf_apply, hostRowMax_apply]
  show max (Ideal.ofBits .f32 0xFF800000#32) _ = _
  rw [ofBits_neg_inf_f32]
  exact max_eq_right bot_le

/-- The host's log-softmax of `a` at `(p, q)`. -/
theorem logSoft_host_apply (a : FVec Ideal ⟨2, ![n, 3]⟩ .f32)
    (h' : (⟨2, ![n, 3]⟩ : Shape).ReducesTo [1] ⟨1, ![n]⟩) (hu : 0 < (⟨0, ![]⟩ : Shape).numel)
    (hb0 : (⟨0, ![]⟩ : Shape).BroadcastsInDim ⟨1, ![n]⟩ (![] : Fin 0 → Fin 1))
    (hb1 : (⟨1, ![n]⟩ : Shape).BroadcastsInDim ⟨2, ![n, 1]⟩ (![0] : Fin 1 → Fin 2))
    (hb2 : (⟨2, ![n, 1]⟩ : Shape).BroadcastsInDim ⟨2, ![n, 3]⟩ (![0, 1] : Fin 2 → Fin 2)) (p : Fin n) (q : Fin 3) :
    subf
      (subf a (broadcastInDim ⟨2, ![n, 3]⟩ ![0, 1] hb2 (broadcastInDim ⟨2, ![n, 1]⟩ ![0] hb1
        (maximumf (broadcastInDim ⟨1, ![n]⟩ ![] hb0 (constant (F := Ideal) ⟨0, ![]⟩ .f32 0xFF800000#32))
          (Host.reduce (FloatOps.maximumf (F := Ideal) (φ := .f32)) a (constant (F := Ideal) ⟨0, ![]⟩ .f32 0xFF800000#32) h' hu)))))
      (broadcastInDim ⟨2, ![n, 3]⟩ ![0, 1] hb2 (Host.log (broadcastInDim ⟨2, ![n, 1]⟩ ![0] hb1
        (Host.reduceAdd (F := Ideal)
          (Host.exp (subf a (broadcastInDim ⟨2, ![n, 3]⟩ ![0, 1] hb2 (broadcastInDim ⟨2, ![n, 1]⟩ ![0] hb1
            (maximumf (broadcastInDim ⟨1, ![n]⟩ ![] hb0 (constant (F := Ideal) ⟨0, ![]⟩ .f32 0xFF800000#32))
              (Host.reduce (FloatOps.maximumf (F := Ideal) (φ := .f32)) a (constant (F := Ideal) ⟨0, ![]⟩ .f32 0xFF800000#32) h' hu))))))
          (constant (F := Ideal) ⟨0, ![]⟩ .f32 0x00000000#32) h' hu))))
      (ix2 p q)
      = logSoftRow (fun j' => a (ix2 p j')) q := by
  rw [subf_apply, subf_apply, hostRowMax_bcast_apply, bcast_col_apply, hostLog_apply, bcast_vec_col_apply,
    hostRowSum_apply]
  unfold logSoftRow
  congr 2
  refine Finset.sum_congr rfl fun j' _ => ?_
  rw [hostExp_apply, subf_apply, hostRowMax_bcast_apply]

end Cert.Gcn
-- ==== Proof.RLogSoft.lean ====
/-
  The reference's tail: the bias added to every row, then the row-wise log-softmax, as the host operations spell them;
  at `(i, j)` it is the log-softmax of row `i` plus the bias, at column `j`.
-/
import proofs.«167311_j59150289600863_2_alg».proof.Proof.Gen.ReferenceIdeal
import proofs.«167311_j59150289600863_2_alg».proof.Proof.RLogSoftOps

noncomputable section

namespace Cert.ReferenceIdeal.Val

open Cert.ReferenceIdeal Idealize.ShloMosaic Idealize.ShloMosaic.ValueIdx
open Cert.ReferenceIdeal.Facts₀ Cert.ReferenceIdeal.Facts

/-- The bias broadcast to every row and added, then the log-softmax function's operations in order. -/
def refTail (z : FVec Ideal S200000x3 .f32) (b2 : FVec Ideal S3 .f32) : FVec Ideal S200000x3 .f32 :=
  let v77 : FVec Ideal S1x3 .f32 := broadcastInDim S1x3 ![1] bcast_S3_S1x3_1 b2
  let v78 : FVec Ideal S200000x3 .f32 := broadcastInDim S200000x3 ![0, 1] bcast_S1x3_S200000x3_0_1 v77
  let v79 : FVec Ideal S200000x3 .f32 := addf z v78
  let cst : FVec Ideal S_ .f32 := constant (F := Ideal) S_ .f32 0xFF800000#32
  let c0 : FVec Ideal S200000 .f32 := Host.reduce (FloatOps.maximumf (F := Ideal)) v79 cst reducesTo_S200000x3_S200000_d1 h_S_
  let cst_0 : FVec Ideal S_ .f32 := constant (F := Ideal) S_ .f32 0xFF800000#32
  let c1 : FVec Ideal S200000 .f32 := broadcastInDim S200000 ![] bcast_S_S200000 cst_0
  let c2 : FVec Ideal S200000 .f32 := maximumf c1 c0
  let c3 : FVec Ideal S200000x1 .f32 := broadcastInDim S200000x1 ![0] bcast_S200000_S200000x1_0 c2
  let c4 : FVec Ideal S200000x3 .f32 := broadcastInDim S200000x3 ![0, 1] bcast_S200000x1_S200000x3_0_1 c3
  let c5 : FVec Ideal S200000x3 .f32 := subf v79 c4
  let c6 : FVec Ideal S200000x3 .f32 := Host.exp (F := Ideal) c5
  let cst_1 : FVec Ideal S_ .f32 := constant (F := Ideal) S_ .f32 0x00000000#32
  let c7 : FVec Ideal S200000 .f32 := Host.reduceAdd (F := Ideal) c6 cst_1 reducesTo_S200000x3_S200000_d1 h_S_
  let c8 : FVec Ideal S200000x1 .f32 := broadcastInDim S200000x1 ![0] bcast_S200000_S200000x1_0 c7
  let c9 : FVec Ideal S200000x1 .f32 := Host.log (F := Ideal) c8
  let c10 : FVec Ideal S200000x3 .f32 := broadcastInDim S200000x3 ![0, 1] bcast_S200000x1_S200000x3_0_1 c9
  subf c5 c10

theorem refTail_apply (z : FVec Ideal S200000x3 .f32) (b2 : FVec Ideal S3 .f32) (i : Fin 200000) (j : Fin 3) :
    refTail z b2 (ix2 i j) = Cert.Gcn.logSoftRow (fun j' => z (ix2 i j') + b2 (ix1 j')) j := by
  unfold refTail
  dsimp only
  refine (Cert.Gcn.logSoft_host_apply _ _ _ _ _ _ i j).trans ?_
  congr 1
  funext j'
  rw [addf_apply, Cert.Gcn.bcast_bias_apply]

end Cert.ReferenceIdeal.Val

end
-- ==== Proof.LibPlainDot.lean ====
/-
  A plain matrix product `[M, K] · [K, N]` computed on the host, on the extended reals, read at the entry `(p, q)`:
  the sum over `k : Fin K` of `l (p, k) · r (k, q)`.

  The library states a host `dot_general` at an output index as a sum over the contraction shape's index set, with
  the operands read at `lhsIdx` / `rhsIdx`; for the dimension numbers `⟨[1], [0], [0], [1], [], []⟩` that index set is
  one axis of extent `K`, the left index is `(p, k)` and the right index is `(k, q)` (the two index facts are those of
  the product accumulated into zero, `Cert.LibPlainMatmul`). The statement takes any dimension record equal to
  `DotDims.plain M K N` (a record is determined by its six lists, so a printed one with these lists is equal to it by
  `rfl`).
-/
import proofs.«167311_j59150289600863_2_alg».proof.Proof.LibPlainMatmul
import Idealize.ShloMosaic.PureOps.Ideal.Laws
import Idealize.ShloMosaic.Lib.ValueIdx

noncomputable section

open scoped BigOperators

namespace Cert.LibPlainDot

open Idealize.ShloMosaic Idealize.ShloMosaic.ValueIdx Cert.LibPlainMatmul

/-- A plain `[M, K] · [K, N]` product on the host, at `(p, q)`, is `∑ k, l (p, k) · r (k, q)`. -/
theorem dot_plain_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    Host.dotGeneral D prec l r (ix2 p q) = ∑ k : Fin K, l (ix2 p k) * r (ix2 k q) := by
  subst hD
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.LibPlainDot

end
-- ==== Proof.RGraph.lean ====
/-
  The reference's stage functions are the shared ones: the graph stages (source and destination vectors, the
  edge-weight column, the two aggregation steps) in the two programs' spellings are the same terms, the first dense
  product is the plain matrix product, and the bias followed by the log-softmax is the row-wise log-softmax.
-/
import proofs.«167311_j59150289600863_2_alg».proof.Proof.RefRunStages
import proofs.«167311_j59150289600863_2_alg».proof.Proof.GcnHost
import proofs.«167311_j59150289600863_2_alg».proof.Proof.KMatmul1
import proofs.«167311_j59150289600863_2_alg».proof.Proof.RLogSoft
import proofs.«167311_j59150289600863_2_alg».proof.Proof.LibPlainDot

noncomputable section

open scoped BigOperators

namespace Cert.ReferenceIdeal.Val

open Idealize.ShloMosaic Idealize.ShloMosaic.ValueIdx
open Cert.Gcn (I32 F32)

theorem srcIdx_eq (e : I32 Cert.KernelIdeal.S2x6400000) :
    Cert.ReferenceIdeal.RefRun.srcIdx (F := Ideal) e = Cert.Gcn.srcVec e := rfl

theorem dstIdx_eq (e : I32 Cert.KernelIdeal.S2x6400000) :
    Cert.ReferenceIdeal.RefRun.dstIdx (F := Ideal) e = Cert.Gcn.dstVec e := rfl

theorem weightCol_eq (s d : I32 Cert.KernelIdeal.S6600000) :
    Cert.ReferenceIdeal.RefRun.weightCol (F := Ideal) s d = Cert.Gcn.ewCol s d := rfl

theorem aggregate16_eq (t : F32 Cert.KernelIdeal.S200000x16) (s d : I32 Cert.KernelIdeal.S6600000)
    (w : F32 Cert.KernelIdeal.S6600000x1) :
    Cert.ReferenceIdeal.RefRun.aggregate16 (F := Ideal) t s d w = Cert.Gcn.agg16 t s d w := rfl

theorem aggregate3_eq (t : F32 Cert.KernelIdeal.S200000x3) (s d : I32 Cert.KernelIdeal.S6600000)
    (w : F32 Cert.KernelIdeal.S6600000x1) :
    Cert.ReferenceIdeal.RefRun.aggregate3 (F := Ideal) t s d w = Cert.Gcn.agg3 t s d w := rfl

/-- The first layer's host product is the plain matrix product. -/
theorem xw1_eq (x : F32 Cert.KernelIdeal.S200000x256) (w : F32 Cert.KernelIdeal.S256x16) :
    Cert.ReferenceIdeal.RefRun.xw1 (F := Ideal) x w = Cert.KernelIdeal.Val.prod0 x w := by
  funext y
  obtain ⟨i, j, rfl⟩ : ∃ (i : Fin 200000) (j : Fin 16), y = ix2 i j := ⟨y 0, y 1, eq_ix2 y⟩
  rw [Cert.KernelIdeal.Val.prod0_apply]
  exact Cert.LibPlainDot.dot_plain_apply _ rfl none x w i j

/-- The bias added to every row and then the log-softmax, at `(i, j)`. -/
theorem logSoftmax_addBias3_apply (z : F32 Cert.KernelIdeal.S200000x3) (b2 : F32 Cert.KernelIdeal.S3)
    (i : Fin 200000) (j : Fin 3) :
    Cert.ReferenceIdeal.RefRun.logSoftmax (F := Ideal) (Cert.ReferenceIdeal.RefRun.addBias3 z b2) (ix2 i j)
      = Cert.Gcn.logSoftRow (fun j' => z (ix2 i j') + b2 (ix1 j')) j :=
  refTail_apply z b2 i j

end Cert.ReferenceIdeal.Val

end
-- ==== Proof.LibBatchVar.lean ====
/-
  The batch variance two ways, for real data read on the extended reals.

  For real numbers `a 0, …, a (n − 1)`, `n > 0`, with sum `S` and sum of squares `Q`, the mean of the squares minus
  the square of the mean, `Q / n − (S / n)²`, is the mean of the squared deviations `(1 / n) · ∑ (a i − S / n)²`:
  expanding the square gives `Q − 2 (S / n) S + n (S / n)² = Q − S² / n`. The second form is a sum of squares over a
  positive number, so the common value is nonnegative and clamping it below at zero changes nothing. On the extended
  reals the identity needs every `a i` to be the image of a real (at an infinity `⊤ − ⊤` is `⊥` on one side and the
  squares sum to `⊤` on the other); the quotient is the extended reals' own, which by a nonzero real is the product
  with the reciprocal.
-/
import Idealize.ShloMosaic.PureOps.Ideal
import proofs.«167311_j59150289600863_2_alg».proof.Proof.LibMeanProj

noncomputable section

open scoped BigOperators

namespace Cert.LibBatchVar

open Idealize.ShloMosaic Cert.LibMeanProj

/-- Mean of squares minus squared mean is the mean squared deviation, and it is not negative. -/
theorem var_law_real {n : ℕ} (hn : 0 < n) (r : Fin n → ℝ) :
    max ((∑ i, r i * r i) / n - (∑ i, r i) / n * ((∑ i, r i) / n)) 0
      = (∑ i, (r i - (∑ i, r i) / n) * (r i - (∑ i, r i) / n)) / n := by
  have hN : (n : ℝ) ≠ 0 := Nat.cast_ne_zero.mpr (Nat.pos_iff_ne_zero.mp hn)
  set μ : ℝ := (∑ i, r i) / n with hμ
  have hS : (∑ i, r i) = n * μ := by rw [hμ]; field_simp
  have hexp : (∑ i, (r i - μ) * (r i - μ)) = (∑ i, r i * r i) - 2 * μ * (∑ i, r i) + n * (μ * μ) := by
    have h : ∀ i, (r i - μ) * (r i - μ) = r i * r i - 2 * μ * r i + μ * μ := fun i => by ring
    simp only [h, Finset.sum_add_distrib, Finset.sum_sub_distrib, ← Finset.mul_sum, Finset.sum_const,
      Finset.card_univ, Fintype.card_fin, nsmul_eq_mul]
    ring
  have heq : (∑ i, r i * r i) / n - μ * μ = (∑ i, (r i - μ) * (r i - μ)) / n := by
    rw [hexp, hS]; field_simp; ring
  have hnn : 0 ≤ (∑ i, (r i - μ) * (r i - μ)) / n :=
    div_nonneg (Finset.sum_nonneg fun i _ => mul_self_nonneg _) (Nat.cast_nonneg n)
  rw [heq, max_eq_left hnn]

/-- The same on the extended reals, for images of reals. -/
theorem var_law {n : ℕ} (hn : 0 < n) (a : Fin n → EReal) (ha : ∀ i, IsReal (a i)) :
    max (Ideal.div (∑ i, a i * a i) ((n : ℝ) : EReal)
          - Ideal.div (∑ i, a i) ((n : ℝ) : EReal) * Ideal.div (∑ i, a i) ((n : ℝ) : EReal)) 0
      = Ideal.div (∑ i, (a i - Ideal.div (∑ i, a i) ((n : ℝ) : EReal)) * (a i - Ideal.div (∑ i, a i) ((n : ℝ) : EReal)))
          ((n : ℝ) : EReal) := by
  choose r hr using ha
  have hN : (n : ℝ) ≠ 0 := Nat.cast_ne_zero.mpr (Nat.pos_iff_ne_zero.mp hn)
  simp only [hr]
  simp only [← EReal.coe_mul, ← SumSwap.coe_sum, div_coe_coe _ _ hN, ← EReal.coe_sub]
  rw [show (0 : EReal) = ((0 : ℝ) : EReal) from rfl, ← EReal.coe_strictMono.monotone.map_max]
  exact congrArg _ (var_law_real hn r)

/-- The mean of real data is real. -/
theorem mean_real {n : ℕ} (hn : 0 < n) (a : Fin n → EReal) (ha : ∀ i, IsReal (a i)) :
    IsReal (Ideal.div (∑ i, a i) ((n : ℝ) : EReal)) :=
  (IsReal.sum _ _ fun i _ => ha i).div _ (Nat.cast_ne_zero.mpr (Nat.pos_iff_ne_zero.mp hn))

/-- The float literal `200000.0` denotes the real number 200000. -/
theorem ofBits_200000 : Ideal.ofBits .f32 0x48435000#32 = ((200000 : ℝ) : EReal) := by
  simp [Ideal.ofBits, Ideal.ieee, -EReal.coe_mul]; norm_num

end Cert.LibBatchVar

end
-- ==== Proof.RDenseMath.lean ====
/-
  The reference's batch statistics against the plain ones.

  The reference takes the column mean as (0 + the column sum) over 200000, and the column variance as
  (0 + the sum of the squared deviations from that mean) over (200000 − 0), the zero being an integer count converted.
  For real data these are the mean and the clamped "mean of squares minus squared mean" variance of the plain form:
  the zeros and the subtraction of zero drop out, and the two variances agree by the variance law.
-/
import proofs.«167311_j59150289600863_2_alg».proof.Proof.GcnSpec
import proofs.«167311_j59150289600863_2_alg».proof.Proof.LibBatchVar
import proofs.«167311_j59150289600863_2_alg».proof.Proof.LibMeanProj

noncomputable section

open scoped BigOperators

namespace Cert.ReferenceIdeal.Val

open Idealize.ShloMosaic Cert.LibMeanProj

/-- The reference's divisor of the variance: 200000 less the integer word zero read as a real. -/
def refCount : EReal := Ideal.ofBits .f32 0x48435000#32 - (((0#32 : BitVec 32).toInt : ℝ) : EReal)

theorem refCount_eq : refCount = Ideal.ofBits .f32 0x48435000#32 := by
  unfold refCount
  rw [Cert.LibBatchVar.ofBits_200000, show ((0#32 : BitVec 32).toInt : ℝ) = 0 by simp, ← EReal.coe_sub, sub_zero]

/-- It is positive. -/
theorem refCount_pos : (0 : EReal) < refCount := by
  rw [refCount_eq, Cert.LibBatchVar.ofBits_200000]
  exact EReal.coe_pos.mpr (by norm_num)

/-- The reference's column mean. -/
def refMean (H : Fin 200000 → Fin 16 → EReal) (k : Fin 16) : EReal :=
  Ideal.div (0 + ∑ i, H i k) (Ideal.ofBits .f32 0x48435000#32)

/-- The reference's column variance. -/
def refVar (H : Fin 200000 → Fin 16 → EReal) (k : Fin 16) : EReal :=
  Ideal.div (0 + ∑ i, (H i k - refMean H k) * (H i k - refMean H k)) refCount

/-- The reference's normalized, scaled, shifted and rectified feature. -/
def refAct (H : Fin 200000 → Fin 16 → EReal) (gamma beta : Fin 16 → EReal) (i : Fin 200000) (k : Fin 16) : EReal :=
  max ((H i k - refMean H k) * Ideal.rsqrt (refVar H k + Ideal.ofBits .f32 0x3727C5AC#32) * gamma k + beta k) 0

theorem refMean_eq (H : Fin 200000 → Fin 16 → EReal) (k : Fin 16) : refMean H k = Cert.Gcn.colMean H k := by
  unfold refMean Cert.Gcn.colMean
  rw [zero_add]

/-- For real data the reference's variance is the clamped mean of squares minus squared mean. -/
theorem refVar_eq (H : Fin 200000 → Fin 16 → EReal) (k : Fin 16) (hH : ∀ i, IsReal (H i k)) :
    refVar H k = Cert.Gcn.colVar H k := by
  unfold refVar Cert.Gcn.colVar
  rw [refMean_eq, refCount_eq, zero_add]
  unfold Cert.Gcn.colMean
  rw [Cert.LibBatchVar.ofBits_200000]
  have h := Cert.LibBatchVar.var_law (n := 200000) (by norm_num) (fun i => H i k) hH
  have hc : (((200000 : ℕ) : ℝ) : EReal) = ((200000 : ℝ) : EReal) := by norm_num
  rw [hc] at h
  exact h.symm

theorem refAct_eq (H : Fin 200000 → Fin 16 → EReal) (gamma beta : Fin 16 → EReal) (i : Fin 200000) (k : Fin 16)
    (hH : ∀ i, IsReal (H i k)) : refAct H gamma beta i k = Cert.Gcn.act H gamma beta i k := by
  unfold refAct Cert.Gcn.act
  rw [refMean_eq, refVar_eq H k hH]

/-- The reference's second dense product is the plain one. -/
theorem refDense_eq (H : Fin 200000 → Fin 16 → EReal) (gamma beta : Fin 16 → EReal) (w2 : Fin 16 → Fin 3 → EReal)
    (i : Fin 200000) (j : Fin 3) (hH : ∀ i k, IsReal (H i k)) :
    ∑ k, refAct H gamma beta i k * w2 k j = Cert.Gcn.dense2 H gamma beta w2 i j := by
  unfold Cert.Gcn.dense2
  exact Finset.sum_congr rfl fun k _ => by rw [refAct_eq H gamma beta i k fun i => hH i k]

end Cert.ReferenceIdeal.Val

end
-- ==== Proof.RDense.lean ====
/-
  The reference's dense middle read at an index: the first aggregate plus the bias, its column means and variances
  over the 200000 rows, the normalization, scale, shift and rectifier, and the product with the second weights.
-/
import proofs.«167311_j59150289600863_2_alg».proof.Proof.RefRunStages
import proofs.«167311_j59150289600863_2_alg».proof.Proof.LibPlainDot
import proofs.«167311_j59150289600863_2_alg».proof.Proof.LibMeanProj
import proofs.«167311_j59150289600863_2_alg».proof.Proof.RDenseMath
import Idealize.ShloMosaic.PureOps.Ideal.Laws
import Idealize.ShloMosaic.Lib.IdealHost
import Idealize.ShloMosaic.Lib.Pipeline.Value
import Idealize.ShloMosaic.Lib.ValueIdx

set_option maxRecDepth 16384

noncomputable section

open scoped BigOperators

namespace Cert.ReferenceIdeal.Val

open Cert.ReferenceIdeal Cert.ReferenceIdeal.Gen Idealize.ShloMosaic Idealize.ShloMosaic.ValueIdx Cert.LibMeanProj
open Cert.ReferenceIdeal.RefRun

/-- A vector of sixteen as a row reads, at `(0, k)`, its entry `k`. -/
theorem bcast_row_apply {α : Type} (x : S16.Idx → α) (k : Fin 16) :
    broadcastInDim S1x16 ![1] bcast_S16_S1x16_1 x (ix2 (0 : Fin 1) k) = x (ix1 k) := by
  refine broadcastInDim_apply ![1] bcast_S16_S1x16_1 x (ix2 (0 : Fin 1) k) (ix1 k) fun a => ?_
  match a with
  | ⟨0, _⟩ => rfl

/-- A row spread over the 200000 rows reads, at `(i, k)`, the row at `(0, k)`. -/
theorem bcast_rows_apply {α : Type} (x : S1x16.Idx → α) (i : Fin 200000) (k : Fin 16) :
    broadcastInDim S200000x16 ![0, 1] bcast_S1x16_S200000x16_0_1 x (ix2 i k) = x (ix2 (0 : Fin 1) k) := by
  refine broadcastInDim_apply ![0, 1] bcast_S1x16_S200000x16_0_1 x (ix2 i k) (ix2 (0 : Fin 1) k) fun a => ?_
  match a with
  | ⟨0, _⟩ => rfl
  | ⟨1, _⟩ => rfl

/-- A vector of sixteen spread over the rows reads, at `(i, k)`, its entry `k`. -/
theorem rowBcast16_apply (v : FVec Ideal S16 .f32) (i : Fin 200000) (k : Fin 16) :
    rowBcast16 (F := Ideal) v (ix2 i k) = v (ix1 k) := by
  unfold rowBcast16
  exact (bcast_rows_apply _ i k).trans (bcast_row_apply v k)

/-- The aggregate plus the bias, at `(i, k)`. -/
theorem addBias16_apply (t : FVec Ideal S200000x16 .f32) (b : FVec Ideal S16 .f32) (i : Fin 200000) (k : Fin 16) :
    addBias16 (F := Ideal) t b (ix2 i k) = t (ix2 i k) + b (ix1 k) := by
  unfold addBias16
  show t (ix2 i k) + rowBcast16 (F := Ideal) b (ix2 i k) = _
  rw [rowBcast16_apply]

/-- Putting row `i` back into the column index `k` gives `(i, k)`. -/
theorem red16_lift (h : S200000x16.Reduces [0] S16) (k : Fin 16) (i : Fin (S200000x16.size 0)) :
    h.lift (ix1 k) i = ix2 (⟨i.val, i.isLt⟩ : Fin 200000) k := by
  funext c; apply Fin.ext
  fin_cases c <;> rfl

/-- The column sums from zero, at column `k`. -/
theorem colSum16_apply (t : FVec Ideal S200000x16 .f32) (k : Fin 16) :
    colSum16 (F := Ideal) t (ix1 k) = 0 + ∑ i : Fin 200000, t (ix2 i k) := by
  unfold colSum16
  refine (hostReduceAdd_apply t _ reducesTo_S200000x16_S16_d0 h_S_ (ix1 k)).trans ?_
  refine (Ideal.hostReduceAdd_single reducesTo_S200000x16_S16_d0 (by decide : S200000x16.Reduces [0] S16) t _ (ix1 k)).trans ?_
  refine congrArg₂ (· + ·) Ideal.ofBits_zero_f32 (Finset.sum_congr rfl fun i _ => ?_)
  rw [red16_lift]
  rfl

/-- The column means, at column `k`. -/
theorem colMean_apply (t : FVec Ideal S200000x16 .f32) (k : Fin 16) :
    RefRun.colMean (F := Ideal) t (ix1 k) = Ideal.div (0 + ∑ i : Fin 200000, t (ix2 i k)) (Ideal.ofBits .f32 0x48435000#32) := by
  unfold RefRun.colMean
  refine (hostDivf_apply _ _ (ix1 k)).trans ?_
  exact congrArg₂ Ideal.div (colSum16_apply t k) (broadcastInDim_scalar_apply bcast_S_S16 _ (ix1 k))

/-- The variance function's own mean row, at column `k`. -/
theorem varMeanRow_apply (t : FVec Ideal S200000x16 .f32) (k : Fin 16) :
    varMeanRow (F := Ideal) t (ix2 (0 : Fin 1) k) = Ideal.div (0 + ∑ i : Fin 200000, t (ix2 i k)) (Ideal.ofBits .f32 0x48435000#32) := by
  unfold varMeanRow
  refine (hostDivf_apply _ _ (ix2 (0 : Fin 1) k)).trans ?_
  refine congrArg₂ Ideal.div ?_ (broadcastInDim_scalar_apply bcast_S_S1x16 _ (ix2 (0 : Fin 1) k))
  exact (bcast_row_apply (colSum16 (F := Ideal) t) k).trans (colSum16_apply t k)

/-- The deviations from the column means, at `(i, k)`. -/
theorem varCentered_apply (t : FVec Ideal S200000x16 .f32) (i : Fin 200000) (k : Fin 16) :
    varCentered (F := Ideal) t (ix2 i k)
      = t (ix2 i k) - Ideal.div (0 + ∑ i : Fin 200000, t (ix2 i k)) (Ideal.ofBits .f32 0x48435000#32) := by
  unfold varCentered
  show t (ix2 i k) - broadcastInDim S200000x16 ![0, 1] bcast_S1x16_S200000x16_0_1 (varMeanRow (F := Ideal) t) (ix2 i k) = _
  refine congrArg (t (ix2 i k) - ·) ?_
  exact (bcast_rows_apply (varMeanRow (F := Ideal) t) i k).trans (varMeanRow_apply t k)

/-- The variance's divisor. -/
theorem varCount_apply : varCount (F := Ideal) ix0 = refCount := rfl

/-- The column variances, at column `k`: the divisor is positive, so the quotient is taken. -/
theorem colVar_apply (t : FVec Ideal S200000x16 .f32) (k : Fin 16) :
    RefRun.colVar (F := Ideal) t (ix1 k) = refVar (fun i k => t (ix2 i k)) k := by
  unfold RefRun.colVar
  refine (select_apply _ _ _ (ix1 k)).trans ?_
  have hc : broadcastInDim S16 ![] bcast_S_S16 (cmpf .ogt (varCount (F := Ideal)) (constant (F := Ideal) S_ .f32 0x00000000#32)) (ix1 k) = 1#1 := by
    refine (broadcastInDim_scalar_apply bcast_S_S16 _ (ix1 k)).trans ?_
    show Ideal.cmp .ogt (varCount (F := Ideal) ix0) (Ideal.ofBits .f32 0x00000000#32) = 1#1
    rw [varCount_apply, Ideal.ofBits_zero_f32]
    unfold Ideal.cmp
    simp [refCount_pos]
  rw [hc, select_one]
  refine (hostDivf_apply _ _ (ix1 k)).trans ?_
  unfold refVar
  refine congrArg₂ Ideal.div ?_ ((broadcastInDim_scalar_apply bcast_S_S16 _ (ix1 k)).trans varCount_apply)
  refine (colSum16_apply _ k).trans ?_
  refine congrArg (0 + ·) (Finset.sum_congr rfl fun i _ => ?_)
  show varCentered (F := Ideal) t (ix2 i k) * varCentered (F := Ideal) t (ix2 i k) = _
  rw [varCentered_apply]
  rfl

/-- The normalization, scale and shift, at `(i, k)`. -/
theorem normalize_apply (t : FVec Ideal S200000x16 .f32) (mean var g b : FVec Ideal S16 .f32) (i : Fin 200000) (k : Fin 16) :
    RefRun.normalize (F := Ideal) t mean var g b (ix2 i k)
      = (t (ix2 i k) - mean (ix1 k)) * Ideal.rsqrt (var (ix1 k) + Ideal.ofBits .f32 0x3727C5AC#32) * g (ix1 k) + b (ix1 k) := by
  unfold RefRun.normalize
  show (t (ix2 i k) - rowBcast16 (F := Ideal) mean (ix2 i k))
        * rowBcast16 (F := Ideal) (Host.rsqrt (F := Ideal) (addf var (broadcastInDim S16 ![] bcast_S_S16 (constant (F := Ideal) S_ .f32 0x3727C5AC#32)))) (ix2 i k)
        * rowBcast16 (F := Ideal) g (ix2 i k) + rowBcast16 (F := Ideal) b (ix2 i k) = _
  rw [rowBcast16_apply, rowBcast16_apply, rowBcast16_apply, rowBcast16_apply]
  rfl

/-- The rectifier, at `(i, k)`. -/
theorem relu16_apply (t : FVec Ideal S200000x16 .f32) (i : Fin 200000) (k : Fin 16) :
    relu16 (F := Ideal) t (ix2 i k) = max (t (ix2 i k)) 0 := by
  unfold relu16
  show max (t (ix2 i k)) (Ideal.ofBits .f32 0x00000000#32) = _
  rw [Ideal.ofBits_zero_f32]

/-- The second product, at `(i, j)`. -/
theorem hw2_apply (h : FVec Ideal S200000x16 .f32) (w : FVec Ideal S16x3 .f32) (i : Fin 200000) (j : Fin 3) :
    hw2 (F := Ideal) h w (ix2 i j) = ∑ k : Fin 16, h (ix2 i k) * w (ix2 k j) := by
  unfold hw2
  exact Cert.LibPlainDot.dot_plain_apply dot_S200000x16_S16x3_S200000x3_1_0_0_1_n_n rfl none h w i j

/-- The rectified normalized table, at `(i, k)`, in terms of the table's entries. -/
theorem act_apply (t : FVec Ideal S200000x16 .f32) (g b : FVec Ideal S16 .f32) (i : Fin 200000) (k : Fin 16) :
    relu16 (F := Ideal) (RefRun.normalize (F := Ideal) t (RefRun.colMean (F := Ideal) t) (RefRun.colVar (F := Ideal) t) g b) (ix2 i k)
      = refAct (fun i k => t (ix2 i k)) (fun k => g (ix1 k)) (fun k => b (ix1 k)) i k := by
  rw [relu16_apply, normalize_apply, colMean_apply, colVar_apply]
  rfl

/-- The reference's dense middle: from the first aggregate and the parameters to the second product. -/
def refMid (A1 : FVec Ideal S200000x16 .f32) (b1 gamma beta : FVec Ideal S16 .f32) (w2 : FVec Ideal S16x3 .f32) :
    FVec Ideal S200000x3 .f32 :=
  hw2 (F := Ideal) (relu16 (F := Ideal) (RefRun.normalize (F := Ideal) (addBias16 (F := Ideal) A1 b1)
    (RefRun.colMean (F := Ideal) (addBias16 (F := Ideal) A1 b1)) (RefRun.colVar (F := Ideal) (addBias16 (F := Ideal) A1 b1)) gamma beta)) w2

/-- It is the run's stage function for the second product, over the run's first aggregate. -/
theorem res_v64_eq_refMid (a0 : FVec Ideal S200000x256 .f32) (a1 : FVec Ideal S256x16 .f32) (a2 a3 a4 : FVec Ideal S16 .f32)
    (a5 : FVec Ideal S16x3 .f32) (a7 : IVec S2x6400000 32) :
    RefRun.res_v64 (F := Ideal) a0 a1 a2 a3 a4 a5 a7 = refMid (RefRun.res_v40 (F := Ideal) a0 a1 a7) a2 a3 a4 a5 := rfl

/-- THE DENSE MIDDLE AT AN INDEX: for a real first aggregate and a real bias it is the plain second dense product of the
    plainly normalized, scaled, shifted and rectified (aggregate + bias). -/
theorem refMid_apply (A1 : FVec Ideal S200000x16 .f32) (b1 gamma beta : FVec Ideal S16 .f32) (w2 : FVec Ideal S16x3 .f32)
    (hA : ∀ i k, IsReal (A1 (ix2 i k))) (hb : ∀ k, IsReal (b1 (ix1 k))) (i : Fin 200000) (j : Fin 3) :
    refMid A1 b1 gamma beta w2 (ix2 i j)
      = Cert.Gcn.dense2 (fun i k => A1 (ix2 i k) + b1 (ix1 k)) (fun k => gamma (ix1 k)) (fun k => beta (ix1 k))
          (fun k j => w2 (ix2 k j)) i j := by
  unfold refMid
  rw [hw2_apply]
  have hH : (fun (i : Fin 200000) (k : Fin 16) => addBias16 (F := Ideal) A1 b1 (ix2 i k)) = fun i k => A1 (ix2 i k) + b1 (ix1 k) :=
    funext fun i => funext fun k => addBias16_apply A1 b1 i k
  refine Eq.trans (Finset.sum_congr rfl fun k _ => ?_)
    (refDense_eq (fun i k => A1 (ix2 i k) + b1 (ix1 k)) (fun k => gamma (ix1 k)) (fun k => beta (ix1 k)) (fun k j => w2 (ix2 k j)) i j
      fun i k => (hA i k).add (hb k))
  rw [act_apply, hH]

end Cert.ReferenceIdeal.Val

end
-- ==== Proof.RefRunWinA.lean ====
/- The first six stretches of the reference's operations read back from arbitrary buffer contents: what each
   leaves in the buffer later stretches read is the stage's function of the contents it reads. -/
import proofs.«167311_j59150289600863_2_alg».proof.Proof.RefRunKeep
import proofs.«167311_j59150289600863_2_alg».proof.Proof.RefRunStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! Each of the first six stretches read back from any contents `W` of the device's buffers: the value it leaves in
    the buffer later stretches read, as the stage's function of the contents it reads. -/

/-- The source index vector, from the edge table. -/
theorem opsA_v3 (W : Valuation τ sig (Elt F)) :
    after opsA W (Proc.devRef .tc main_v3) = srcIdx (W (Proc.devRef .tc main_arg7)) := by
  after_results_simp
  rfl

/-- The destination index vector, from the edge table. -/
theorem opsA_v6 (W : Valuation τ sig (Elt F)) :
    after opsA W (Proc.devRef .tc main_v6) = dstIdx (W (Proc.devRef .tc main_arg7)) := by
  after_results_simp
  rfl

/-- The edge-weight column, from the two index vectors. -/
theorem opsB_v27 (W : Valuation τ sig (Elt F)) :
    after opsB W (Proc.devRef .tc main_v27) = weightCol (W (Proc.devRef .tc main_v3)) (W (Proc.devRef .tc main_v6)) := by
  after_results_simp
  rfl

/-- The first aggregation, from the features, the first weights, the index vectors and the edge weights. -/
theorem opsC_v40 (W : Valuation τ sig (Elt F)) :
    after opsC W (Proc.devRef .tc main_v40) = aggregate16 (xw1 (W (Proc.devRef .tc main_arg0)) (W (Proc.devRef .tc main_arg1))) (W (Proc.devRef .tc main_v3)) (W (Proc.devRef .tc main_v6)) (W (Proc.devRef .tc main_v27)) := by
  after_results_simp
  rfl

/-- The first bias added. -/
theorem opsD_v43 (W : Valuation τ sig (Elt F)) :
    after opsD W (Proc.devRef .tc main_v43) = addBias16 (W (Proc.devRef .tc main_v40)) (W (Proc.devRef .tc main_arg2)) := by
  after_results_simp
  rfl

/-- The column means. -/
theorem opsE_v46 (W : Valuation τ sig (Elt F)) :
    after opsE W (Proc.devRef .tc main_v46) = colMean (W (Proc.devRef .tc main_v43)) := by
  after_results_simp
  rfl

/-- The column variances. -/
theorem opsF_v47 (W : Valuation τ sig (Elt F)) :
    after opsF W (Proc.devRef .tc main_v47) = colVar (W (Proc.devRef .tc main_v43)) := by
  after_results_simp
  rfl

end Cert.ReferenceIdeal.RefRun

end
-- ==== Proof.RefRunWinB.lean ====
/- The last four stretches of the reference's operations read back from arbitrary buffer contents; the
   log-softmax's stretch in three parts. -/
import proofs.«167311_j59150289600863_2_alg».proof.Proof.RefRunKeep
import proofs.«167311_j59150289600863_2_alg».proof.Proof.RefRunStages

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! Each of the last four stretches read back from any contents `W` of the device's buffers. -/

/-- The normalised, scaled, shifted and rectified table. -/
theorem opsG_v63 (W : Valuation τ sig (Elt F)) :
    after opsG W (Proc.devRef .tc main_v63) = relu16 (normalize (W (Proc.devRef .tc main_v43)) (W (Proc.devRef .tc main_v46)) (W (Proc.devRef .tc main_v47)) (W (Proc.devRef .tc main_arg3)) (W (Proc.devRef .tc main_arg4))) := by
  after_results_simp
  rfl

/-- The second aggregation, from the rectified table, the second weights, the index vectors and the edge weights. -/
theorem opsH_v76 (W : Valuation τ sig (Elt F)) :
    after opsH W (Proc.devRef .tc main_v76) = aggregate3 (hw2 (W (Proc.devRef .tc main_v63)) (W (Proc.devRef .tc main_arg5))) (W (Proc.devRef .tc main_v3)) (W (Proc.devRef .tc main_v6)) (W (Proc.devRef .tc main_v27)) := by
  after_results_simp
  rfl

/-- The second bias added. -/
theorem opsJ_v79 (W : Valuation τ sig (Elt F)) :
    after opsJ W (Proc.devRef .tc main_v79) = addBias3 (W (Proc.devRef .tc main_v76)) (W (Proc.devRef .tc main_arg6)) := by
  after_results_simp
  rfl

/-- The log-softmax's first two operations: the row maxima, from minus infinity. -/
abbrev opsK1a : List (HloOp τ sig (Elt F)) :=
  [ TRef.nullary main_call2.cst (constant S_ .f32 0xFF800000#32),
    TRef.binary (TRef.of (T := ⟨S200000x3, .f32⟩) main_v79) main_call2.cst main_call2.v0 (fun x v => Host.reduce FloatOps.maximumf x v reducesTo_S200000x3_S200000_d1 h_S_) ]

/-- Its next six: the maximum with minus infinity once more, broadcast along the rows and subtracted. -/
abbrev opsK1b : List (HloOp τ sig (Elt F)) :=
  [ TRef.nullary main_call2.cst_0 (constant S_ .f32 0xFF800000#32),
    TRef.unary main_call2.cst_0 main_call2.v1 (broadcastInDim S200000 ![] bcast_S_S200000),
    TRef.binary main_call2.v1 main_call2.v0 main_call2.v2 maximumf,
    TRef.unary main_call2.v2 main_call2.v3 (broadcastInDim S200000x1 ![0] bcast_S200000_S200000x1_0),
    TRef.unary main_call2.v3 main_call2.v4 (broadcastInDim S200000x3 ![0, 1] bcast_S200000x1_S200000x3_0_1),
    TRef.binary (TRef.of (T := ⟨S200000x3, .f32⟩) main_v79) main_call2.v4 main_call2.v5 subf ]

/-- Its last seven: the exponentials, their row sums, the logarithm, the subtraction. -/
abbrev opsK2 : List (HloOp τ sig (Elt F)) :=
  [ TRef.unary main_call2.v5 main_call2.v6 Host.exp,
    TRef.nullary main_call2.cst_1 (constant S_ .f32 0x00000000#32),
    TRef.binary main_call2.v6 main_call2.cst_1 main_call2.v7 (fun x v => Host.reduceAdd x v reducesTo_S200000x3_S200000_d1 h_S_),
    TRef.unary main_call2.v7 main_call2.v8 (broadcastInDim S200000x1 ![0] bcast_S200000_S200000x1_0),
    TRef.unary main_call2.v8 main_call2.v9 Host.log,
    TRef.unary main_call2.v9 main_call2.v10 (broadcastInDim S200000x3 ![0, 1] bcast_S200000x1_S200000x3_0_1),
    TRef.binary main_call2.v5 main_call2.v10 main_call2.v11 subf ]

theorem opsK_split : (opsK : List (HloOp τ sig (Elt F))) = opsK1a ++ (opsK1b ++ opsK2) := rfl

theorem opsK1a_v0 (W : Valuation τ sig (Elt F)) :
    after opsK1a W (Proc.devRef .tc main_call2_v0)
      = Host.reduce FloatOps.maximumf (W (Proc.devRef .tc main_v79)) (constant S_ .f32 0xFF800000#32) reducesTo_S200000x3_S200000_d1 h_S_ := by
  after_results_simp
  simp only [cast_eq]

theorem opsK1a_v79 (W : Valuation τ sig (Elt F)) :
    after opsK1a W (Proc.devRef .tc main_v79) = W (Proc.devRef .tc main_v79) := by
  after_results_simp

theorem opsK1b_v5 (W : Valuation τ sig (Elt F)) :
    after opsK1b W (Proc.devRef .tc main_call2_v5)
      = subf (W (Proc.devRef .tc main_v79))
          (colBcast3 (maximumf (broadcastInDim S200000 ![] bcast_S_S200000 (constant S_ .f32 0xFF800000#32)) (W (Proc.devRef .tc main_call2_v0)))) := by
  after_results_simp
  rfl

theorem opsK2_v80 (W : Valuation τ sig (Elt F)) :
    after opsK2 W (Proc.devRef .tc main_v80)
      = subf (W (Proc.devRef .tc main_call2_v5))
          (broadcastInDim S200000x3 ![0, 1] bcast_S200000x1_S200000x3_0_1 (Host.log (broadcastInDim S200000x1 ![0] bcast_S200000_S200000x1_0
            (Host.reduceAdd (Host.exp (W (Proc.devRef .tc main_call2_v5))) (constant S_ .f32 0x00000000#32) reducesTo_S200000x3_S200000_d1 h_S_)))) := by
  after_results_simp
  simp only [cast_eq]

/-- The log-softmax of every row. -/
theorem opsK_v80 (W : Valuation τ sig (Elt F)) :
    after opsK W (Proc.devRef .tc main_v80) = logSoftmax (W (Proc.devRef .tc main_v79)) := by
  rw [opsK_split, after_append, after_append, opsK2_v80, opsK1b_v5, opsK1a_v0, opsK1a_v79]
  rfl

end Cert.ReferenceIdeal.RefRun

end
-- ==== Proof.RefRunTerm.lean ====
/- The reference's result as a term: after each stretch every live buffer holds its stage's function of the eight
   arguments' contents (val1 … val10), so the fold of all 134 operations at the result buffer is res_v80 of the
   arguments' contents (result_term). -/
import proofs.«167311_j59150289600863_2_alg».proof.Proof.RefRunWinA
import proofs.«167311_j59150289600863_2_alg».proof.Proof.RefRunWinB

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! The buffers' contents after each stretch, from any contents `V` of the device's buffers: each live value at its
    composed term of the arguments. -/

/-- The contents before the first stretch. -/
def val0 (V : Valuation τ sig (Elt F)) : Valuation τ sig (Elt F) := V

/-- The contents after the first 1 stretch. -/
def val1 (V : Valuation τ sig (Elt F)) : Valuation τ sig (Elt F) := after opsA (val0 V)
theorem val1_v3 (V : Valuation τ sig (Elt F)) :
    val1 V (Proc.devRef .tc main_v3) = res_v3 (V (Proc.devRef .tc main_arg7)) :=
  opsA_v3 V
theorem val1_v6 (V : Valuation τ sig (Elt F)) :
    val1 V (Proc.devRef .tc main_v6) = res_v6 (V (Proc.devRef .tc main_arg7)) :=
  opsA_v6 V
theorem val1_arg0 (V : Valuation τ sig (Elt F)) :
    val1 V (Proc.devRef .tc main_arg0) = V (Proc.devRef .tc main_arg0) :=
  opsA_keep V main_arg0 (by decide)
theorem val1_arg1 (V : Valuation τ sig (Elt F)) :
    val1 V (Proc.devRef .tc main_arg1) = V (Proc.devRef .tc main_arg1) :=
  opsA_keep V main_arg1 (by decide)
theorem val1_arg2 (V : Valuation τ sig (Elt F)) :
    val1 V (Proc.devRef .tc main_arg2) = V (Proc.devRef .tc main_arg2) :=
  opsA_keep V main_arg2 (by decide)
theorem val1_arg3 (V : Valuation τ sig (Elt F)) :
    val1 V (Proc.devRef .tc main_arg3) = V (Proc.devRef .tc main_arg3) :=
  opsA_keep V main_arg3 (by decide)
theorem val1_arg4 (V : Valuation τ sig (Elt F)) :
    val1 V (Proc.devRef .tc main_arg4) = V (Proc.devRef .tc main_arg4) :=
  opsA_keep V main_arg4 (by decide)
theorem val1_arg5 (V : Valuation τ sig (Elt F)) :
    val1 V (Proc.devRef .tc main_arg5) = V (Proc.devRef .tc main_arg5) :=
  opsA_keep V main_arg5 (by decide)
theorem val1_arg6 (V : Valuation τ sig (Elt F)) :
    val1 V (Proc.devRef .tc main_arg6) = V (Proc.devRef .tc main_arg6) :=
  opsA_keep V main_arg6 (by decide)

/-- The contents after the first 2 stretches. -/
def val2 (V : Valuation τ sig (Elt F)) : Valuation τ sig (Elt F) := after opsB (val1 V)
theorem val2_v3 (V : Valuation τ sig (Elt F)) :
    val2 V (Proc.devRef .tc main_v3) = res_v3 (V (Proc.devRef .tc main_arg7)) :=
  (opsB_keep _ main_v3 (by decide)).trans (val1_v3 V)
theorem val2_v6 (V : Valuation τ sig (Elt F)) :
    val2 V (Proc.devRef .tc main_v6) = res_v6 (V (Proc.devRef .tc main_arg7)) :=
  (opsB_keep _ main_v6 (by decide)).trans (val1_v6 V)
theorem val2_v27 (V : Valuation τ sig (Elt F)) :
    val2 V (Proc.devRef .tc main_v27) = res_v27 (V (Proc.devRef .tc main_arg7)) := by
  unfold val2
  rw [opsB_v27, val1_v3, val1_v6]
  try rfl
theorem val2_arg0 (V : Valuation τ sig (Elt F)) :
    val2 V (Proc.devRef .tc main_arg0) = V (Proc.devRef .tc main_arg0) :=
  (opsB_keep _ main_arg0 (by decide)).trans (val1_arg0 V)
theorem val2_arg1 (V : Valuation τ sig (Elt F)) :
    val2 V (Proc.devRef .tc main_arg1) = V (Proc.devRef .tc main_arg1) :=
  (opsB_keep _ main_arg1 (by decide)).trans (val1_arg1 V)
theorem val2_arg2 (V : Valuation τ sig (Elt F)) :
    val2 V (Proc.devRef .tc main_arg2) = V (Proc.devRef .tc main_arg2) :=
  (opsB_keep _ main_arg2 (by decide)).trans (val1_arg2 V)
theorem val2_arg3 (V : Valuation τ sig (Elt F)) :
    val2 V (Proc.devRef .tc main_arg3) = V (Proc.devRef .tc main_arg3) :=
  (opsB_keep _ main_arg3 (by decide)).trans (val1_arg3 V)
theorem val2_arg4 (V : Valuation τ sig (Elt F)) :
    val2 V (Proc.devRef .tc main_arg4) = V (Proc.devRef .tc main_arg4) :=
  (opsB_keep _ main_arg4 (by decide)).trans (val1_arg4 V)
theorem val2_arg5 (V : Valuation τ sig (Elt F)) :
    val2 V (Proc.devRef .tc main_arg5) = V (Proc.devRef .tc main_arg5) :=
  (opsB_keep _ main_arg5 (by decide)).trans (val1_arg5 V)
theorem val2_arg6 (V : Valuation τ sig (Elt F)) :
    val2 V (Proc.devRef .tc main_arg6) = V (Proc.devRef .tc main_arg6) :=
  (opsB_keep _ main_arg6 (by decide)).trans (val1_arg6 V)

/-- The contents after the first 3 stretches. -/
def val3 (V : Valuation τ sig (Elt F)) : Valuation τ sig (Elt F) := after opsC (val2 V)
theorem val3_v3 (V : Valuation τ sig (Elt F)) :
    val3 V (Proc.devRef .tc main_v3) = res_v3 (V (Proc.devRef .tc main_arg7)) :=
  (opsC_keep _ main_v3 (by decide)).trans (val2_v3 V)
theorem val3_v6 (V : Valuation τ sig (Elt F)) :
    val3 V (Proc.devRef .tc main_v6) = res_v6 (V (Proc.devRef .tc main_arg7)) :=
  (opsC_keep _ main_v6 (by decide)).trans (val2_v6 V)
theorem val3_v27 (V : Valuation τ sig (Elt F)) :
    val3 V (Proc.devRef .tc main_v27) = res_v27 (V (Proc.devRef .tc main_arg7)) :=
  (opsC_keep _ main_v27 (by decide)).trans (val2_v27 V)
theorem val3_v40 (V : Valuation τ sig (Elt F)) :
    val3 V (Proc.devRef .tc main_v40) = res_v40 (V (Proc.devRef .tc main_arg0)) (V (Proc.devRef .tc main_arg1)) (V (Proc.devRef .tc main_arg7)) := by
  unfold val3
  rw [opsC_v40, val2_arg0, val2_arg1, val2_v3, val2_v6, val2_v27]
  try rfl
theorem val3_arg2 (V : Valuation τ sig (Elt F)) :
    val3 V (Proc.devRef .tc main_arg2) = V (Proc.devRef .tc main_arg2) :=
  (opsC_keep _ main_arg2 (by decide)).trans (val2_arg2 V)
theorem val3_arg3 (V : Valuation τ sig (Elt F)) :
    val3 V (Proc.devRef .tc main_arg3) = V (Proc.devRef .tc main_arg3) :=
  (opsC_keep _ main_arg3 (by decide)).trans (val2_arg3 V)
theorem val3_arg4 (V : Valuation τ sig (Elt F)) :
    val3 V (Proc.devRef .tc main_arg4) = V (Proc.devRef .tc main_arg4) :=
  (opsC_keep _ main_arg4 (by decide)).trans (val2_arg4 V)
theorem val3_arg5 (V : Valuation τ sig (Elt F)) :
    val3 V (Proc.devRef .tc main_arg5) = V (Proc.devRef .tc main_arg5) :=
  (opsC_keep _ main_arg5 (by decide)).trans (val2_arg5 V)
theorem val3_arg6 (V : Valuation τ sig (Elt F)) :
    val3 V (Proc.devRef .tc main_arg6) = V (Proc.devRef .tc main_arg6) :=
  (opsC_keep _ main_arg6 (by decide)).trans (val2_arg6 V)

/-- The contents after the first 4 stretches. -/
def val4 (V : Valuation τ sig (Elt F)) : Valuation τ sig (Elt F) := after opsD (val3 V)
theorem val4_v3 (V : Valuation τ sig (Elt F)) :
    val4 V (Proc.devRef .tc main_v3) = res_v3 (V (Proc.devRef .tc main_arg7)) :=
  (opsD_keep _ main_v3 (by decide)).trans (val3_v3 V)
theorem val4_v6 (V : Valuation τ sig (Elt F)) :
    val4 V (Proc.devRef .tc main_v6) = res_v6 (V (Proc.devRef .tc main_arg7)) :=
  (opsD_keep _ main_v6 (by decide)).trans (val3_v6 V)
theorem val4_v27 (V : Valuation τ sig (Elt F)) :
    val4 V (Proc.devRef .tc main_v27) = res_v27 (V (Proc.devRef .tc main_arg7)) :=
  (opsD_keep _ main_v27 (by decide)).trans (val3_v27 V)
theorem val4_v43 (V : Valuation τ sig (Elt F)) :
    val4 V (Proc.devRef .tc main_v43) = res_v43 (V (Proc.devRef .tc main_arg0)) (V (Proc.devRef .tc main_arg1)) (V (Proc.devRef .tc main_arg2)) (V (Proc.devRef .tc main_arg7)) := by
  unfold val4
  rw [opsD_v43, val3_v40, val3_arg2]
  try rfl
theorem val4_arg3 (V : Valuation τ sig (Elt F)) :
    val4 V (Proc.devRef .tc main_arg3) = V (Proc.devRef .tc main_arg3) :=
  (opsD_keep _ main_arg3 (by decide)).trans (val3_arg3 V)
theorem val4_arg4 (V : Valuation τ sig (Elt F)) :
    val4 V (Proc.devRef .tc main_arg4) = V (Proc.devRef .tc main_arg4) :=
  (opsD_keep _ main_arg4 (by decide)).trans (val3_arg4 V)
theorem val4_arg5 (V : Valuation τ sig (Elt F)) :
    val4 V (Proc.devRef .tc main_arg5) = V (Proc.devRef .tc main_arg5) :=
  (opsD_keep _ main_arg5 (by decide)).trans (val3_arg5 V)
theorem val4_arg6 (V : Valuation τ sig (Elt F)) :
    val4 V (Proc.devRef .tc main_arg6) = V (Proc.devRef .tc main_arg6) :=
  (opsD_keep _ main_arg6 (by decide)).trans (val3_arg6 V)

/-- The contents after the first 5 stretches. -/
def val5 (V : Valuation τ sig (Elt F)) : Valuation τ sig (Elt F) := after opsE (val4 V)
theorem val5_v3 (V : Valuation τ sig (Elt F)) :
    val5 V (Proc.devRef .tc main_v3) = res_v3 (V (Proc.devRef .tc main_arg7)) :=
  (opsE_keep _ main_v3 (by decide)).trans (val4_v3 V)
theorem val5_v6 (V : Valuation τ sig (Elt F)) :
    val5 V (Proc.devRef .tc main_v6) = res_v6 (V (Proc.devRef .tc main_arg7)) :=
  (opsE_keep _ main_v6 (by decide)).trans (val4_v6 V)
theorem val5_v27 (V : Valuation τ sig (Elt F)) :
    val5 V (Proc.devRef .tc main_v27) = res_v27 (V (Proc.devRef .tc main_arg7)) :=
  (opsE_keep _ main_v27 (by decide)).trans (val4_v27 V)
theorem val5_v43 (V : Valuation τ sig (Elt F)) :
    val5 V (Proc.devRef .tc main_v43) = res_v43 (V (Proc.devRef .tc main_arg0)) (V (Proc.devRef .tc main_arg1)) (V (Proc.devRef .tc main_arg2)) (V (Proc.devRef .tc main_arg7)) :=
  (opsE_keep _ main_v43 (by decide)).trans (val4_v43 V)
theorem val5_v46 (V : Valuation τ sig (Elt F)) :
    val5 V (Proc.devRef .tc main_v46) = res_v46 (V (Proc.devRef .tc main_arg0)) (V (Proc.devRef .tc main_arg1)) (V (Proc.devRef .tc main_arg2)) (V (Proc.devRef .tc main_arg7)) := by
  unfold val5
  rw [opsE_v46, val4_v43]
  try rfl
theorem val5_arg3 (V : Valuation τ sig (Elt F)) :
    val5 V (Proc.devRef .tc main_arg3) = V (Proc.devRef .tc main_arg3) :=
  (opsE_keep _ main_arg3 (by decide)).trans (val4_arg3 V)
theorem val5_arg4 (V : Valuation τ sig (Elt F)) :
    val5 V (Proc.devRef .tc main_arg4) = V (Proc.devRef .tc main_arg4) :=
  (opsE_keep _ main_arg4 (by decide)).trans (val4_arg4 V)
theorem val5_arg5 (V : Valuation τ sig (Elt F)) :
    val5 V (Proc.devRef .tc main_arg5) = V (Proc.devRef .tc main_arg5) :=
  (opsE_keep _ main_arg5 (by decide)).trans (val4_arg5 V)
theorem val5_arg6 (V : Valuation τ sig (Elt F)) :
    val5 V (Proc.devRef .tc main_arg6) = V (Proc.devRef .tc main_arg6) :=
  (opsE_keep _ main_arg6 (by decide)).trans (val4_arg6 V)

/-- The contents after the first 6 stretches. -/
def val6 (V : Valuation τ sig (Elt F)) : Valuation τ sig (Elt F) := after opsF (val5 V)
theorem val6_v3 (V : Valuation τ sig (Elt F)) :
    val6 V (Proc.devRef .tc main_v3) = res_v3 (V (Proc.devRef .tc main_arg7)) :=
  (opsF_keep _ main_v3 (by decide)).trans (val5_v3 V)
theorem val6_v6 (V : Valuation τ sig (Elt F)) :
    val6 V (Proc.devRef .tc main_v6) = res_v6 (V (Proc.devRef .tc main_arg7)) :=
  (opsF_keep _ main_v6 (by decide)).trans (val5_v6 V)
theorem val6_v27 (V : Valuation τ sig (Elt F)) :
    val6 V (Proc.devRef .tc main_v27) = res_v27 (V (Proc.devRef .tc main_arg7)) :=
  (opsF_keep _ main_v27 (by decide)).trans (val5_v27 V)
theorem val6_v43 (V : Valuation τ sig (Elt F)) :
    val6 V (Proc.devRef .tc main_v43) = res_v43 (V (Proc.devRef .tc main_arg0)) (V (Proc.devRef .tc main_arg1)) (V (Proc.devRef .tc main_arg2)) (V (Proc.devRef .tc main_arg7)) :=
  (opsF_keep _ main_v43 (by decide)).trans (val5_v43 V)
theorem val6_v46 (V : Valuation τ sig (Elt F)) :
    val6 V (Proc.devRef .tc main_v46) = res_v46 (V (Proc.devRef .tc main_arg0)) (V (Proc.devRef .tc main_arg1)) (V (Proc.devRef .tc main_arg2)) (V (Proc.devRef .tc main_arg7)) :=
  (opsF_keep _ main_v46 (by decide)).trans (val5_v46 V)
theorem val6_v47 (V : Valuation τ sig (Elt F)) :
    val6 V (Proc.devRef .tc main_v47) = res_v47 (V (Proc.devRef .tc main_arg0)) (V (Proc.devRef .tc main_arg1)) (V (Proc.devRef .tc main_arg2)) (V (Proc.devRef .tc main_arg7)) := by
  unfold val6
  rw [opsF_v47, val5_v43]
  try rfl
theorem val6_arg3 (V : Valuation τ sig (Elt F)) :
    val6 V (Proc.devRef .tc main_arg3) = V (Proc.devRef .tc main_arg3) :=
  (opsF_keep _ main_arg3 (by decide)).trans (val5_arg3 V)
theorem val6_arg4 (V : Valuation τ sig (Elt F)) :
    val6 V (Proc.devRef .tc main_arg4) = V (Proc.devRef .tc main_arg4) :=
  (opsF_keep _ main_arg4 (by decide)).trans (val5_arg4 V)
theorem val6_arg5 (V : Valuation τ sig (Elt F)) :
    val6 V (Proc.devRef .tc main_arg5) = V (Proc.devRef .tc main_arg5) :=
  (opsF_keep _ main_arg5 (by decide)).trans (val5_arg5 V)
theorem val6_arg6 (V : Valuation τ sig (Elt F)) :
    val6 V (Proc.devRef .tc main_arg6) = V (Proc.devRef .tc main_arg6) :=
  (opsF_keep _ main_arg6 (by decide)).trans (val5_arg6 V)

/-- The contents after the first 7 stretches. -/
def val7 (V : Valuation τ sig (Elt F)) : Valuation τ sig (Elt F) := after opsG (val6 V)
theorem val7_v3 (V : Valuation τ sig (Elt F)) :
    val7 V (Proc.devRef .tc main_v3) = res_v3 (V (Proc.devRef .tc main_arg7)) :=
  (opsG_keep _ main_v3 (by decide)).trans (val6_v3 V)
theorem val7_v6 (V : Valuation τ sig (Elt F)) :
    val7 V (Proc.devRef .tc main_v6) = res_v6 (V (Proc.devRef .tc main_arg7)) :=
  (opsG_keep _ main_v6 (by decide)).trans (val6_v6 V)
theorem val7_v27 (V : Valuation τ sig (Elt F)) :
    val7 V (Proc.devRef .tc main_v27) = res_v27 (V (Proc.devRef .tc main_arg7)) :=
  (opsG_keep _ main_v27 (by decide)).trans (val6_v27 V)
theorem val7_v63 (V : Valuation τ sig (Elt F)) :
    val7 V (Proc.devRef .tc main_v63) = res_v63 (V (Proc.devRef .tc main_arg0)) (V (Proc.devRef .tc main_arg1)) (V (Proc.devRef .tc main_arg2)) (V (Proc.devRef .tc main_arg3)) (V (Proc.devRef .tc main_arg4)) (V (Proc.devRef .tc main_arg7)) := by
  unfold val7
  rw [opsG_v63, val6_v43, val6_v46, val6_v47, val6_arg3, val6_arg4]
  try rfl
theorem val7_arg5 (V : Valuation τ sig (Elt F)) :
    val7 V (Proc.devRef .tc main_arg5) = V (Proc.devRef .tc main_arg5) :=
  (opsG_keep _ main_arg5 (by decide)).trans (val6_arg5 V)
theorem val7_arg6 (V : Valuation τ sig (Elt F)) :
    val7 V (Proc.devRef .tc main_arg6) = V (Proc.devRef .tc main_arg6) :=
  (opsG_keep _ main_arg6 (by decide)).trans (val6_arg6 V)

/-- The contents after the first 8 stretches. -/
def val8 (V : Valuation τ sig (Elt F)) : Valuation τ sig (Elt F) := after opsH (val7 V)
theorem val8_v76 (V : Valuation τ sig (Elt F)) :
    val8 V (Proc.devRef .tc main_v76) = res_v76 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg7)) := by
  unfold val8
  rw [opsH_v76, val7_v63, val7_arg5, val7_v3, val7_v6, val7_v27]
  try rfl
theorem val8_arg6 (V : Valuation τ sig (Elt F)) :
    val8 V (Proc.devRef .tc main_arg6) = V (Proc.devRef .tc main_arg6) :=
  (opsH_keep _ main_arg6 (by decide)).trans (val7_arg6 V)

/-- The contents after the first 9 stretches. -/
def val9 (V : Valuation τ sig (Elt F)) : Valuation τ sig (Elt F) := after opsJ (val8 V)
theorem val9_v79 (V : Valuation τ sig (Elt F)) :
    val9 V (Proc.devRef .tc main_v79) = res_v79 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold val9
  rw [opsJ_v79, val8_v76, val8_arg6]
  try rfl

/-- The contents after the first 10 stretches. -/
def val10 (V : Valuation τ sig (Elt F)) : Valuation τ sig (Elt F) := after opsK (val9 V)
theorem val10_v80 (V : Valuation τ sig (Elt F)) :
    val10 V (Proc.devRef .tc main_v80) = res_v80 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  unfold val10
  rw [opsK_v80, val9_v79]
  try rfl

/-- The operations' fold is the last of those contents. -/
theorem after_ops_val (V : Valuation τ sig (Elt F)) : after ops V = val10 V := by
  rw [after_ops]; rfl

/-- The result buffer after @main's operations, from any contents `V`: the log-softmax stage's term of the eight
    arguments' contents, through the named stages. -/
theorem result_term (V : Valuation τ sig (Elt F)) :
    after ops V (Proc.devRef .tc main_v80) = res_v80 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [after_ops_val]; exact val10_v80 V

/-- The same from a launch memory, the arguments read where `run` reads them. -/
theorem result_term_launch (m : (ℓ : Loc nD τ sig) → Buf (Elt F) ℓ) (c : Dev nD) :
    after ops (fun b => m (c, b)) (Proc.devRef .tc main_v80)
      = res_v80 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  result_term _

end Cert.ReferenceIdeal.RefRun

end
-- ==== Proof.GcnFiniteFn.lean ====
/-
  From "every float argument is finite" to "every entry of every float argument is a real number", over variables.

  The finiteness predicate is, for each of the seven float arguments, the conjunction over all entries of
  `|x| < +∞`, and the conjunction of these seven. At the extended reals `|x| = max x (−x)` is `+∞` exactly at the
  two infinities, so `|x| < +∞` says that `x` is a real number. A conjunction over all entries that came out true
  was true at every entry.
-/
import proofs.«167311_j59150289600863_2_alg».proof.Pre_finite_inputs
import proofs.«167311_j59150289600863_2_alg».proof.Proof.LibMeanProj
import Idealize.ShloMosaic.Lib.ReduceAll
import Idealize.ShloMosaic.Lib.ValueIdx
import Idealize.ShloMosaic.PureOps.Ideal

noncomputable section

namespace Cert.Gcn

open Idealize.ShloMosaic Idealize.ShloMosaic.ValueIdx Cert.LibMeanProj

/-- The f32 word of `+∞` is the extended real `⊤`. -/
theorem ofBits_inf_f32 : Ideal.ofBits .f32 0x7F800000#32 = ⊤ := by
  simp [Ideal.ofBits, Ideal.ieee]

/-- An extended real whose absolute value is below `+∞` is a real number. -/
theorem isReal_of_abs_lt_inf (x : EReal)
    (h : Ideal.cmp .olt (max x (-x)) (Ideal.ofBits .f32 0x7F800000#32) = 1#1) : IsReal x := by
  rw [ofBits_inf_f32] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- `jnp.all(|x| < inf)` that came out true: every entry of `x` is a real number. -/
theorem allReal_of_reduce {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (h : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hu ix0 = 1#1) (i : s.Idx) : IsReal (x i) :=
  isReal_of_abs_lt_inf (x i) (Host.reduce_andi_all _ _ hr hu ix0 h i)

/-- A conjunction of two `i1` scalars at their one index. -/
theorem andi_apply {s : Shape} {w : ℕ} (x y : IVec s w) (i : s.Idx) : andi x y i = IntOp.andi (x i) (y i) := rfl

open Cert.Pre_finite_inputs in
/-- THE PREDICATE READ BACK: if `finite_inputs` of the eight arguments is true, every entry of each of the seven float
    arguments is a real number. -/
theorem real_of_fn [Cert.Pre_finite_inputs.Facts]
    (a0 : FVec Ideal S200000x256 .f32) (a1 : FVec Ideal S256x16 .f32) (a2 a3 a4 : FVec Ideal S16 .f32)
    (a5 : FVec Ideal S16x3 .f32) (a6 : FVec Ideal S3 .f32) (a7 : IVec S2x6400000 32)
    (h : Cert.Pre_finite_inputs.fn (F := Ideal) a0 a1 a2 a3 a4 a5 a6 a7 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) ∧ (∀ i, IsReal (a6 i)) := by
  have h0 := congrFun h ix0
  dsimp only [Cert.Pre_finite_inputs.fn, Cert.Pre_finite_inputs.fn_part1] at h0
  simp only [andi_apply, IntOp.andi_eq_one] at h0
  obtain ⟨⟨⟨⟨⟨⟨h0, h1⟩, h2⟩, h3⟩, h4⟩, h5⟩, h6⟩ := h0
  exact ⟨allReal_of_reduce a0 _ _ _ h0, allReal_of_reduce a1 _ _ _ h1, allReal_of_reduce a2 _ _ _ h2,
    allReal_of_reduce a3 _ _ _ h3, allReal_of_reduce a4 _ _ _ h4, allReal_of_reduce a5 _ _ _ h5,
    allReal_of_reduce a6 _ _ _ h6⟩

end Cert.Gcn

end
-- ==== Proof.GcnFinite.lean ====
/-
  For a memory of which the finiteness precondition holds, every entry of each of the seven float argument arrays is a
  real number: the predicate read back (GcnFiniteFn) at the program's argument arrays.
-/
import proofs.«167311_j59150289600863_2_alg».proof.Defs
import proofs.«167311_j59150289600863_2_alg».proof.Proof.GcnFiniteFn

noncomputable section

namespace Cert.Gcn

open Idealize.ShloMosaic Idealize.SL.Sem Idealize.ShloMosaic.ValueIdx Cert.LibMeanProj

theorem real_of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ idx, IsReal ((m ((c.tc : Thread Cert.KernelIdeal.nD Cert.KernelIdeal.τ).loc Cert.KernelIdeal.main_arg0)
        : FVec Ideal Cert.KernelIdeal.S200000x256 .f32) idx))
    ∧ (∀ idx, IsReal ((m ((c.tc : Thread Cert.KernelIdeal.nD Cert.KernelIdeal.τ).loc Cert.KernelIdeal.main_arg1)
        : FVec Ideal Cert.KernelIdeal.S256x16 .f32) idx))
    ∧ (∀ idx, IsReal ((m ((c.tc : Thread Cert.KernelIdeal.nD Cert.KernelIdeal.τ).loc Cert.KernelIdeal.main_arg2)
        : FVec Ideal Cert.KernelIdeal.S16 .f32) idx))
    ∧ (∀ idx, IsReal ((m ((c.tc : Thread Cert.KernelIdeal.nD Cert.KernelIdeal.τ).loc Cert.KernelIdeal.main_arg3)
        : FVec Ideal Cert.KernelIdeal.S16 .f32) idx))
    ∧ (∀ idx, IsReal ((m ((c.tc : Thread Cert.KernelIdeal.nD Cert.KernelIdeal.τ).loc Cert.KernelIdeal.main_arg4)
        : FVec Ideal Cert.KernelIdeal.S16 .f32) idx))
    ∧ (∀ idx, IsReal ((m ((c.tc : Thread Cert.KernelIdeal.nD Cert.KernelIdeal.τ).loc Cert.KernelIdeal.main_arg5)
        : FVec Ideal Cert.KernelIdeal.S16x3 .f32) idx))
    ∧ (∀ idx, IsReal ((m ((c.tc : Thread Cert.KernelIdeal.nD Cert.KernelIdeal.τ).loc Cert.KernelIdeal.main_arg6)
        : FVec Ideal Cert.KernelIdeal.S3 .f32) idx)) :=
  real_of_fn _ _ _ _ _ _ _ _ (hpre c)

end Cert.Gcn

end
-- ==== Proof.Bridge.lean ====
/-
  The two programs' results are one array.

  For finite inputs and memories that agree on the eight arguments, the array the reference's operations leave in its
  result buffer is the array the idealized kernel program's last launch leaves in its own. Both are the row-wise
  log-softmax of the second aggregate plus the second bias, so it is enough that the second aggregates agree; both are
  the same aggregation — the same edges, the same weights — of the second dense product, so it is enough that the second
  dense products agree. Entry by entry both are the normalized, rectified first layer times the second weight matrix,
  the reference taking the variance as the mean squared deviation, the kernel as the mean of squares minus the squared
  mean, clamped below at zero. The two are equal because every entry of the first aggregate is a real number: the
  product of the finite features with the finite first weight matrix is real, every node has degree at least one (its
  own self-loop), so every edge weight is real, and a sum of real rows is real. The first aggregates themselves agree
  because the kernel's tiled product of features and weights is the reference's matrix product.
-/
import proofs.«167311_j59150289600863_2_alg».proof.Proof.Claims
import proofs.«167311_j59150289600863_2_alg».proof.Proof.KValue
import proofs.«167311_j59150289600863_2_alg».proof.Proof.KMid
import proofs.«167311_j59150289600863_2_alg».proof.Proof.KReal
import proofs.«167311_j59150289600863_2_alg».proof.Proof.RGraph
import proofs.«167311_j59150289600863_2_alg».proof.Proof.RDense
import proofs.«167311_j59150289600863_2_alg».proof.Proof.RefRunTerm
import proofs.«167311_j59150289600863_2_alg».proof.Proof.GcnFinite

set_option maxRecDepth 16384

noncomputable section

namespace Cert.Proof

open Idealize.ShloMosaic Idealize.ShloMosaic.TcCoe Idealize.SL.Sem Idealize.ShloMosaic.ValueIdx
open Cert.LibMeanProj

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The reference's first aggregate is the kernel program's: the host's matrix product is the tiled one, and the
    aggregation is the same function of it. -/
theorem ref_agg1 :
    Cert.ReferenceIdeal.RefRun.res_v40 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg7))
      = Cert.KernelIdeal.Val.agg1 m c := by
  unfold Cert.ReferenceIdeal.RefRun.res_v40 Cert.ReferenceIdeal.RefRun.res_v28 Cert.ReferenceIdeal.RefRun.res_v27
    Cert.ReferenceIdeal.RefRun.res_v3 Cert.ReferenceIdeal.RefRun.res_v6 Cert.KernelIdeal.Val.agg1
  refine (Cert.ReferenceIdeal.Val.aggregate16_eq _ _ _ _).trans ?_
  rw [Cert.ReferenceIdeal.Val.xw1_eq, Cert.ReferenceIdeal.Val.srcIdx_eq, Cert.ReferenceIdeal.Val.dstIdx_eq,
    Cert.ReferenceIdeal.Val.weightCol_eq]

/-- The reference's second dense product is what the kernel program's third launch leaves, when the first aggregate
    and the first bias are real: entry by entry both are the normalized, rectified first layer times the second
    weights, and the two variances agree on real data. -/
theorem ref_dense (hA : ∀ i k, IsReal (Cert.KernelIdeal.Val.agg1 m c (ix2 i k)))
    (hb : ∀ k, IsReal ((m ((c.tc : Thread Cert.KernelIdeal.nD Cert.KernelIdeal.τ).loc Cert.KernelIdeal.main_arg2)) (ix1 k))) :
    Cert.ReferenceIdeal.RefRun.res_v64 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7))
      = Cert.KernelIdeal.Gen.W6 m ρ c (Proc.devRef .tc Cert.KernelIdeal.main_v54) := by
  rw [Cert.KernelIdeal.Val.W6_dense]
  refine (Cert.ReferenceIdeal.Val.res_v64_eq_refMid _ _ _ _ _ _ _).trans ?_
  rw [ref_agg1 m c]
  funext idx
  obtain ⟨i, j, rfl⟩ : ∃ (i : Fin 200000) (j : Fin 3), idx = ix2 i j := ⟨idx 0, idx 1, eq_ix2 idx⟩
  refine (Cert.ReferenceIdeal.Val.refMid_apply _ _ _ _ _ hA hb i j).trans ?_
  have hs : ∀ k : Fin 16,
      (Cert.KernelIdeal.Gen.W4 m ρ c (Proc.devRef .tc Cert.KernelIdeal.main_v45_0) : Cert.KernelIdeal.S1x16.Idx → EReal)
          (ix2 (0 : Fin 1) k)
        = ∑ i : Fin 200000, ((Cert.KernelIdeal.Val.agg1 m c : Cert.KernelIdeal.S200000x16.Idx → EReal) (ix2 i k)
            + ((m ((c.tc : Thread Cert.KernelIdeal.nD Cert.KernelIdeal.τ).loc Cert.KernelIdeal.main_arg2)) : Cert.KernelIdeal.S16.Idx → EReal) (ix1 k)) := fun k => by
    rw [Cert.KernelIdeal.Val.W4_sum m ρ c k]
    simp only [Cert.KernelIdeal.Val.b1Row, Cert.KernelIdeal.Val.row16_apply]
  have hq : ∀ k : Fin 16,
      (Cert.KernelIdeal.Gen.W4 m ρ c (Proc.devRef .tc Cert.KernelIdeal.main_v45_1) : Cert.KernelIdeal.S1x16.Idx → EReal)
          (ix2 (0 : Fin 1) k)
        = ∑ i : Fin 200000, ((Cert.KernelIdeal.Val.agg1 m c : Cert.KernelIdeal.S200000x16.Idx → EReal) (ix2 i k)
              + ((m ((c.tc : Thread Cert.KernelIdeal.nD Cert.KernelIdeal.τ).loc Cert.KernelIdeal.main_arg2)) : Cert.KernelIdeal.S16.Idx → EReal) (ix1 k))
            * ((Cert.KernelIdeal.Val.agg1 m c : Cert.KernelIdeal.S200000x16.Idx → EReal) (ix2 i k)
              + ((m ((c.tc : Thread Cert.KernelIdeal.nD Cert.KernelIdeal.τ).loc Cert.KernelIdeal.main_arg2)) : Cert.KernelIdeal.S16.Idx → EReal) (ix1 k)) := fun k => by
    rw [Cert.KernelIdeal.Val.W4_sumsq m ρ c k]
    simp only [Cert.KernelIdeal.Val.b1Row, Cert.KernelIdeal.Val.row16_apply]
  exact (Cert.KernelIdeal.Val.norm2_dense2 _ _ _ _ _ _ _ hs hq i j).symm

/-- The reference's second aggregate is the kernel program's: the same aggregation of equal tables. -/
theorem ref_agg2 (hA : ∀ i k, IsReal (Cert.KernelIdeal.Val.agg1 m c (ix2 i k)))
    (hb : ∀ k, IsReal ((m ((c.tc : Thread Cert.KernelIdeal.nD Cert.KernelIdeal.τ).loc Cert.KernelIdeal.main_arg2)) (ix1 k))) :
    Cert.ReferenceIdeal.RefRun.res_v76 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg7))
      = Cert.KernelIdeal.Gen.W7 m ρ c (Proc.devRef .tc Cert.KernelIdeal.main_v66) := by
  rw [Cert.KernelIdeal.Val.W7_agg2]
  unfold Cert.ReferenceIdeal.RefRun.res_v76 Cert.ReferenceIdeal.RefRun.res_v27 Cert.ReferenceIdeal.RefRun.res_v3
    Cert.ReferenceIdeal.RefRun.res_v6
  refine (Cert.ReferenceIdeal.Val.aggregate3_eq _ _ _ _).trans ?_
  rw [ref_dense m ρ c hA hb, Cert.ReferenceIdeal.Val.srcIdx_eq, Cert.ReferenceIdeal.Val.dstIdx_eq,
    Cert.ReferenceIdeal.Val.weightCol_eq]

/-- THE BRIDGE. -/
theorem bridge : Cert.Proof.Claims.Bridge := by
  intro m ρ m' hpre hagree c
  obtain ⟨h0, h1, h2, h3, h4, h5, h6, h7⟩ := hagree c
  obtain ⟨rx, rw1, rb1, -, -, -, -⟩ := Cert.Gcn.real_of_pre m hpre c
  have hA : ∀ i k, IsReal (Cert.KernelIdeal.Val.agg1 m c (ix2 i k)) :=
    Cert.KernelIdeal.Val.agg1_real m c rx rw1
  have hb : ∀ k, IsReal ((m ((c.tc : Thread Cert.KernelIdeal.nD Cert.KernelIdeal.τ).loc Cert.KernelIdeal.main_arg2)) (ix1 k)) := fun k => rb1 (ix1 k)
  refine (Cert.ReferenceIdeal.RefRun.result_term (fun b => m' (c, b))).trans ?_
  show Cert.ReferenceIdeal.RefRun.res_v80 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7)) = _
  rw [h0, h1, h2, h3, h4, h5, h6, h7, Cert.KernelIdeal.Val.W8_value]
  unfold Cert.ReferenceIdeal.RefRun.res_v80 Cert.ReferenceIdeal.RefRun.res_v79
  rw [ref_agg2 m ρ c hA hb]
  funext idx
  obtain ⟨i, j, rfl⟩ : ∃ (i : Fin 200000) (j : Fin 3), idx = ix2 i j := ⟨idx 0, idx 1, eq_ix2 idx⟩
  refine (Cert.ReferenceIdeal.Val.logSoftmax_addBias3_apply _ _ i j).trans ?_
  rw [Cert.KernelIdeal.Val.logSoftArr_apply]
  simp only [Cert.KernelIdeal.Val.row3_apply]

end Cert.Proof

end
-- ==== Proof.lean ====
/- A two-layer graph convolution with batch normalization between the layers and a log-softmax at the end, on 200000
   nodes and 6400000 edges. A layer multiplies the node features by its weights, then sums at every node, over the
   edges into it and a self-loop, the source node's row weighted by the inverse square roots of the two endpoints'
   degrees, and adds its bias. Between the layers every feature is normalized with its mean and variance over all
   nodes, scaled, shifted and clamped below at zero; at the end every node's row is replaced by its log-softmax.
   The kernel program computes the dense parts in four launches tiled over blocks of 10000 rows — the first product;
   the column sums and sums of squares of the first aggregate plus bias; the normalization, the clamp and the second
   product; the second bias and the log-softmax — with the gathers and scatter-adds along the edges between them, and
   takes the variance as the mean of squares minus the squared mean, clamped below at zero. The reference computes the
   same arrays with whole-array operations and takes the variance as the mean of squared deviations. On the extended
   reals the two results are equal entry by entry: the products and sums are the same sums in another grouping, and
   for finite inputs the first aggregate is real, so the two variance formulas give one nonnegative number.
   The two kernel programs' frames are their generated frame runs and the reference's is its run with the result
   dropped; the idealization rewrote nothing; the algebraic claim is the two runs (Proof/KRun.lean, Proof/RefRun.lean)
   joined by the equality of their result arrays (Proof/Bridge.lean), assembled in Proof/Claims.lean behind the
   witnesses of the programs' stated facts. -/
import proofs.«167311_j59150289600863_2_alg».proof.Defs
import proofs.«167311_j59150289600863_2_alg».proof.Proof.Gen.Kernel
import proofs.«167311_j59150289600863_2_alg».proof.Proof.Gen.Kernel.Skeleton
import proofs.«167311_j59150289600863_2_alg».proof.Proof.Gen.Kernel.Launch
import proofs.«167311_j59150289600863_2_alg».proof.Proof.Gen.Kernel.Points
import proofs.«167311_j59150289600863_2_alg».proof.Proof.Gen.Kernel.Frame
import proofs.«167311_j59150289600863_2_alg».proof.Proof.Gen.KernelIdeal
import proofs.«167311_j59150289600863_2_alg».proof.Proof.Gen.KernelIdeal.Skeleton
import proofs.«167311_j59150289600863_2_alg».proof.Proof.Gen.KernelIdeal.Launch
import proofs.«167311_j59150289600863_2_alg».proof.Proof.Gen.KernelIdeal.Points
import proofs.«167311_j59150289600863_2_alg».proof.Proof.Gen.KernelIdeal.Frame
import proofs.«167311_j59150289600863_2_alg».proof.Proof.Gen.ReferenceIdeal
import proofs.«167311_j59150289600863_2_alg».proof.Proof.Gen.Pre_finite_inputs
import proofs.«167311_j59150289600863_2_alg».proof.Proof.Claims
import proofs.«167311_j59150289600863_2_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic_of_bridge Cert.Proof.bridge⟩

end Cert.Proof

end
